-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x16x112x112 : Shape := ⟨5, ![8, 32, 16, 112, 112]⟩
abbrev S8x16x32x112x112 : Shape := ⟨5, ![8, 16, 32, 112, 112]⟩
abbrev S_ : Shape := ⟨0, ![]⟩
abbrev S8x32x112x112 : Shape := ⟨4, ![8, 32, 112, 112]⟩
abbrev S8x16 : Shape := ⟨2, ![8, 16]⟩
abbrev S8 : Shape := ⟨1, ![8]⟩

class Facts : Prop where
  transposes_S8x32x16x112x112_S8x16x32x112x112_0_2_1_3_4 : S8x32x16x112x112.Transposes [0, 2, 1, 3, 4] S8x16x32x112x112
  reducesTo_S8x32x16x112x112_S8x32x112x112_d2 : S8x32x16x112x112.ReducesTo [2] S8x32x112x112
  h_S_ : 0 < S_.numel
  bcast_S_S8x32x112x112 : S_.BroadcastsInDim S8x32x112x112 (![] : Fin 0 → Fin S8x32x112x112.rank)
  bcast_S_S8x32x16x112x112 : S_.BroadcastsInDim S8x32x16x112x112 (![] : Fin 0 → Fin S8x32x16x112x112.rank)
  reducesTo_S8x32x16x112x112_S_d0_1_2_3_4 : S8x32x16x112x112.ReducesTo [0, 1, 2, 3, 4] S_
  reducesTo_S8x16x32x112x112_S8x16_d2_3_4 : S8x16x32x112x112.ReducesTo [2, 3, 4] S8x16
  reducesTo_S8x16_S_d0_1 : S8x16.ReducesTo [0, 1] S_
  reducesTo_S8x32x112x112_S8_d1_2_3 : S8x32x112x112.ReducesTo [1, 2, 3] S8
  reducesTo_S8_S_d0 : S8.ReducesTo [0] S_

variable [Facts]

def fn_part1 {F : FTy → Type} [FloatOps F] (main_v12 : IVec S_ 1) (main_v13 : FVec F S8 .f32) (main_v14 : FVec F S8 .f32) : IVec S_ 1 :=
  let main_v15 : IVec S8 1 := cmpf .olt main_v13 main_v14
  let main_c_7 : IVec S_ 1 := constantI S_ 1 1#1
  let main_v16 : IVec S_ 1 := (fun x v => Host.reduce IntOp.andi x v reducesTo_S8_S_d0 h_S_) main_v15 main_c_7
  let main_v17 : IVec S_ 1 := andi main_v12 main_v16
  main_v17

def fn {F : FTy → Type} [FloatOps F] (main_arg0 : FVec F S8x32x16x112x112 .f32) : IVec S_ 1 :=
  let main_v0 : FVec F S8x16x32x112x112 .f32 := (transpose S8x16x32x112x112 [0, 2, 1, 3, 4] · transposes_S8x32x16x112x112_S8x16x32x112x112_0_2_1_3_4) main_arg0
  let main_cst : FVec F S_ .f32 := constant S_ .f32 0x00000000#32
  let main_v1 : FVec F S8x32x112x112 .f32 := (fun x v => Host.reduceAdd x v reducesTo_S8x32x16x112x112_S8x32x112x112_d2 h_S_) main_arg0 main_cst
  let main_cst_0 : FVec F S_ .f32 := constant S_ .f32 0x41800000#32
  let main_v2 : FVec F S8x32x112x112 .f32 := broadcastInDim S8x32x112x112 ![] bcast_S_S8x32x112x112 main_cst_0
  let main_v3 : FVec F S8x32x112x112 .f32 := Host.divf main_v1 main_v2
  let main_v4 : FVec F S8x32x16x112x112 .f32 := Host.absf main_arg0
  let main_cst_1 : FVec F S_ .f32 := constant S_ .f32 0x7F800000#32
  let main_v5 : FVec F S8x32x16x112x112 .f32 := broadcastInDim S8x32x16x112x112 ![] bcast_S_S8x32x16x112x112 main_cst_1
  let main_v6 : IVec S8x32x16x112x112 1 := cmpf .olt main_v4 main_v5
  let main_c : IVec S_ 1 := constantI S_ 1 1#1
  let main_v7 : IVec S_ 1 := (fun x v => Host.reduce IntOp.andi x v reducesTo_S8x32x16x112x112_S_d0_1_2_3_4 h_S_) main_v6 main_c
  let main_cst_2 : FVec F S_ .f32 := constant S_ .f32 0x7F800000#32
  let main_v8 : FVec F S8x16 .f32 := (fun x v => Host.reduce FloatOps.minimumf x v reducesTo_S8x16x32x112x112_S8x16_d2_3_4 h_S_) main_v0 main_cst_2
  let main_cst_3 : FVec F S_ .f32 := constant S_ .f32 0xFF800000#32
  let main_v9 : FVec F S8x16 .f32 := (fun x v => Host.reduce FloatOps.maximumf x v reducesTo_S8x16x32x112x112_S8x16_d2_3_4 h_S_) main_v0 main_cst_3
  let main_v10 : IVec S8x16 1 := cmpf .olt main_v8 main_v9
  let main_c_4 : IVec S_ 1 := constantI S_ 1 1#1
  let main_v11 : IVec S_ 1 := (fun x v => Host.reduce IntOp.andi x v reducesTo_S8x16_S_d0_1 h_S_) main_v10 main_c_4
  let main_v12 : IVec S_ 1 := andi main_v7 main_v11
  let main_cst_5 : FVec F S_ .f32 := constant S_ .f32 0x7F800000#32
  let main_v13 : FVec F S8 .f32 := (fun x v => Host.reduce FloatOps.minimumf x v reducesTo_S8x32x112x112_S8_d1_2_3 h_S_) main_v3 main_cst_5
  let main_cst_6 : FVec F S_ .f32 := constant S_ .f32 0xFF800000#32
  let main_v14 : FVec F S8 .f32 := (fun x v => Host.reduce FloatOps.maximumf x v reducesTo_S8x32x112x112_S8_d1_2_3 h_S_) main_v3 main_cst_6
  fn_part1 (F := F) main_v12 main_v13 main_v14
-- ==== Kernel.lean ====
abbrev S8x32x16x112x112 : Shape := ⟨5, ![8, 32, 16, 112, 112]⟩
abbrev S8x32x112x112 : Shape := ⟨4, ![8, 32, 112, 112]⟩
abbrev S8x16x1 : Shape := ⟨3, ![8, 16, 1]⟩
abbrev S1x8x16x112x112 : Shape := ⟨5, ![1, 8, 16, 112, 112]⟩
abbrev S1x8x112x112 : Shape := ⟨4, ![1, 8, 112, 112]⟩
abbrev S1x16x1 : Shape := ⟨3, ![1, 16, 1]⟩
abbrev S16x1 : Shape := ⟨2, ![16, 1]⟩
abbrev S8x16x112x112 : Shape := ⟨4, ![8, 16, 112, 112]⟩
abbrev S8x112x112 : Shape := ⟨3, ![8, 112, 112]⟩
abbrev S8x16x112 : Shape := ⟨3, ![8, 16, 112]⟩
abbrev S8x16 : Shape := ⟨2, ![8, 16]⟩
abbrev S8x1x112x112 : Shape := ⟨4, ![8, 1, 112, 112]⟩
abbrev S_ : Shape := ⟨0, ![]⟩
abbrev S8 : Shape := ⟨1, ![8]⟩
abbrev S8x1 : Shape := ⟨2, ![8, 1]⟩
abbrev S8x1x1x1 : Shape := ⟨4, ![8, 1, 1, 1]⟩
abbrev S8x1x16 : Shape := ⟨3, ![8, 1, 16]⟩
abbrev S1x1x16 : Shape := ⟨3, ![1, 1, 16]⟩
abbrev S1x16 : Shape := ⟨2, ![1, 16]⟩
abbrev S16 : Shape := ⟨1, ![16]⟩
abbrev S1x16x1x1 : Shape := ⟨4, ![1, 16, 1, 1]⟩

abbrev nBuf : Space → Nat
  | .hbm => 111
  | .vmem => 30
  | .smem => 0
  | _ => 0

abbrev bufTy : (tb : Table) → Fin (tcTables nBuf tb) → BufTy
  | .hbm, ⟨0, _⟩ => ⟨S8x32x16x112x112, .f32⟩
  | .hbm, ⟨1, _⟩ => ⟨S8x32x112x112, .f32⟩
  | .hbm, ⟨2, _⟩ => ⟨S8x16x1, .f32⟩
  | .hbm, ⟨3, _⟩ => ⟨S8x16x1, .f32⟩
  | .hbm, ⟨4, _⟩ => ⟨S8x16x1, .f32⟩
  | .hbm, ⟨5, _⟩ => ⟨S8x16x1, .f32⟩
  | .hbm, ⟨6, _⟩ => ⟨S8x16x1, .f32⟩
  | .hbm, ⟨7, _⟩ => ⟨S8x16, .f32⟩
  | .hbm, ⟨8, _⟩ => ⟨S8x16, .f32⟩
  | .hbm, ⟨9, _⟩ => ⟨S8x16, .f32⟩
  | .hbm, ⟨10, _⟩ => ⟨S8x16, .f32⟩
  | .hbm, ⟨11, _⟩ => ⟨S8x16, .f32⟩
  | .hbm, ⟨12, _⟩ => ⟨S_, .f32⟩
  | .hbm, ⟨13, _⟩ => ⟨S8x16, .f32⟩
  | .hbm, ⟨14, _⟩ => ⟨S8x16, .f32⟩
  | .hbm, ⟨15, _⟩ => ⟨S_, .f32⟩
  | .hbm, ⟨16, _⟩ => ⟨S8x16, .f32⟩
  | .hbm, ⟨17, _⟩ => ⟨S8x16, .f32⟩
  | .hbm, ⟨18, _⟩ => ⟨S8x16, .f32⟩
  | .hbm, ⟨19, _⟩ => ⟨S8x16, .f32⟩
  | .hbm, ⟨20, _⟩ => ⟨S_, .f32⟩
  | .hbm, ⟨21, _⟩ => ⟨S8x16, .f32⟩
  | .hbm, ⟨22, _⟩ => ⟨S8x16, .f32⟩
  | .hbm, ⟨23, _⟩ => ⟨S8x16, .f32⟩
  | .hbm, ⟨24, _⟩ => ⟨S_, .f32⟩
  | .hbm, ⟨25, _⟩ => ⟨S8, .f32⟩
  | .hbm, ⟨26, _⟩ => ⟨S8x32x112x112, .f32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8x16, .f32⟩
  | .hbm, ⟨47, _⟩ => ⟨S8x16, .f32⟩
  | .hbm, ⟨48, _⟩ => ⟨S8x1, .f32⟩
  | .hbm, ⟨49, _⟩ => ⟨S8x16, .f32⟩
  | .hbm, ⟨50, _⟩ => ⟨S8x16, .f32⟩
  | .hbm, ⟨51, _⟩ => ⟨S8x16, .f32⟩
  | .hbm, ⟨52, _⟩ => ⟨S_, .f32⟩
  | .hbm, ⟨53, _⟩ => ⟨S8x16, .f32⟩
  | .hbm, ⟨54, _⟩ => ⟨S8x16, .f32⟩
  | .hbm, ⟨55, _⟩ => ⟨S8x1, .f32⟩
  | .hbm, ⟨56, _⟩ => ⟨S8x16, .f32⟩
  | .hbm, ⟨57, _⟩ => ⟨S8x16, .f32⟩
  | .hbm, ⟨58, _⟩ => ⟨S8x16, .f32⟩
  | .hbm, ⟨59, _⟩ => ⟨S_, .f32⟩
  | .hbm, ⟨60, _⟩ => ⟨S8x16, .f32⟩
  | .hbm, ⟨61, _⟩ => ⟨S8x16, .f32⟩
  | .hbm, ⟨62, _⟩ => ⟨S8x16, .f32⟩
  | .hbm, ⟨63, _⟩ => ⟨S8x16, .f32⟩
  | .hbm, ⟨64, _⟩ => ⟨S8x16, .f32⟩
  | .hbm, ⟨65, _⟩ => ⟨S8x16, .f32⟩
  | .hbm, ⟨66, _⟩ => ⟨S8x16, .f32⟩
  | .hbm, ⟨67, _⟩ => ⟨S_, .f32⟩
  | .hbm, ⟨68, _⟩ => ⟨S8x16, .f32⟩
  | .hbm, ⟨69, _⟩ => ⟨S8x16, .f32⟩
  | .hbm, ⟨70, _⟩ => ⟨S8x16, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S8, .f32⟩
  | .hbm, ⟨75, _⟩ => ⟨S8, .f32⟩
  | .hbm, ⟨76, _⟩ => ⟨S8, .f32⟩
  | .hbm, ⟨77, _⟩ => ⟨S8, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S8, .f32⟩
  | .hbm, ⟨83, _⟩ => ⟨S8x1x1x1, .f32⟩
  | .hbm, ⟨84, _⟩ => ⟨S8x32x112x112, .f32⟩
  | .hbm, ⟨85, _⟩ => ⟨S8x32x112x112, .f32⟩
  | .hbm, ⟨86, _⟩ => ⟨S8x1x1x1, .f32⟩
  | .hbm, ⟨87, _⟩ => ⟨S8x32x112x112, .f32⟩
  | .hbm, ⟨88, _⟩ => ⟨S8x32x112x112, .f32⟩
  | .hbm, ⟨89, _⟩ => ⟨S8x1x16, .f32⟩
  | .hbm, ⟨90, _⟩ => ⟨S8x1x16, .f32⟩
  | .hbm, ⟨91, _⟩ => ⟨S8x16x1, .f32⟩
  | .hbm, ⟨92, _⟩ => ⟨S8x16, .f32⟩
  | .hbm, ⟨93, _⟩ => ⟨S_, .f32⟩
  | .hbm, ⟨94, _⟩ => ⟨S8x16, .f32⟩
  | .hbm, ⟨95, _⟩ => ⟨S8x16, .f32⟩
  | .hbm, ⟨96, _⟩ => ⟨S_, .f32⟩
  | .hbm, ⟨97, _⟩ => ⟨S8x16, .f32⟩
  | .hbm, ⟨98, _⟩ => ⟨S8x16, .f32⟩
  | .hbm, ⟨99, _⟩ => ⟨S8x16, .f32⟩
  | .hbm, ⟨100, _⟩ => ⟨S_, .f32⟩
  | .hbm, ⟨101, _⟩ => ⟨S8x16, .f32⟩
  | .hbm, ⟨102, _⟩ => ⟨S8x16, .f32⟩
  | .hbm, ⟨103, _⟩ => ⟨S_, .f32⟩
  | .hbm, ⟨104, _⟩ => ⟨S8, .f32⟩
  | .hbm, ⟨105, _⟩ => ⟨S8x1, .f32⟩
  | .hbm, ⟨106, _⟩ => ⟨S8x16, .f32⟩
  | .hbm, ⟨107, _⟩ => ⟨S8x16, .f32⟩
  | .hbm, ⟨108, _⟩ => ⟨S8x16, .f32⟩
  | .hbm, ⟨109, _⟩ => ⟨S8x1x16, .f32⟩
  | .hbm, ⟨110, _⟩ => ⟨S8x32x16x112x112, .f32⟩
  | .local _ .vmem, ⟨0, _⟩ => ⟨S1x8x16x112x112, .f32⟩
  | .local _ .vmem, ⟨1, _⟩ => ⟨S1x8x16x112x112, .f32⟩
  | .local _ .vmem, ⟨2, _⟩ => ⟨S1x8x112x112, .f32⟩
  | .local _ .vmem, ⟨3, _⟩ => ⟨S1x8x112x112, .f32⟩
  | .local _ .vmem, ⟨4, _⟩ => ⟨S1x16x1, .f32⟩
  | .local _ .vmem, ⟨5, _⟩ => ⟨S1x16x1, .f32⟩
  | .local _ .vmem, ⟨6, _⟩ => ⟨S1x16x1, .f32⟩
  | .local _ .vmem, ⟨7, _⟩ => ⟨S1x16x1, .f32⟩
  | .local _ .vmem, ⟨8, _⟩ => ⟨S1x16x1, .f32⟩
  | .local _ .vmem, ⟨9, _⟩ => ⟨S1x16x1, .f32⟩
  | .local _ .vmem, ⟨10, _⟩ => ⟨S1x16x1, .f32⟩
  | .local _ .vmem, ⟨11, _⟩ => ⟨S1x16x1, .f32⟩
  | .local _ .vmem, ⟨12, _⟩ => ⟨S1x16x1, .f32⟩
  | .local _ .vmem, ⟨13, _⟩ => ⟨S1x16x1, .f32⟩
  | .local _ .vmem, ⟨14, _⟩ => ⟨S1x8x16x112x112, .f32⟩
  | .local _ .vmem, ⟨15, _⟩ => ⟨S1x8x16x112x112, .f32⟩
  | .local _ .vmem, ⟨16, _⟩ => ⟨S1x8x112x112, .f32⟩
  | .local _ .vmem, ⟨17, _⟩ => ⟨S1x8x112x112, .f32⟩
  | .local _ .vmem, ⟨18, _⟩ => ⟨S1x1x16, .f32⟩
  | .local _ .vmem, ⟨19, _⟩ => ⟨S1x1x16, .f32⟩
  | .local _ .vmem, ⟨20, _⟩ => ⟨S1x1x16, .f32⟩
  | .local _ .vmem, ⟨21, _⟩ => ⟨S1x1x16, .f32⟩
  | .local _ .vmem, ⟨22, _⟩ => ⟨S1x16x1, .f32⟩
  | .local _ .vmem, ⟨23, _⟩ => ⟨S1x16x1, .f32⟩
  | .local _ .vmem, ⟨24, _⟩ => ⟨S1x8x16x112x112, .f32⟩
  | .local _ .vmem, ⟨25, _⟩ => ⟨S1x8x16x112x112, .f32⟩
  | .local _ .vmem, ⟨26, _⟩ => ⟨S1x1x16, .f32⟩
  | .local _ .vmem, ⟨27, _⟩ => ⟨S1x1x16, .f32⟩
  | .local _ .vmem, ⟨28, _⟩ => ⟨S1x8x16x112x112, .f32⟩
  | .local _ .vmem, ⟨29, _⟩ => ⟨S1x8x16x112x112, .f32⟩
  | _, _ => ⟨S8x32x16x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_cst_16 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_17 : Ref sig .tc := ⟨.hbm, 100, rfl⟩
abbrev main_v76 : Ref sig .tc := ⟨.hbm, 101, rfl⟩
abbrev main_v77 : Ref sig .tc := ⟨.hbm, 102, rfl⟩
abbrev main_cst_18 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x16x112x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x112x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 4], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8x16x112x112 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x112x112 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x16x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 4], ![false, false]⟩

def cc2_transform_0 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage2_0 : Fin 2 → Memref sig .tc .vmem S1x8x16x112x112 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x8x16x112x112 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S1x16x1_S1x16x1_0_0_0 : ∀ a, (![0, 0, 0] : Fin 3 → Nat) a + S1x16x1.size a ≤ S1x16x1.size a
  h_S1x16x1 : 0 < S1x16x1.numel
  shapeCasts_S1x16x1_S16x1 : S1x16x1.ShapeCasts S16x1
  shapeCasts_S16x1_S1x16x1 : S16x1.ShapeCasts S1x16x1
  inb_S1x8x16x112x112_S1x8x16x112x112_0_0_0_0_0 : ∀ a, (![0, 0, 0, 0, 0] : Fin 5 → Nat) a + S1x8x16x112x112.size a ≤ S1x8x16x112x112.size a
  h_S1x8x16x112x112 : 0 < S1x8x16x112x112.numel
  shapeCasts_S1x8x16x112x112_S8x16x112x112 : S1x8x16x112x112.ShapeCasts S8x16x112x112
  reduces_S8x16x112x112_S8x112x112 : S8x16x112x112.Reduces [1] S8x112x112
  inb_S1x8x112x112_S1x8x112x112_0_0_0_0 : ∀ a, (![0, 0, 0, 0] : Fin 4 → Nat) a + S1x8x112x112.size a ≤ S1x8x112x112.size a
  h_S1x8x112x112 : 0 < S1x8x112x112.numel
  shapeCasts_S1x8x112x112_S8x112x112 : S1x8x112x112.ShapeCasts S8x112x112
  shapeCasts_S8x112x112_S1x8x112x112 : S8x112x112.ShapeCasts S1x8x112x112
  reduces_S8x16x112x112_S8x16x112 : S8x16x112x112.Reduces [3] S8x16x112
  reduces_S8x16x112_S8x16 : S8x16x112.Reduces [2] S8x16
  shapeCasts_S8x16_S8x16x1 : S8x16.ShapeCasts S8x16x1
  reduces_S8x16x1_S16x1 : S8x16x1.Reduces [0] S16x1
  shapeCasts_S8x112x112_S8x1x112x112 : S8x112x112.ShapeCasts S8x1x112x112
  broadcasts_S8x1x112x112_S8x16x112x112 : S8x1x112x112.Broadcasts S8x16x112x112
  shapeCasts_S8x16x1_S8x16 : S8x16x1.ShapeCasts S8x16
  bcast_S_S8x16 : S_.BroadcastsInDim S8x16 (![] : Fin 0 → Fin S8x16.rank)
  reducesTo_S8x32x112x112_S8_d1_2_3 : S8x32x112x112.ReducesTo [1, 2, 3] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x16_0_1 : S8x1.BroadcastsInDim S8x16 (![0, 1] : Fin 2 → Fin S8x16.rank)
  bcast_S8_S8x1x1x1_0 : S8.BroadcastsInDim S8x1x1x1 (![0] : Fin 1 → Fin S8x1x1x1.rank)
  bcast_S8x1x1x1_S8x32x112x112_0_1_2_3 : S8x1x1x1.BroadcastsInDim S8x32x112x112 (![0, 1, 2, 3] : Fin 4 → Fin S8x32x112x112.rank)
  shapeCasts_S8x16_S8x1x16 : S8x16.ShapeCasts S8x1x16
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  shapeCasts_S1x16_S16 : S1x16.ShapeCasts S16
  shapeCasts_S16_S1x16x1x1 : S16.ShapeCasts S1x16x1x1
  broadcasts_S1x16x1x1_S8x16x112x112 : S1x16x1x1.Broadcasts S8x16x112x112
  reducesTo_S8x16_S8_d1 : S8x16.ReducesTo [1] S8
  shapeCasts_S8x16x112x112_S1x8x16x112x112 : S8x16x112x112.ShapeCasts S1x8x16x112x112
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x16x112x112.size a ≤ S8x32x16x112x112.size a
  hwx0_0 : ∀ i : grid0.Coords, EltTy.bits .f32 = 32 ∨ (Rect.block (s := S8x32x16x112x112) S1x8x16x112x112.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x112x112.size a ≤ S8x32x112x112.size a
  hwx0_1 : ∀ i : grid0.Coords, EltTy.bits .f32 = 32 ∨ (Rect.block (s := S8x32x112x112) S1x8x112x112.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x1.size a ≤ S8x16x1.size a
  hwx0_2 : ∀ i : grid0.Coords, EltTy.bits .f32 = 32 ∨ (Rect.block (s := S8x16x1) S1x16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1.size a ≤ S8x16x1.size a
  hwx0_3 : ∀ i : grid0.Coords, EltTy.bits .f32 = 32 ∨ (Rect.block (s := S8x16x1) S1x16x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x1.size a ≤ S8x16x1.size a
  hwx0_4 : ∀ i : grid0.Coords, EltTy.bits .f32 = 32 ∨ (Rect.block (s := S8x16x1) S1x16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x1.size a ≤ S8x16x1.size a
  hwx0_5 : ∀ i : grid0.Coords, EltTy.bits .f32 = 32 ∨ (Rect.block (s := S8x16x1) S1x16x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x1.size a ≤ S8x16x1.size a
  hwx0_6 : ∀ i : grid0.Coords, EltTy.bits .f32 = 32 ∨ (Rect.block (s := S8x16x1) S1x16x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x16x112x112.size a ≤ S8x32x16x112x112.size a
  hwx1_0 : ∀ i : grid1.Coords, EltTy.bits .f32 = 32 ∨ (Rect.block (s := S8x32x16x112x112) S1x8x16x112x112.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x112x112.size a ≤ S8x32x112x112.size a
  hwx1_1 : ∀ i : grid1.Coords, EltTy.bits .f32 = 32 ∨ (Rect.block (s := S8x32x112x112) S1x8x112x112.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x16.size a ≤ S8x1x16.size a
  hwx1_2 : ∀ i : grid1.Coords, EltTy.bits .f32 = 32 ∨ (Rect.block (s := S8x1x16) S1x1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x16.size a ≤ S8x1x16.size a
  hwx1_3 : ∀ i : grid1.Coords, EltTy.bits .f32 = 32 ∨ (Rect.block (s := S8x1x16) S1x1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x16x1.size a ≤ S8x16x1.size a
  hwx1_4 : ∀ i : grid1.Coords, EltTy.bits .f32 = 32 ∨ (Rect.block (s := S8x16x1) S1x16x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x8x16x112x112.size a ≤ S8x32x16x112x112.size a
  hwx2_0 : ∀ i : grid2.Coords, EltTy.bits .f32 = 32 ∨ (Rect.block (s := S8x32x16x112x112) S1x8x16x112x112.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x16.size a ≤ S8x1x16.size a
  hwx2_1 : ∀ i : grid2.Coords, EltTy.bits .f32 = 32 ∨ (Rect.block (s := S8x1x16) S1x1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x8x16x112x112.size a ≤ S8x32x16x112x112.size a
  hwx2_2 : ∀ i : grid2.Coords, EltTy.bits .f32 = 32 ∨ (Rect.block (s := S8x32x16x112x112) S1x8x16x112x112.size (cc2_transform_2 i) (hinb2_2 i)).WholeWords (EltTy.packing .f32)

variable [Facts₀]

abbrev win0_0 : Pipeline.Window sig grid0 :=
  Pipeline.Window.ofSpec (Memref.whole main_arg0) S1x8x16x112x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x8x112x112.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x16x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x16x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S1x16x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_4) S1x16x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_5) S1x16x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x8x16x112x112.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S1x8x112x112.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x1x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v68) S1x1x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v69) S1x16x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S1x8x16x112x112.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S1x1x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x8x16x112x112.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x32x16x112x112 : Shape := ⟨5, ![8, 32, 16, 112, 112]⟩
abbrev S_ : Shape := ⟨0, ![]⟩
abbrev S8x32x112x112 : Shape := ⟨4, ![8, 32, 112, 112]⟩
abbrev S8x16x32x112x112 : Shape := ⟨5, ![8, 16, 32, 112, 112]⟩
abbrev S8x16 : Shape := ⟨2, ![8, 16]⟩
abbrev S8x16x1x1x1 : Shape := ⟨5, ![8, 16, 1, 1, 1]⟩
abbrev S8 : Shape := ⟨1, ![8]⟩
abbrev S8x1x1x1 : Shape := ⟨4, ![8, 1, 1, 1]⟩
abbrev S8x1x32x112x112 : Shape := ⟨5, ![8, 1, 32, 112, 112]⟩
abbrev S8x1 : Shape := ⟨2, ![8, 1]⟩
abbrev S8x1x16x1x1 : Shape := ⟨5, ![8, 1, 16, 1, 1]⟩

abbrev nBuf : Space → Nat
  | .hbm => 119
  | .vmem => 0
  | .smem => 0
  | _ => 0

abbrev bufTy : (tb : Table) → Fin (tcTables nBuf tb) → BufTy
  | .hbm, ⟨0, _⟩ => ⟨S8x32x16x112x112, .f32⟩
  | .hbm, ⟨1, _⟩ => ⟨S_, .f32⟩
  | .hbm, ⟨2, _⟩ => ⟨S8x32x112x112, .f32⟩
  | .hbm, ⟨3, _⟩ => ⟨S_, .f32⟩
  | .hbm, ⟨4, _⟩ => ⟨S8x32x112x112, .f32⟩
  | .hbm, ⟨5, _⟩ => ⟨S8x32x112x112, .f32⟩
  | .hbm, ⟨6, _⟩ => ⟨S8x16x32x112x112, .f32⟩
  | .hbm, ⟨7, _⟩ => ⟨S_, .f32⟩
  | .hbm, ⟨8, _⟩ => ⟨S8x16, .f32⟩
  | .hbm, ⟨9, _⟩ => ⟨S8x16x1x1x1, .f32⟩
  | .hbm, ⟨10, _⟩ => ⟨S_, .f32⟩
  | .hbm, ⟨11, _⟩ => ⟨S8x16x1x1x1, .f32⟩
  | .hbm, ⟨12, _⟩ => ⟨S8x16x1x1x1, .f32⟩
  | .hbm, ⟨13, _⟩ => ⟨S8x16x32x112x112, .f32⟩
  | .hbm, ⟨14, _⟩ => ⟨S8x16x32x112x112, .f32⟩
  | .hbm, ⟨15, _⟩ => ⟨S8x16x32x112x112, .f32⟩
  | .hbm, ⟨16, _⟩ => ⟨S_, .f32⟩
  | .hbm, ⟨17, _⟩ => ⟨S8x16, .f32⟩
  | .hbm, ⟨18, _⟩ => ⟨S8x16x1x1x1, .f32⟩
  | .hbm, ⟨19, _⟩ => ⟨S_, .f32⟩
  | .hbm, ⟨20, _⟩ => ⟨S8x16x1x1x1, .f32⟩
  | .hbm, ⟨21, _⟩ => ⟨S8x16x1x1x1, .f32⟩
  | .hbm, ⟨22, _⟩ => ⟨S8x16x1x1x1, .f32⟩
  | .hbm, ⟨23, _⟩ => ⟨S8x16x32x112x112, .f32⟩
  | .hbm, ⟨24, _⟩ => ⟨S8x16x32x112x112, .f32⟩
  | .hbm, ⟨25, _⟩ => ⟨S8x16x32x112x112, .f32⟩
  | .hbm, ⟨26, _⟩ => ⟨S8x16x32x112x112, .f32⟩
  | .hbm, ⟨27, _⟩ => ⟨S_, .f32⟩
  | .hbm, ⟨28, _⟩ => ⟨S8, .f32⟩
  | .hbm, ⟨29, _⟩ => ⟨S8x1x1x1, .f32⟩
  | .hbm, ⟨30, _⟩ => ⟨S_, .f32⟩
  | .hbm, ⟨31, _⟩ => ⟨S8x1x1x1, .f32⟩
  | .hbm, ⟨32, _⟩ => ⟨S8x1x1x1, .f32⟩
  | .hbm, ⟨33, _⟩ => ⟨S8x32x112x112, .f32⟩
  | .hbm, ⟨34, _⟩ => ⟨S8x32x112x112, .f32⟩
  | .hbm, ⟨35, _⟩ => ⟨S8x32x112x112, .f32⟩
  | .hbm, ⟨36, _⟩ => ⟨S_, .f32⟩
  | .hbm, ⟨37, _⟩ => ⟨S8, .f32⟩
  | .hbm, ⟨38, _⟩ => ⟨S8x1x1x1, .f32⟩
  | .hbm, ⟨39, _⟩ => ⟨S_, .f32⟩
  | .hbm, ⟨40, _⟩ => ⟨S8x1x1x1, .f32⟩
  | .hbm, ⟨41, _⟩ => ⟨S8x1x1x1, .f32⟩
  | .hbm, ⟨42, _⟩ => ⟨S8x1x1x1, .f32⟩
  | .hbm, ⟨43, _⟩ => ⟨S8x32x112x112, .f32⟩
  | .hbm, ⟨44, _⟩ => ⟨S8x32x112x112, .f32⟩
  | .hbm, ⟨45, _⟩ => ⟨S8x32x112x112, .f32⟩
  | .hbm, ⟨46, _⟩ => ⟨S8x32x112x112, .f32⟩
  | .hbm, ⟨47, _⟩ => ⟨S8x32x112x112, .f32⟩
  | .hbm, ⟨48, _⟩ => ⟨S_, .f32⟩
  | .hbm, ⟨49, _⟩ => ⟨S8, .f32⟩
  | .hbm, ⟨50, _⟩ => ⟨S8x1x32x112x112, .f32⟩
  | .hbm, ⟨51, _⟩ => ⟨S8x16x32x112x112, .f32⟩
  | .hbm, ⟨52, _⟩ => ⟨S8x16x32x112x112, .f32⟩
  | .hbm, ⟨53, _⟩ => ⟨S_, .f32⟩
  | .hbm, ⟨54, _⟩ => ⟨S8x16, .f32⟩
  | .hbm, ⟨55, _⟩ => ⟨S8x16x32x112x112, .f32⟩
  | .hbm, ⟨56, _⟩ => ⟨S_, .f32⟩
  | .hbm, ⟨57, _⟩ => ⟨S8x16, .f32⟩
  | .hbm, ⟨58, _⟩ => ⟨S8x1, .f32⟩
  | .hbm, ⟨59, _⟩ => ⟨S8x16, .f32⟩
  | .hbm, ⟨60, _⟩ => ⟨S8x16, .f32⟩
  | .hbm, ⟨61, _⟩ => ⟨S8x16, .f32⟩
  | .hbm, ⟨62, _⟩ => ⟨S8x16, .f32⟩
  | .hbm, ⟨63, _⟩ => ⟨S_, .f32⟩
  | .hbm, ⟨64, _⟩ => ⟨S8x16, .f32⟩
  | .hbm, ⟨65, _⟩ => ⟨S8x16x1x1x1, .f32⟩
  | .hbm, ⟨66, _⟩ => ⟨S_, .f32⟩
  | .hbm, ⟨67, _⟩ => ⟨S8x16, .f32⟩
  | .hbm, ⟨68, _⟩ => ⟨S8x16x1x1x1, .f32⟩
  | .hbm, ⟨69, _⟩ => ⟨S8x16x32x112x112, .f32⟩
  | .hbm, ⟨70, _⟩ => ⟨S8x16x32x112x112, .f32⟩
  | .hbm, ⟨71, _⟩ => ⟨S8x16x1x1x1, .f32⟩
  | .hbm, ⟨72, _⟩ => ⟨S8x16x32x112x112, .f32⟩
  | .hbm, ⟨73, _⟩ => ⟨S8x16x32x112x112, .f32⟩
  | .hbm, ⟨74, _⟩ => ⟨S_, .f32⟩
  | .hbm, ⟨75, _⟩ => ⟨S8x16, .f32⟩
  | .hbm, ⟨76, _⟩ => ⟨S8x16x1x1x1, .f32⟩
  | .hbm, ⟨77, _⟩ => ⟨S8x16x32x112x112, .f32⟩
  | .hbm, ⟨78, _⟩ => ⟨S8x16x32x112x112, .f32⟩
  | .hbm, ⟨79, _⟩ => ⟨S_, .f32⟩
  | .hbm, ⟨80, _⟩ => ⟨S8, .f32⟩
  | .hbm, ⟨81, _⟩ => ⟨S8x1x1x1, .f32⟩
  | .hbm, ⟨82, _⟩ => ⟨S_, .f32⟩
  | .hbm, ⟨83, _⟩ => ⟨S8, .f32⟩
  | .hbm, ⟨84, _⟩ => ⟨S8x1x1x1, .f32⟩
  | .hbm, ⟨85, _⟩ => ⟨S8x32x112x112, .f32⟩
  | .hbm, ⟨86, _⟩ => ⟨S8x32x112x112, .f32⟩
  | .hbm, ⟨87, _⟩ => ⟨S8x1x1x1, .f32⟩
  | .hbm, ⟨88, _⟩ => ⟨S8x32x112x112, .f32⟩
  | .hbm, ⟨89, _⟩ => ⟨S8x32x112x112, .f32⟩
  | .hbm, ⟨90, _⟩ => ⟨S_, .f32⟩
  | .hbm, ⟨91, _⟩ => ⟨S8, .f32⟩
  | .hbm, ⟨92, _⟩ => ⟨S8x1x1x1, .f32⟩
  | .hbm, ⟨93, _⟩ => ⟨S8x32x112x112, .f32⟩
  | .hbm, ⟨94, _⟩ => ⟨S8x32x112x112, .f32⟩
  | .hbm, ⟨95, _⟩ => ⟨S8x1x32x112x112, .f32⟩
  | .hbm, ⟨96, _⟩ => ⟨S8x16x32x112x112, .f32⟩
  | .hbm, ⟨97, _⟩ => ⟨S8x16x32x112x112, .f32⟩
  | .hbm, ⟨98, _⟩ => ⟨S_, .f32⟩
  | .hbm, ⟨99, _⟩ => ⟨S8x16, .f32⟩
  | .hbm, ⟨100, _⟩ => ⟨S_, .f32⟩
  | .hbm, ⟨101, _⟩ => ⟨S8x16, .f32⟩
  | .hbm, ⟨102, _⟩ => ⟨S8x16, .f32⟩
  | .hbm, ⟨103, _⟩ => ⟨S_, .f32⟩
  | .hbm, ⟨104, _⟩ => ⟨S8x16, .f32⟩
  | .hbm, ⟨105, _⟩ => ⟨S8x16, .f32⟩
  | .hbm, ⟨106, _⟩ => ⟨S8x16, .f32⟩
  | .hbm, ⟨107, _⟩ => ⟨S_, .f32⟩
  | .hbm, ⟨108, _⟩ => ⟨S8x16, .f32⟩
  | .hbm, ⟨109, _⟩ => ⟨S8x16, .f32⟩
  | .hbm, ⟨110, _⟩ => ⟨S_, .f32⟩
  | .hbm, ⟨111, _⟩ => ⟨S8, .f32⟩
  | .hbm, ⟨112, _⟩ => ⟨S8x1, .f32⟩
  | .hbm, ⟨113, _⟩ => ⟨S8x16, .f32⟩
  | .hbm, ⟨114, _⟩ => ⟨S8x16, .f32⟩
  | .hbm, ⟨115, _⟩ => ⟨S8x16, .f32⟩
  | .hbm, ⟨116, _⟩ => ⟨S8x1x16x1x1, .f32⟩
  | .hbm, ⟨117, _⟩ => ⟨S8x32x16x112x112, .f32⟩
  | .hbm, ⟨118, _⟩ => ⟨S8x32x16x112x112, .f32⟩
  | _, _ => ⟨S8x32x16x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_9 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_10 : Ref sig .tc := ⟨.hbm, 53, rfl⟩
abbrev main_v41 : Ref sig .tc := ⟨.hbm, 54, rfl⟩
abbrev main_v42 : Ref sig .tc := ⟨.hbm, 55, rfl⟩
abbrev main_cst_11 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_12 : Ref sig .tc := ⟨.hbm, 63, rfl⟩
abbrev main_v49 : Ref sig .tc := ⟨.hbm, 64, rfl⟩
abbrev main_v50 : Ref sig .tc := ⟨.hbm, 65, rfl⟩
abbrev main_cst_13 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_14 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_15 : Ref sig .tc := ⟨.hbm, 79, rfl⟩
abbrev main_v62 : Ref sig .tc := ⟨.hbm, 80, rfl⟩
abbrev main_v63 : Ref sig .tc := ⟨.hbm, 81, rfl⟩
abbrev main_cst_16 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_17 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_18 : Ref sig .tc := ⟨.hbm, 98, rfl⟩
abbrev main_v78 : Ref sig .tc := ⟨.hbm, 99, rfl⟩
abbrev main_cst_19 : Ref sig .tc := ⟨.hbm, 100, rfl⟩
abbrev main_v79 : Ref sig .tc := ⟨.hbm, 101, rfl⟩
abbrev main_v80 : Ref sig .tc := ⟨.hbm, 102, rfl⟩
abbrev main_cst_20 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_21 : Ref sig .tc := ⟨.hbm, 107, rfl⟩
abbrev main_v84 : Ref sig .tc := ⟨.hbm, 108, rfl⟩
abbrev main_v85 : Ref sig .tc := ⟨.hbm, 109, rfl⟩
abbrev main_cst_22 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩

abbrev nD : Nat := 1
abbrev τ : Topo := Topo.v7x

variable {F : FTy → Type} [FloatOps F]

class Facts₀ : Prop where
  reducesTo_S8x32x16x112x112_S8x32x112x112_d2 : S8x32x16x112x112.ReducesTo [2] S8x32x112x112
  h_S_ : 0 < S_.numel
  bcast_S_S8x32x112x112 : S_.BroadcastsInDim S8x32x112x112 (![] : Fin 0 → Fin S8x32x112x112.rank)
  transposes_S8x32x16x112x112_S8x16x32x112x112_0_2_1_3_4 : S8x32x16x112x112.Transposes [0, 2, 1, 3, 4] S8x16x32x112x112
  reducesTo_S8x16x32x112x112_S8x16_d2_3_4 : S8x16x32x112x112.ReducesTo [2, 3, 4] S8x16
  bcast_S8x16_S8x16x1x1x1_0_1 : S8x16.BroadcastsInDim S8x16x1x1x1 (![0, 1] : Fin 2 → Fin S8x16x1x1x1.rank)
  bcast_S_S8x16x1x1x1 : S_.BroadcastsInDim S8x16x1x1x1 (![] : Fin 0 → Fin S8x16x1x1x1.rank)
  bcast_S8x16x1x1x1_S8x16x32x112x112_0_1_2_3_4 : S8x16x1x1x1.BroadcastsInDim S8x16x32x112x112 (![0, 1, 2, 3, 4] : Fin 5 → Fin S8x16x32x112x112.rank)
  reducesTo_S8x32x112x112_S8_d1_2_3 : S8x32x112x112.ReducesTo [1, 2, 3] S8
  bcast_S8_S8x1x1x1_0 : S8.BroadcastsInDim S8x1x1x1 (![0] : Fin 1 → Fin S8x1x1x1.rank)
  bcast_S_S8x1x1x1 : S_.BroadcastsInDim S8x1x1x1 (![] : Fin 0 → Fin S8x1x1x1.rank)
  bcast_S8x1x1x1_S8x32x112x112_0_1_2_3 : S8x1x1x1.BroadcastsInDim S8x32x112x112 (![0, 1, 2, 3] : Fin 4 → Fin S8x32x112x112.rank)
  bcast_S8x32x112x112_S8x1x32x112x112_0_2_3_4 : S8x32x112x112.BroadcastsInDim S8x1x32x112x112 (![0, 2, 3, 4] : Fin 4 → Fin S8x1x32x112x112.rank)
  bcast_S8x1x32x112x112_S8x16x32x112x112_0_1_2_3_4 : S8x1x32x112x112.BroadcastsInDim S8x16x32x112x112 (![0, 1, 2, 3, 4] : Fin 5 → Fin S8x16x32x112x112.rank)
  bcast_S8_S8x1_0 : S8.BroadcastsInDim S8x1 (![0] : Fin 1 → Fin S8x1.rank)
  bcast_S8x1_S8x16_0_1 : S8x1.BroadcastsInDim S8x16 (![0, 1] : Fin 2 → Fin S8x16.rank)
  bcast_S_S8x16 : S_.BroadcastsInDim S8x16 (![] : Fin 0 → Fin S8x16.rank)
  reducesTo_S8x16_S8_d1 : S8x16.ReducesTo [1] S8
  bcast_S8x16_S8x1x16x1x1_0_2 : S8x16.BroadcastsInDim S8x1x16x1x1 (![0, 2] : Fin 2 → Fin S8x1x16x1x1.rank)
  bcast_S8x1x16x1x1_S8x32x16x112x112_0_1_2_3_4 : S8x1x16x1x1.BroadcastsInDim S8x32x16x112x112 (![0, 1, 2, 3, 4] : Fin 5 → Fin S8x32x16x112x112.rank)

variable [Facts₀]

class Facts : Prop extends Facts₀ where

variable [Facts]
-- ==== Proof.KernelRun.lean ====
/-
  The idealized kernel program's run with its result named: every weakly fair execution of @main ends with
  the result array at what the last region's write-backs leave over the contents the third stretch of host
  operations produced, and with the argument array as launched. The fold of buffer contents through @main
  (three regions among two stretches of host operations) is the generated frame's; here its last stage is
  read at the result buffer as well as at the argument.
-/
import proofs.«174061_j72688026517959_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer read: at the end the result array holds the last boundary's contents
    `W5` at the result buffer, and the argument array is as launched. -/
theorem run_values : θ_run defs (onTc (τ := τ) (main (F := F))) ⟨m, fun _ => 0, ρ⟩ (fun r => ∀ c : Dev nD,
      r.2.mem ((c.tc : Thread nD τ).loc main_v84) = W5 m ρ c (Proc.devRef .tc main_v84)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v84 (by decide)), (h c _ (mem_uc main_arg0 (by decide))).trans (W5_main_arg0 m ρ c)⟩)

end Cert.KernelIdeal.KValue

end
-- ==== Proof.BlockLayout.lean ====
/-
  The layout steps the three kernel bodies share, read at an index: a [1, 8, 16, 112, 112] block of x viewed as
  [8, 16, 112, 112]; a [1, 1, 16] block of per-frame scalars carried to [1, 16, 1, 1] and broadcast over channels,
  rows and columns; a [1, 8, 112, 112] block of a per-batch map given a unit frame axis and broadcast over the
  16 frames; and the [16, 1] ↔ [1, 16, 1] casts of the running sums.
-/
import proofs.«174061_j72688026517959_2_alg».proof.Proof.Gen.KernelIdeal
import Idealize.ShloMosaic.Lib.Pipeline.Value
import Idealize.ShloMosaic.Lib.ValueIdx
import Idealize.ShloMosaic.Lib.ValueLayout

noncomputable section

namespace Cert.KernelIdeal.BlockLayout

open Cert.KernelIdeal Cert.KernelIdeal.Gen
open Idealize.ShloMosaic Idealize.ShloMosaic.ValueIdx

variable {α : Type}

/-- The block of x viewed without its unit batch axis. -/
theorem xblock_apply (x0 : S1x8x16x112x112.Idx → α) (k : Fin 8) (t : Fin 16) (l n : Fin 112) :
    shapeCast S8x16x112x112 x0 shapeCasts_S1x8x16x112x112_S8x16x112x112 (ix4 k t l n) = x0 (ix5 (0 : Fin 1) k t l n) :=
  shapeCast_apply _ _ (ix4 k t l n) (ix5 (0 : Fin 1) k t l n) (by
    rw [Shape.rowMajor_val_four, Shape.rowMajor_val_five]
    show (((0 * 8 + k.val) * 16 + t.val) * 112 + l.val) * 112 + n.val
      = ((k.val * 16 + t.val) * 112 + l.val) * 112 + n.val
    omega)

/-- Per-frame scalars of a [1, 1, 16] block, carried through the casts [1,1,16] → [1,16] → [16] → [1,16,1,1] and
    broadcast to [8,16,112,112], read at (k, t, l, n): the block's entry t. -/
theorem frame_scalar_apply (x1 : S1x1x16.Idx → α) (k : Fin 8) (t : Fin 16) (l n : Fin 112) :
    broadcastTo S8x16x112x112
        (shapeCast S1x16x1x1 (shapeCast S16 (shapeCast S1x16 x1 shapeCasts_S1x1x16_S1x16) shapeCasts_S1x16_S16)
          shapeCasts_S16_S1x16x1x1) broadcasts_S1x16x1x1_S8x16x112x112 (ix4 k t l n)
      = x1 (ix3 (0 : Fin 1) (0 : Fin 1) t) := by
  refine (broadcastTo_apply _ _ (ix4 k t l n) (ix4 (0 : Fin 1) t (0 : Fin 1) (0 : Fin 1)) fun a => ?_).trans ?_
  · match a with
    | ⟨0, _⟩ => rfl
    | ⟨1, _⟩ => rfl
    | ⟨2, _⟩ => rfl
    | ⟨3, _⟩ => rfl
  refine (shapeCast_apply _ _ (ix4 (0 : Fin 1) t (0 : Fin 1) (0 : Fin 1)) (ix1 t) ?_).trans ?_
  · rw [Shape.rowMajor_val_four, Shape.rowMajor_val_one]
    show t.val = (((0 * 16 + t.val) * 1 + 0) * 1 + 0)
    omega
  refine (shapeCast_1a_a_apply _ _ t).trans ?_
  exact shapeCast_1ab_ab_apply x1 _ (0 : Fin 1) t

/-- A per-batch map's [1, 8, 112, 112] block, viewed [8, 112, 112], given a unit frame axis and broadcast over the
    16 frames, read at (k, t, l, n): the block's entry (k, l, n). -/
theorem map_bcast_apply (x1 : S1x8x112x112.Idx → α) (k : Fin 8) (t : Fin 16) (l n : Fin 112) :
    broadcastTo S8x16x112x112
        (shapeCast S8x1x112x112 (shapeCast S8x112x112 x1 shapeCasts_S1x8x112x112_S8x112x112)
          shapeCasts_S8x112x112_S8x1x112x112) broadcasts_S8x1x112x112_S8x16x112x112 (ix4 k t l n)
      = x1 (ix4 (0 : Fin 1) k l n) := by
  refine (broadcastTo_apply _ _ (ix4 k t l n) (ix4 k (0 : Fin 1) l n) fun a => ?_).trans ?_
  · match a with
    | ⟨0, _⟩ => rfl
    | ⟨1, _⟩ => rfl
    | ⟨2, _⟩ => rfl
    | ⟨3, _⟩ => rfl
  refine (shapeCast_apply _ _ (ix4 k (0 : Fin 1) l n) (ix3 k l n) ?_).trans ?_
  · rw [Shape.rowMajor_val_four, Shape.rowMajor_val_three]
    show (k.val * 112 + l.val) * 112 + n.val = ((k.val * 1 + 0) * 112 + l.val) * 112 + n.val
    omega
  exact shapeCast_1abc_abc_apply x1 _ k l n

/-- The running sums' [1, 16, 1] buffer viewed [16, 1]. -/
theorem acc_drop_apply (x : S1x16x1.Idx → α) (t : Fin 16) (u : Fin 1) :
    shapeCast S16x1 x shapeCasts_S1x16x1_S16x1 (ix2 t u) = x (ix3 (0 : Fin 1) t u) :=
  shapeCast_1ab_ab_apply x _ t u

/-- A [16, 1] value stored as a [1, 16, 1] block. -/
theorem acc_add_apply (x : S16x1.Idx → α) (z : Fin 1) (t : Fin 16) (u : Fin 1) :
    shapeCast S1x16x1 x shapeCasts_S16x1_S1x16x1 (ix3 z t u) = x (ix2 t u) :=
  shapeCast_ab_1ab_apply x _ z t u

end Cert.KernelIdeal.BlockLayout

end
-- ==== Proof.LibBlockSums.lean ====
/-
  A block's entries summed over all axes but one, as a vector program spells it, read at an index: for an
  [a, b, c, d] block, the sum over the last axis, then over the (new) last axis, a keepdims cast
  [a, b] → [a, b, 1], then the sum over the leading axis — at (t, u) the triple sum over (k, l, n) of the
  block at (k, t, l, n); and the sum over axis 1 alone at (k, l, n). Arbitrary extents; extended reals; no program imported.
-/
import Idealize.ShloMosaic.PureOps.Ideal.Laws
import Idealize.ShloMosaic.PureOps.Reduce
import Idealize.ShloMosaic.Lib.Pipeline.Value
import Idealize.ShloMosaic.Lib.ValueIdx

noncomputable section

namespace LibBlockSums

open Idealize.ShloMosaic Idealize.ShloMosaic.ValueIdx

variable {a b c d : Nat}

/-- The sum over the last axis of an [a,b,c,d] block at (k, t, l). -/
theorem sum_last4 (v : FVec Ideal ⟨4, ![a, b, c, d]⟩ .f32)
    (h : (⟨4, ![a, b, c, d]⟩ : Shape).Reduces [3] ⟨3, ![a, b, c]⟩) (hφ : FKind.Formats .f32)
    (hacc : (0x00000000#32 : BitVec 32) = FKind.add.neutral .f32 hφ) (k : Fin a) (t : Fin b) (l : Fin c) :
    multiReduction .add [3] ⟨3, ![a, b, c]⟩ v 0x00000000#32 h hφ hacc (ix3 k t l) = ∑ n : Fin d, v (ix4 k t l n) := by
  refine (Ideal.multiReduction_add_single v _ h hφ hacc (ix3 k t l)).trans ?_
  refine Finset.sum_congr rfl fun n _ => congrArg v (funext fun r => Fin.ext ?_)
  match r with
  | ⟨0, _⟩ => rfl
  | ⟨1, _⟩ => rfl
  | ⟨2, _⟩ => rfl
  | ⟨3, _⟩ => rfl

/-- The sum over the last axis of an [a,b,c] block at (k, t). -/
theorem sum_last3 (v : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (k : Fin a) (t : Fin b) :
    multiReduction .add [2] ⟨2, ![a, b]⟩ v 0x00000000#32 h hφ hacc (ix2 k t) = ∑ l : Fin c, v (ix3 k t l) := by
  refine (Ideal.multiReduction_add_single v _ h hφ hacc (ix2 k t)).trans ?_
  refine Finset.sum_congr rfl fun n _ => congrArg v (funext fun r => Fin.ext ?_)
  match r with
  | ⟨0, _⟩ => rfl
  | ⟨1, _⟩ => rfl
  | ⟨2, _⟩ => rfl

/-- The sum over the leading axis of an [a,b,1] block at (t, u). -/
theorem sum_lead3 (v : FVec Ideal ⟨3, ![a, b, 1]⟩ .f32)
    (h : (⟨3, ![a, b, 1]⟩ : Shape).Reduces [0] ⟨2, ![b, 1]⟩) (hφ : FKind.Formats .f32)
    (hacc : (0x00000000#32 : BitVec 32) = FKind.add.neutral .f32 hφ) (t : Fin b) (u : Fin 1) :
    multiReduction .add [0] ⟨2, ![b, 1]⟩ v 0x00000000#32 h hφ hacc (ix2 t u) = ∑ k : Fin a, v (ix3 k t u) := by
  refine (Ideal.multiReduction_add_single v _ h hφ hacc (ix2 t u)).trans ?_
  refine Finset.sum_congr rfl fun n _ => congrArg v (funext fun r => Fin.ext ?_)
  match r with
  | ⟨0, _⟩ => rfl
  | ⟨1, _⟩ => rfl
  | ⟨2, _⟩ => rfl

/-- The sum over axis 1 of an [a,b,c,d] block at (k, l, n). -/
theorem sum_axis1_4 (v : FVec Ideal ⟨4, ![a, b, c, d]⟩ .f32)
    (h : (⟨4, ![a, b, c, d]⟩ : Shape).Reduces [1] ⟨3, ![a, c, d]⟩) (hφ : FKind.Formats .f32)
    (hacc : (0x00000000#32 : BitVec 32) = FKind.add.neutral .f32 hφ) (k : Fin a) (l : Fin c) (n : Fin d) :
    multiReduction .add [1] ⟨3, ![a, c, d]⟩ v 0x00000000#32 h hφ hacc (ix3 k l n) = ∑ t : Fin b, v (ix4 k t l n) := by
  refine (Ideal.multiReduction_add_single v _ h hφ hacc (ix3 k l n)).trans ?_
  refine Finset.sum_congr rfl fun t _ => congrArg v (funext fun r => Fin.ext ?_)
  match r with
  | ⟨0, _⟩ => rfl
  | ⟨1, _⟩ => rfl
  | ⟨2, _⟩ => rfl
  | ⟨3, _⟩ => rfl

/-- The keepdims cast [a,b] → [a,b,1] at (k, t, u). -/
theorem keepdims_apply {α : Type} (v : (⟨2, ![a, b]⟩ : Shape).Idx → α)
    (h : (⟨2, ![a, b]⟩ : Shape).ShapeCasts ⟨3, ![a, b, 1]⟩) (k : Fin a) (t : Fin b) (u : Fin 1) :
    shapeCast ⟨3, ![a, b, 1]⟩ v h (ix3 k t u) = v (ix2 k t) :=
  shapeCast_apply v h _ _ (by
    have hu : u.val = 0 := by omega
    rw [Shape.rowMajor_val_three, Shape.rowMajor_val_two]
    show k.val * b + t.val = (k.val * b + t.val) * 1 + u.val
    omega)

/-- The whole chain: the block summed over every axis but axis 1, at (t, u). -/
theorem block_sum (v : FVec Ideal ⟨4, ![a, b, c, d]⟩ .f32)
    (h3 : (⟨4, ![a, b, c, d]⟩ : Shape).Reduces [3] ⟨3, ![a, b, c]⟩)
    (h2 : (⟨3, ![a, b, c]⟩ : Shape).Reduces [2] ⟨2, ![a, b]⟩)
    (hc : (⟨2, ![a, b]⟩ : Shape).ShapeCasts ⟨3, ![a, b, 1]⟩)
    (h0 : (⟨3, ![a, b, 1]⟩ : Shape).Reduces [0] ⟨2, ![b, 1]⟩)
    (hφ3 hφ2 hφ0 : FKind.Formats .f32)
    (hacc3 : (0x00000000#32 : BitVec 32) = FKind.add.neutral .f32 hφ3)
    (hacc2 : (0x00000000#32 : BitVec 32) = FKind.add.neutral .f32 hφ2)
    (hacc0 : (0x00000000#32 : BitVec 32) = FKind.add.neutral .f32 hφ0) (t : Fin b) (u : Fin 1) :
    multiReduction .add [0] ⟨2, ![b, 1]⟩
        (shapeCast ⟨3, ![a, b, 1]⟩
          (multiReduction .add [2] ⟨2, ![a, b]⟩
            (multiReduction .add [3] ⟨3, ![a, b, c]⟩ v 0x00000000#32 h3 hφ3 hacc3) 0x00000000#32 h2 hφ2 hacc2) hc)
        0x00000000#32 h0 hφ0 hacc0 (ix2 t u)
      = ∑ k : Fin a, ∑ l : Fin c, ∑ n : Fin d, v (ix4 k t l n) := by
  rw [sum_lead3]
  refine Finset.sum_congr rfl fun k _ => ?_
  rw [keepdims_apply, sum_last3]
  refine Finset.sum_congr rfl fun l _ => ?_
  rw [sum_last4]

end LibBlockSums

end
-- ==== Proof.Region1Value.lean ====
/-
  The second region (the similarity pass): at grid point (b, ct) the body adds to the running [16, 1] sums of
  batch b the block's contribution: for each frame t the sum over the block's 8 channels, rows and columns of
  min(x · scale(t) − shift(t), gn). The first point of a batch (ct = 0) starts from zero.
-/
import proofs.«174061_j72688026517959_2_alg».proof.Proof.Gen.KernelIdeal.Frame
import proofs.«174061_j72688026517959_2_alg».proof.Proof.BlockLayout
import proofs.«174061_j72688026517959_2_alg».proof.Proof.LibBlockSums
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)

section Cases
variable {F : FTy → Type} [FloatOps F]

theorem hz5 : (![0, 0, 0, 0, 0] : Fin 5 → Nat) = fun _ => 0 := funext fun a => by fin_cases a <;> rfl
theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- A later point of a batch leaves the running sums plus the block's contribution. -/
theorem out_B (c : Dev nD) (i : grid1.Coords) (a2 : Memref sig .tc .vmem S1x8x16x112x112 .f32) (h2 : a2.IsWhole) (a3 : Memref sig .tc .vmem S1x8x112x112 .f32) (h3 : a3.IsWhole) (a4 : Memref sig .tc .vmem S1x1x16 .f32) (h4 : a4.IsWhole) (a5 : Memref sig .tc .vmem S1x1x16 .f32) (h5 : a5.IsWhole) (a6 : Memref sig .tc .vmem S1x16x1 .f32) (h6 : a6.IsWhole) (hc : ¬cond1_0 i)
    (x0 : Vec F S1x8x16x112x112 .f32) (x1 : Vec F S1x8x112x112 .f32) (x2 : Vec F S1x1x16 .f32) (x3 : Vec F S1x1x16 .f32)
    (xo : Vec F S1x16x1 .f32) :
    out1_B_4 c i a2 h2 a3 h3 a4 h4 a5 h5 a6 h6 hc x0 x1 x2 x3 xo = k1_pay1 (k1_pay3 x0 x1 x2 x3 xo) := by
  unfold out1_B_4
  rw [View.read_writes_eq_canon _ _ _ (cover1_B_4 c i a2 h2 a3 h3 a4 h4 a5 h5 a6 h6 hc x0 x1 x2 x3 xo)]
  unfold kernelRun1_B
  dsimp only
  sl_unfold_words
  rw [View.canon_unit_zero hz3]
  simp only [View.readAt_eq_ld, h2.read_unread, h3.read_unread, h4.read_unread, h5.read_unread, h6.read_unread,
    View.ld_unit_zero (S := S1x8x16x112x112) hz5, View.ld_unit_zero (S := S1x8x112x112) hz4,
    View.ld_unit_zero (S := S1x1x16) hz3, View.ld_unit_zero (S := S1x16x1) hz3]

/-- The first point of a batch zeroes the running sums, then leaves the block's contribution over zero. -/
theorem out_A (c : Dev nD) (i : grid1.Coords) (a2 : Memref sig .tc .vmem S1x8x16x112x112 .f32) (h2 : a2.IsWhole) (a3 : Memref sig .tc .vmem S1x8x112x112 .f32) (h3 : a3.IsWhole) (a4 : Memref sig .tc .vmem S1x1x16 .f32) (h4 : a4.IsWhole) (a5 : Memref sig .tc .vmem S1x1x16 .f32) (h5 : a5.IsWhole) (a6 : Memref sig .tc .vmem S1x16x1 .f32) (h6 : a6.IsWhole) (hc : cond1_0 i)
    (x0 : Vec F S1x8x16x112x112 .f32) (x1 : Vec F S1x8x112x112 .f32) (x2 : Vec F S1x1x16 .f32) (x3 : Vec F S1x1x16 .f32) :
    out1_A_4 c i a2 h2 a3 h3 a4 h4 a5 h5 a6 h6 hc x0 x1 x2 x3 = k1_pay1 (k1_pay3 x0 x1 x2 x3 k1_pay2) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x16x1) hz3, View.readCov_unit_zero (S := S1x16x1) _ hz3]
  simp only [View.readAt_eq_ld, h2.read_unread, h3.read_unread, h4.read_unread, h5.read_unread,
    View.ld_unit_zero (S := S1x8x16x112x112) hz5, View.ld_unit_zero (S := S1x8x112x112) hz4,
    View.ld_unit_zero (S := S1x1x16) hz3, View.ld_unit_zero (S := S1x16x1) hz3]

end Cases

/-! ## The body's value at an index, on the extended reals -/

/-- The zero block the first point stores. -/
theorem zero_apply (j : S1x16x1.Idx) : (k1_pay2 (F := Ideal)) j = 0 := by
  unfold k1_pay2
  refine (shapeCast_apply _ _ j (ix2 (j 1) (j 2)) ?_).trans ?_
  · have h0 : (j 0).val < 1 := (j 0).isLt
    rw [Shape.rowMajor_val_two, Shape.rowMajor_val_three]
    show (j 1).val * 1 + (j 2).val = ((j 0).val * 16 + (j 1).val) * 1 + (j 2).val
    omega
  exact Ideal.ofBits_zero_f32

/-- One frame's contribution of a block: the sum over its 8 channels, rows and columns of
    min(x · scale − shift, gn). -/
def blockTerm (x0 : Vec Ideal S1x8x16x112x112 .f32) (x1 : Vec Ideal S1x8x112x112 .f32)
    (x2 x3 : Vec Ideal S1x1x16 .f32) (t : Fin 16) : EReal :=
  ∑ k : Fin 8, ∑ l : Fin 112, ∑ n : Fin 112,
    min (x0 (ix5 (0 : Fin 1) k t l n) * x2 (ix3 (0 : Fin 1) (0 : Fin 1) t) - x3 (ix3 (0 : Fin 1) (0 : Fin 1) t))
      (x1 (ix4 (0 : Fin 1) k l n))

/-- What the body stores at (z, t, u): the running sum there plus the block's contribution for frame t. -/
theorem pay_apply (x0 : Vec Ideal S1x8x16x112x112 .f32) (x1 : Vec Ideal S1x8x112x112 .f32)
    (x2 x3 : Vec Ideal S1x1x16 .f32) (acc : Vec Ideal S1x16x1 .f32) (z : Fin 1) (t : Fin 16) (u : Fin 1) :
    k1_pay1 (k1_pay3 x0 x1 x2 x3 acc) (ix3 z t u) = acc (ix3 (0 : Fin 1) t u) + blockTerm x0 x1 x2 x3 t := by
  unfold k1_pay1 k1_pay3 blockTerm
  dsimp only
  rw [BlockLayout.acc_add_apply, addf_apply, BlockLayout.acc_drop_apply]
  refine congrArg (acc (ix3 (0 : Fin 1) t u) + ·) ?_
  refine (LibBlockSums.block_sum _ _ _ _ _ _ _ _ _ _ _ t u).trans ?_
  refine Finset.sum_congr rfl fun k _ => Finset.sum_congr rfl fun l _ => Finset.sum_congr rfl fun n _ => ?_
  rw [minimumf_apply, subf_apply, mulf_apply, BlockLayout.xblock_apply, BlockLayout.frame_scalar_apply,
    BlockLayout.frame_scalar_apply, BlockLayout.map_bcast_apply]

/-! ## The running sums over the grid -/

variable (V : (c : Dev nD) → (b : Ref sig .tc) → Buf (Elt Ideal) ((c : Thread nD τ).loc b))

/-- Point n's contribution for frame t: the block term of the four input blocks at n. -/
def contrib (c : Dev nD) (n : Fin cfg1.N) (t : Fin 16) : EReal :=
  blockTerm (iblk1 V c 0 n) (iblk1 V c 1 n) (iblk1 V c 2 n) (iblk1 V c 3 n) t

/-- The running sums after point n: restarted from zero at every fourth point, else the previous plus the
    point's contribution. -/
def running (c : Dev nD) : (n : ℕ) → n < cfg1.N → Fin 16 → EReal
  | 0, h => fun t => 0 + contrib V c ⟨0, h⟩ t
  | n + 1, h => fun t =>
    if (n + 1) % 4 = 0 then 0 + contrib V c ⟨n + 1, h⟩ t
    else running c n (Nat.lt_of_succ_lt h) t + contrib V c ⟨n + 1, h⟩ t

theorem running_restart (c : Dev nD) : ∀ (n : ℕ) (h : n < cfg1.N) (t : Fin 16), n % 4 = 0 →
    running V c n h t = 0 + contrib V c ⟨n, h⟩ t
  | 0, _, _, _ => rfl
  | n + 1, h, t, hn => by simp only [running, if_pos hn]

theorem running_step (c : Dev nD) (n : ℕ) (h : n + 1 < cfg1.N) (t : Fin 16) (hn : ¬(n + 1) % 4 = 0) :
    running V c (n + 1) h t = running V c n (Nat.lt_of_succ_lt h) t + contrib V c ⟨n + 1, h⟩ t := by
  simp only [running, if_neg hn]

/-- What the output's staging buffer holds after point n is the running sum. -/
theorem outsAt_eq (c : Dev nD) : ∀ (n : ℕ) (h : n < cfg1.N) (z : Fin 1) (t : Fin 16) (u : Fin 1),
    outsAt1 V c n h (ix3 z t u) = running V c n h t
  | 0, h, z, t, u =>
    (congrFun (outsAt1_A V c ⟨0, h⟩ rfl) (ix3 z t u)).trans (by rw [out_A, pay_apply, zero_apply]; rfl)
  | n + 1, h, z, t, u => by
    by_cases h0 : (n + 1) % 4 = 0
    · rw [outsAt1_A V c ⟨n + 1, h⟩ h0, out_A, pay_apply, zero_apply, running_restart V c (n + 1) h t h0]
      rfl
    · rw [outsAt1_B V c ⟨n + 1, h⟩ h0, out_B, pay_apply, running_step V c n h t h0]
      show outsAt1 V c n _ (ix3 (0 : Fin 1) t u) + _ = _
      rw [outsAt_eq c n _ (0 : Fin 1) t u]
      rfl

/-- At the last point of a batch the running sum is the four points' contributions added in order from zero. -/
theorem running_last (c : Dev nD) (q : ℕ) (h : 4 * q + 3 < cfg1.N) (t : Fin 16) :
    running V c (4 * q + 3) h t
      = (((0 + contrib V c ⟨4 * q, by omega⟩ t) + contrib V c ⟨4 * q + 1, by omega⟩ t)
          + contrib V c ⟨4 * q + 2, by omega⟩ t) + contrib V c ⟨4 * q + 3, h⟩ t := by
  rw [running_step V c (4 * q + 2) h t (by omega), running_step V c (4 * q + 1) (by omega) t (by omega),
    running_step V c (4 * q) (by omega) t (by omega), running_restart V c (4 * q) (by omega) t (by omega)]

/-! ## From the blocks to the arrays -/

/-- The printed index maps over the grid: point n is batch n / 4, channel tile n % 4; the per-frame scalars and
    the running sums follow the batch only. -/
theorem idx_facts : ∀ n : Fin cfg1.N,
    win1_0.index n (0 : Fin 5) = n.val / 4 ∧ win1_0.index n (1 : Fin 5) = n.val % 4 ∧ win1_0.index n (2 : Fin 5) = 0
    ∧ win1_0.index n (3 : Fin 5) = 0 ∧ win1_0.index n (4 : Fin 5) = 0
    ∧ win1_1.index n (0 : Fin 4) = n.val / 4 ∧ win1_1.index n (1 : Fin 4) = n.val % 4 ∧ win1_1.index n (2 : Fin 4) = 0
    ∧ win1_1.index n (3 : Fin 4) = 0
    ∧ win1_2.index n (0 : Fin 3) = n.val / 4 ∧ win1_2.index n (1 : Fin 3) = 0 ∧ win1_2.index n (2 : Fin 3) = 0
    ∧ win1_3.index n (0 : Fin 3) = n.val / 4 ∧ win1_3.index n (1 : Fin 3) = 0 ∧ win1_3.index n (2 : Fin 3) = 0
    ∧ win1_4.index n (0 : Fin 3) = n.val / 4 ∧ win1_4.index n (1 : Fin 3) = 0 ∧ win1_4.index n (2 : Fin 3) = 0 :=
  (by decide +kernel : ∀ n : Fin grid1.N, _)

theorem N1 : cfg1.N = 32 := N_1

/-- Channel k of tile j. -/
abbrev chan (j : Fin 4) (k : Fin 8) : Fin 32 := ⟨8 * j.val + k.val, by omega⟩

/-- Tile j's term of batch b, frame t, over the whole arrays. -/
def tileTerm (x : S8x32x16x112x112.Idx → EReal) (gn : S8x32x112x112.Idx → EReal) (sc sh : S8x1x16.Idx → EReal)
    (b : Fin 8) (t : Fin 16) (j : Fin 4) : EReal :=
  ∑ k : Fin 8, ∑ l : Fin 112, ∑ n : Fin 112,
    min (x (ix5 b (chan j k) t l n) * sc (ix3 b (0 : Fin 1) t) - sh (ix3 b (0 : Fin 1) t)) (gn (ix4 b (chan j k) l n))

/-- Point 4·b + j contributes tile j's term of batch b. -/
theorem contrib_eq (c : Dev nD) (n : Fin cfg1.N) (b : Fin 8) (j : Fin 4) (hb : n.val / 4 = b.val) (hj : n.val % 4 = j.val)
    (t : Fin 16) :
    contrib V c n t = tileTerm (V c main_arg0) (V c main_v66) (V c main_v67) (V c main_v68) b t j := by
  obtain ⟨a0, a1, a2, a3, a4, g0, g1, g2, g3, s0, s1, s2, r0, r1, r2, -, -, -⟩ := idx_facts n
  unfold contrib blockTerm tileTerm
  refine Finset.sum_congr rfl fun k _ => Finset.sum_congr rfl fun l _ => Finset.sum_congr rfl fun m _ => ?_
  have ex : iblk1 V c 0 n (ix5 (0 : Fin 1) k t l m) = V c main_arg0 (ix5 b (chan j k) t l m) := by
    show V c main_arg0 (((cfg1.win 0).blk n).view.emb (ix5 (0 : Fin 1) k t l m)) = _
    refine congrArg (V c main_arg0) (funext fun a => Fin.ext ?_)
    match a with
    | ⟨0, _⟩ => show win1_0.index n (0 : Fin 5) * 1 + 1 * 0 = b.val; omega
    | ⟨1, _⟩ => show win1_0.index n (1 : Fin 5) * 8 + 1 * k.val = 8 * j.val + k.val; omega
    | ⟨2, _⟩ => show win1_0.index n (2 : Fin 5) * 16 + 1 * t.val = t.val; omega
    | ⟨3, _⟩ => show win1_0.index n (3 : Fin 5) * 112 + 1 * l.val = l.val; omega
    | ⟨4, _⟩ => show win1_0.index n (4 : Fin 5) * 112 + 1 * m.val = m.val; omega
  have eg : iblk1 V c 1 n (ix4 (0 : Fin 1) k l m) = V c main_v66 (ix4 b (chan j k) l m) := by
    show V c main_v66 (((cfg1.win 1).blk n).view.emb (ix4 (0 : Fin 1) k l m)) = _
    refine congrArg (V c main_v66) (funext fun a => Fin.ext ?_)
    match a with
    | ⟨0, _⟩ => show win1_1.index n (0 : Fin 4) * 1 + 1 * 0 = b.val; omega
    | ⟨1, _⟩ => show win1_1.index n (1 : Fin 4) * 8 + 1 * k.val = 8 * j.val + k.val; omega
    | ⟨2, _⟩ => show win1_1.index n (2 : Fin 4) * 112 + 1 * l.val = l.val; omega
    | ⟨3, _⟩ => show win1_1.index n (3 : Fin 4) * 112 + 1 * m.val = m.val; omega
  have es : iblk1 V c 2 n (ix3 (0 : Fin 1) (0 : Fin 1) t) = V c main_v67 (ix3 b (0 : Fin 1) t) := by
    show V c main_v67 (((cfg1.win 2).blk n).view.emb (ix3 (0 : Fin 1) (0 : Fin 1) t)) = _
    refine congrArg (V c main_v67) (funext fun a => Fin.ext ?_)
    match a with
    | ⟨0, _⟩ => show win1_2.index n (0 : Fin 3) * 1 + 1 * 0 = b.val; omega
    | ⟨1, _⟩ => show win1_2.index n (1 : Fin 3) * 1 + 1 * 0 = 0; omega
    | ⟨2, _⟩ => show win1_2.index n (2 : Fin 3) * 16 + 1 * t.val = t.val; omega
  have eh : iblk1 V c 3 n (ix3 (0 : Fin 1) (0 : Fin 1) t) = V c main_v68 (ix3 b (0 : Fin 1) t) := by
    show V c main_v68 (((cfg1.win 3).blk n).view.emb (ix3 (0 : Fin 1) (0 : Fin 1) t)) = _
    refine congrArg (V c main_v68) (funext fun a => Fin.ext ?_)
    match a with
    | ⟨0, _⟩ => show win1_3.index n (0 : Fin 3) * 1 + 1 * 0 = b.val; omega
    | ⟨1, _⟩ => show win1_3.index n (1 : Fin 3) * 1 + 1 * 0 = 0; omega
    | ⟨2, _⟩ => show win1_3.index n (2 : Fin 3) * 16 + 1 * t.val = t.val; omega
  rw [ex, eg, es, eh]

/-- The similarity sums as one function of the arrays: the four channel tiles' terms added in order from zero. -/
def simSums (x : S8x32x16x112x112.Idx → EReal) (gn : S8x32x112x112.Idx → EReal) (sc sh : S8x1x16.Idx → EReal) :
    S8x16x1.Idx → EReal := fun i =>
  (((0 + tileTerm x gn sc sh (i 0) (i 1) 0) + tileTerm x gn sc sh (i 0) (i 1) 1)
    + tileTerm x gn sc sh (i 0) (i 1) 2) + tileTerm x gn sc sh (i 0) (i 1) 3

/-- The running sum read at any index of the staging buffer. -/
theorem outsAt_at (c : Dev nD) (n : ℕ) (h : n < cfg1.N) (j : S1x16x1.Idx) :
    outsAt1 V c n h j = running V c n h (j 1) :=
  (congrArg (outsAt1 V c n h) (eq_ix3 j)).trans (outsAt_eq V c n h (j 0) (j 1) (j 2))

theorem running_congr (c : Dev nD) {n n' : ℕ} (e : n = n') (h : n < cfg1.N) (h' : n' < cfg1.N) (t : Fin 16) :
    running V c n h t = running V c n' h' t := by subst e; rfl

/-- At the last point of batch b the staging buffer holds, at (z, t, u), the similarity sum (b, t). -/
theorem flushed_at (c : Dev nD) (n : Fin cfg1.N) (h3 : n.val % 4 = 3) (hb : n.val / 4 < 8)
    (z : Fin 1) (t : Fin 16) (u : Fin 1) :
    outsAt1 V c n.val n.isLt (ix3 z t u)
      = simSums (V c main_arg0) (V c main_v66) (V c main_v67) (V c main_v68) (ix3 (⟨n.val / 4, hb⟩ : Fin 8) t u) := by
  have hN : n.val < 32 := lt_of_lt_of_eq n.isLt N1
  rw [outsAt_eq]
  have hq : n.val = 4 * (n.val / 4) + 3 := by omega
  have hlt : 4 * (n.val / 4) + 3 < cfg1.N := (by omega : 4 * (n.val / 4) + 3 < 32).trans_eq N1.symm
  refine (running_congr V c hq n.isLt hlt t).trans ?_
  rw [running_last]
  show _ = (((0 + tileTerm _ _ _ _ (⟨n.val / 4, hb⟩ : Fin 8) t 0) + tileTerm _ _ _ _ (⟨n.val / 4, hb⟩ : Fin 8) t 1)
    + tileTerm _ _ _ _ (⟨n.val / 4, hb⟩ : Fin 8) t 2) + tileTerm _ _ _ _ (⟨n.val / 4, hb⟩ : Fin 8) t 3
  rw [contrib_eq V c ⟨4 * (n.val / 4), by omega⟩ ⟨n.val / 4, hb⟩ 0 (by show 4 * (n.val / 4) / 4 = n.val / 4; omega)
      (by show 4 * (n.val / 4) % 4 = 0; omega),
    contrib_eq V c ⟨4 * (n.val / 4) + 1, by omega⟩ ⟨n.val / 4, hb⟩ 1 (by show (4 * (n.val / 4) + 1) / 4 = n.val / 4; omega)
      (by show (4 * (n.val / 4) + 1) % 4 = 1; omega),
    contrib_eq V c ⟨4 * (n.val / 4) + 2, by omega⟩ ⟨n.val / 4, hb⟩ 2 (by show (4 * (n.val / 4) + 2) / 4 = n.val / 4; omega)
      (by show (4 * (n.val / 4) + 2) % 4 = 2; omega),
    contrib_eq V c ⟨4 * (n.val / 4) + 3, hlt⟩ ⟨n.val / 4, hb⟩ 3 (by show (4 * (n.val / 4) + 3) / 4 = n.val / 4; omega)
      (by show (4 * (n.val / 4) + 3) % 4 = 3; omega)]

/-- What the last point of a batch writes back is that batch's block of the similarity sums. -/
theorem flushed_eq (c : Dev nD) (n : Fin cfg1.N) (hf : (cfg1.win 4).flush n = true) :
    (dat1 V c).flushed 4 n
      = ((cfg1.win 4).blk n).view.read (Elt Ideal)
          (simSums (V c main_arg0) (V c main_v66) (V c main_v67) (V c main_v68)) := by
  have h3 : n.val % 4 = 3 := (flush1_4 n).mp hf
  have hN : n.val < 32 := lt_of_lt_of_eq n.isLt N1
  have hb : n.val / 4 < 8 := by omega
  obtain ⟨-, -, -, -, -, -, -, -, -, -, -, -, -, -, -, o0, o1, o2⟩ := idx_facts n
  show (cfg1.win 4).cut (grid1.coords n) ((dat1 V c).after 4 n) = _
  rw [after1_4]
  funext j
  have hemb : ((cfg1.win 4).blk n).view.emb j = ix3 (⟨n.val / 4, hb⟩ : Fin 8) (j 1) (j 2) := by
    have hj0 : (j 0).val < 1 := (j 0).isLt
    funext a; apply Fin.ext
    match a with
    | ⟨0, _⟩ => show win1_4.index n (0 : Fin 3) * 1 + 1 * (j 0).val = n.val / 4; omega
    | ⟨1, _⟩ => show win1_4.index n (1 : Fin 3) * 16 + 1 * (j 1).val = (j 1).val; omega
    | ⟨2, _⟩ => show win1_4.index n (2 : Fin 3) * 1 + 1 * (j 2).val = (j 2).val; omega
  exact (congrArg (outsAt1 V c n.val n.isLt) (eq_ix3 j)).trans
    ((flushed_at V c n h3 hb (j 0) (j 1) (j 2)).trans (congrArg _ hemb.symm))

/-- An index of the sums' array is in point n's block iff each coordinate is in the block's range. -/
theorem mem_blk (n : Fin cfg1.N) (i : S8x16x1.Idx) :
    i ∈ ((cfg1.win 4).blk n).view.set ↔ ∀ a : Fin 3, win1_4.index n a * S1x16x1.size a ≤ (i a).val
      ∧ (i a).val < win1_4.index n a * S1x16x1.size a + S1x16x1.size a := by
  show i ∈ ((View.whole main_v69).slice (win1_4.rect n)).set ↔ _
  rw [View.set_slice_whole, Rect.mem_set_unit]
  exact Iff.rfl

/-- The sums' array after the region: the similarity sums, whole. -/
theorem final (c : Dev nD) :
    (dat1 V c).arrAt 4 cfg1.N = simSums (V c main_arg0) (V c main_v66) (V c main_v67) (V c main_v68) :=
  (dat1 V c).arrAt_eq_of_cover 4 _ (fun n hf => flushed_eq V c n hf) fun i => by
    have hi0 : (i 0).val < 8 := (i 0).isLt
    have hi1 : (i 1).val < 16 := (i 1).isLt
    have hi2 : (i 2).val < 1 := (i 2).isLt
    have hn : 4 * (i 0).val + 3 < cfg1.N := (by omega : 4 * (i 0).val + 3 < 32).trans_eq N1.symm
    obtain ⟨-, -, -, -, -, -, -, -, -, -, -, -, -, -, -, o0, o1, o2⟩ := idx_facts ⟨4 * (i 0).val + 3, hn⟩
    have e0 : (4 * (i 0).val + 3) / 4 = (i 0).val := by omega
    refine ⟨⟨4 * (i 0).val + 3, hn⟩, (flush1_4 _).mpr (by show (4 * (i 0).val + 3) % 4 = 3; omega), ?_⟩
    rw [mem_blk]
    intro a
    match a with
    | ⟨0, _⟩ =>
      show win1_4.index ⟨4 * (i 0).val + 3, hn⟩ (0 : Fin 3) * 1 ≤ (i 0).val
        ∧ (i 0).val < win1_4.index ⟨4 * (i 0).val + 3, hn⟩ (0 : Fin 3) * 1 + 1
      rw [o0]; show (4 * (i 0).val + 3) / 4 * 1 ≤ (i 0).val ∧ (i 0).val < (4 * (i 0).val + 3) / 4 * 1 + 1; omega
    | ⟨1, _⟩ =>
      show win1_4.index ⟨4 * (i 0).val + 3, hn⟩ (1 : Fin 3) * 16 ≤ (i 1).val
        ∧ (i 1).val < win1_4.index ⟨4 * (i 0).val + 3, hn⟩ (1 : Fin 3) * 16 + 16
      rw [o1]; omega
    | ⟨2, _⟩ =>
      show win1_4.index ⟨4 * (i 0).val + 3, hn⟩ (2 : Fin 3) * 1 ≤ (i 2).val
        ∧ (i 2).val < win1_4.index ⟨4 * (i 0).val + 3, hn⟩ (2 : Fin 3) * 1 + 1
      rw [o2]; omega

end Cert.KernelIdeal.Region1

end
-- ==== Proof.Region2Value.lean ====
/-
  The last region (the reweighting pass): each grid point (b, ct) multiplies its [8, 16, 112, 112] block of x by
  the 16 weights of batch b, broadcast over channels, rows and columns; so the result array is, index by
  index, x(b, c, t, h, w) · weight(b, 0, t).
-/
import proofs.«174061_j72688026517959_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)

/-- The weights of a [1, 1, 16] block, carried through the casts [1,1,16] → [1,16] → [16] → [1,16,1,1] and
    broadcast to [8,16,112,112], read at (c, t, h, w): the block's entry t. -/
theorem weights_apply (x1 : Vec Ideal S1x1x16 .f32) (c : Fin 8) (t : Fin 16) (h w : Fin 112) :
    broadcastTo S8x16x112x112
        (shapeCast S1x16x1x1 (shapeCast S16 (shapeCast S1x16 x1 shapeCasts_S1x1x16_S1x16) shapeCasts_S1x16_S16)
          shapeCasts_S16_S1x16x1x1) broadcasts_S1x16x1x1_S8x16x112x112 (ix4 c t h w)
      = x1 (ix3 (0 : Fin 1) (0 : Fin 1) t) := by
  refine (broadcastTo_apply _ _ (ix4 c t h w) (ix4 (0 : Fin 1) t (0 : Fin 1) (0 : Fin 1)) fun a => ?_).trans ?_
  · match a with
    | ⟨0, _⟩ => rfl
    | ⟨1, _⟩ => rfl
    | ⟨2, _⟩ => rfl
    | ⟨3, _⟩ => rfl
  refine (shapeCast_apply _ _ (ix4 (0 : Fin 1) t (0 : Fin 1) (0 : Fin 1)) (ix1 t) ?_).trans ?_
  · rw [Shape.rowMajor_val_four, Shape.rowMajor_val_one]
    show t.val = (((0 * 16 + t.val) * 1 + 0) * 1 + 0)
    omega
  refine (shapeCast_1a_a_apply _ _ t).trans ?_
  exact shapeCast_1ab_ab_apply x1 _ (0 : Fin 1) t

/-- The body's stored value at (z, c, t, h, w) of the block: the block of x there times the weight t. -/
theorem pay_apply (x0 : Vec Ideal S1x8x16x112x112 .f32) (x1 : Vec Ideal S1x1x16 .f32)
    (z : Fin 1) (c : Fin 8) (t : Fin 16) (h w : Fin 112) :
    k2_pay1 x0 x1 (ix5 z c t h w) = x0 (ix5 z c t h w) * x1 (ix3 (0 : Fin 1) (0 : Fin 1) t) := by
  unfold k2_pay1
  refine (shapeCast_apply _ _ (ix5 z c t h w) (ix4 c t h w) ?_).trans ?_
  · have hz : z.val = 0 := by omega
    rw [Shape.rowMajor_val_four, Shape.rowMajor_val_five]
    show ((c.val * 16 + t.val) * 112 + h.val) * 112 + w.val
      = (((z.val * 8 + c.val) * 16 + t.val) * 112 + h.val) * 112 + w.val
    rw [hz]; omega
  rw [mulf_apply, weights_apply]
  refine congrArg (· * _) ?_
  refine (shapeCast_apply _ _ (ix4 c t h w) (ix5 z c t h w) ?_)
  have hz : z.val = 0 := by omega
  rw [Shape.rowMajor_val_four, Shape.rowMajor_val_five]
  show (((z.val * 8 + c.val) * 16 + t.val) * 112 + h.val) * 112 + w.val
      = ((c.val * 16 + t.val) * 112 + h.val) * 112 + w.val
  rw [hz]; omega

/-- The same at any index of the block. -/
theorem pay_at (x0 : Vec Ideal S1x8x16x112x112 .f32) (x1 : Vec Ideal S1x1x16 .f32) (y : S1x8x16x112x112.Idx) :
    k2_pay1 x0 x1 y = x0 y * x1 (ix3 (0 : Fin 1) (0 : Fin 1) (y 2)) :=
  (congrArg (k2_pay1 x0 x1) (eq_ix5 y)).trans ((pay_apply x0 x1 _ _ _ _ _).trans
    (congrArg (fun z => x0 z * x1 (ix3 (0 : Fin 1) (0 : Fin 1) (y 2))) (eq_ix5 y).symm))

variable (V : (c : Dev nD) → (b : Ref sig .tc) → Buf (Elt Ideal) ((c : Thread nD τ).loc b))

theorem hz5 : (![0, 0, 0, 0, 0] : Fin 5 → Nat) = fun _ => 0 := funext fun a => by fin_cases a <;> rfl
theorem hz3 : (![0, 0, 0] : Fin 3 → Nat) = fun _ => 0 := funext fun a => by fin_cases a <;> rfl

/-- The result array as one function of x and of the weights: x(b,c,t,h,w) · weight(b,0,t). -/
abbrev reweighted (x : S8x32x16x112x112.Idx → EReal) (wr : S8x1x16.Idx → EReal) : S8x32x16x112x112.Idx → EReal :=
  fun i => x i * wr (ix3 (i 0) (0 : Fin 1) (i 2))

/-- The printed index maps over the grid: the output's block moves with x's block, the weights' block follows the
    batch coordinate only, and the block indices stay in range. -/
theorem idx_facts : ∀ t : Fin cfg2.N,
    win2_0.index t (0 : Fin 5) = win2_2.index t (0 : Fin 5) ∧ win2_0.index t (1 : Fin 5) = win2_2.index t (1 : Fin 5)
    ∧ win2_0.index t (2 : Fin 5) = 0 ∧ win2_0.index t (3 : Fin 5) = 0 ∧ win2_0.index t (4 : Fin 5) = 0
    ∧ win2_2.index t (2 : Fin 5) = 0 ∧ win2_2.index t (3 : Fin 5) = 0 ∧ win2_2.index t (4 : Fin 5) = 0
    ∧ win2_1.index t (0 : Fin 3) = win2_2.index t (0 : Fin 5) ∧ win2_1.index t (1 : Fin 3) = 0 ∧ win2_1.index t (2 : Fin 3) = 0
    ∧ win2_2.index t (0 : Fin 5) < 8 ∧ win2_2.index t (1 : Fin 5) < 4 :=
  (by decide +kernel : ∀ t : Fin grid2.N, _)

/-- Every block (b, ct) is some point's. -/
theorem idx_onto : ∀ (q0 : Fin 8) (q1 : Fin 4), ∃ t : Fin cfg2.N, win2_2.index t = ![q0.val, q1.val, 0, 0, 0] :=
  (by decide +kernel : ∀ (q0 : Fin 8) (q1 : Fin 4), ∃ t : Fin grid2.N, win2_2.index t = ![q0.val, q1.val, 0, 0, 0])

/-- What point t writes back is block t of the reweighted array. -/
theorem flushed_eq (c : Dev nD) (t : Fin cfg2.N) :
    (dat2 V c).flushed 2 t
      = ((cfg2.win 2).blk t).view.read (Elt Ideal) (reweighted (V c main_arg0) (V c main_v83)) := by
  show (cfg2.win 2).cut (grid2.coords t) ((dat2 V c).after 2 t) = _
  rw [after2_2]
  unfold out2_2
  rw [View.canon_unit_zero hz5]
  simp only [View.ld_unit_zero (S := S1x8x16x112x112) hz5, View.ld_unit_zero (S := S1x1x16) hz3]
  obtain ⟨e0, e1, e2, e3, e4, f2, f3, f4, g0, g1, g2, b0, b1⟩ := idx_facts t
  funext j
  show k2_pay1 (iblk2 V c 0 t) (iblk2 V c 1 t) j
    = reweighted (V c main_arg0) (V c main_v83) (((cfg2.win 2).blk t).view.emb j)
  rw [pay_at]
  have r0 : iblk2 V c 0 t j = V c main_arg0 (((cfg2.win 0).blk t).view.emb j) := rfl
  have r1 : iblk2 V c 1 t (ix3 (0 : Fin 1) (0 : Fin 1) (j 2))
      = V c main_v83 (((cfg2.win 1).blk t).view.emb (ix3 (0 : Fin 1) (0 : Fin 1) (j 2))) := rfl
  have h0 : ((cfg2.win 0).blk t).view.emb j = ((cfg2.win 2).blk t).view.emb j := by
    funext a; apply Fin.ext
    match a with
    | ⟨0, _⟩ => show win2_0.index t (0 : Fin 5) * 1 + 1 * (j 0).val = win2_2.index t (0 : Fin 5) * 1 + 1 * (j 0).val; omega
    | ⟨1, _⟩ => show win2_0.index t (1 : Fin 5) * 8 + 1 * (j 1).val = win2_2.index t (1 : Fin 5) * 8 + 1 * (j 1).val; omega
    | ⟨2, _⟩ => show win2_0.index t (2 : Fin 5) * 16 + 1 * (j 2).val = win2_2.index t (2 : Fin 5) * 16 + 1 * (j 2).val; omega
    | ⟨3, _⟩ => show win2_0.index t (3 : Fin 5) * 112 + 1 * (j 3).val = win2_2.index t (3 : Fin 5) * 112 + 1 * (j 3).val; omega
    | ⟨4, _⟩ => show win2_0.index t (4 : Fin 5) * 112 + 1 * (j 4).val = win2_2.index t (4 : Fin 5) * 112 + 1 * (j 4).val; omega
  have h1 : ((cfg2.win 1).blk t).view.emb (ix3 (0 : Fin 1) (0 : Fin 1) (j 2))
      = ix3 ((((cfg2.win 2).blk t).view.emb j) 0) (0 : Fin 1) ((((cfg2.win 2).blk t).view.emb j) 2) := by
    have hj0 : (j 0).val < 1 := (j 0).isLt
    funext a; apply Fin.ext
    match a with
    | ⟨0, _⟩ => show win2_1.index t (0 : Fin 3) * 1 + 1 * 0 = win2_2.index t (0 : Fin 5) * 1 + 1 * (j 0).val; omega
    | ⟨1, _⟩ => show win2_1.index t (1 : Fin 3) * 1 + 1 * 0 = 0; omega
    | ⟨2, _⟩ => show win2_1.index t (2 : Fin 3) * 16 + 1 * (j 2).val = win2_2.index t (2 : Fin 5) * 16 + 1 * (j 2).val; omega
  rw [r0, r1, h0, h1]
  rfl

/-- An index of the array is in point t's block iff each coordinate is in the block's range on its axis. -/
theorem mem_blk (t : Fin cfg2.N) (i : S8x32x16x112x112.Idx) :
    i ∈ ((cfg2.win 2).blk t).view.set ↔ ∀ a : Fin 5, win2_2.index t a * S1x8x16x112x112.size a ≤ (i a).val
      ∧ (i a).val < win2_2.index t a * S1x8x16x112x112.size a + S1x8x16x112x112.size a := by
  show i ∈ ((View.whole main_v84).slice (win2_2.rect t)).set ↔ _
  rw [View.set_slice_whole, Rect.mem_set_unit]
  exact Iff.rfl

/-- The result array after the last region: the reweighted array, whole. -/
theorem final (c : Dev nD) : (dat2 V c).arrAt 2 cfg2.N = reweighted (V c main_arg0) (V c main_v83) :=
  (dat2 V c).arrAt_eq_of_cover 2 _ (fun t _ => flushed_eq V c t) fun i => by
    have hi0 : (i 0).val < 8 := (i 0).isLt
    have hi1 : (i 1).val < 32 := (i 1).isLt
    have hi2 : (i 2).val < 16 := (i 2).isLt
    have hi3 : (i 3).val < 112 := (i 3).isLt
    have hi4 : (i 4).val < 112 := (i 4).isLt
    obtain ⟨t, ht⟩ := idx_onto ⟨(i 0).val, hi0⟩ ⟨(i 1).val / 8, by omega⟩
    have q0 : win2_2.index t (0 : Fin 5) = (i 0).val := congrFun ht 0
    have q1 : win2_2.index t (1 : Fin 5) = (i 1).val / 8 := congrFun ht 1
    have q2 : win2_2.index t (2 : Fin 5) = 0 := congrFun ht 2
    have q3 : win2_2.index t (3 : Fin 5) = 0 := congrFun ht 3
    have q4 : win2_2.index t (4 : Fin 5) = 0 := congrFun ht 4
    refine ⟨t, flush2_2 t, ?_⟩
    rw [mem_blk]
    intro a
    match a with
    | ⟨0, _⟩ => show win2_2.index t (0 : Fin 5) * 1 ≤ (i 0).val ∧ (i 0).val < win2_2.index t (0 : Fin 5) * 1 + 1; omega
    | ⟨1, _⟩ => show win2_2.index t (1 : Fin 5) * 8 ≤ (i 1).val ∧ (i 1).val < win2_2.index t (1 : Fin 5) * 8 + 8; omega
    | ⟨2, _⟩ => show win2_2.index t (2 : Fin 5) * 16 ≤ (i 2).val ∧ (i 2).val < win2_2.index t (2 : Fin 5) * 16 + 16; omega
    | ⟨3, _⟩ => show win2_2.index t (3 : Fin 5) * 112 ≤ (i 3).val ∧ (i 3).val < win2_2.index t (3 : Fin 5) * 112 + 112; omega
    | ⟨4, _⟩ => show win2_2.index t (4 : Fin 5) * 112 ≤ (i 4).val ∧ (i 4).val < win2_2.index t (4 : Fin 5) * 112 + 112; omega

end Cert.KernelIdeal.Region2

end
-- ==== Proof.Tail.lean ====
/-
  The host operations between the second and the third region: from the correlation scores cc [8, 16] and the
  similarity sums [8, 16, 1] to the weights [8, 1, 16]:
  s = 1 − (0.3·cc + 0.7·sim), w = exp(s / max over the 16 frames of s), each batch separately.
-/
import proofs.«174061_j72688026517959_2_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.KernelIdeal.Tail

open Cert.KernelIdeal Cert.KernelIdeal.Gen
open Idealize.ShloMosaic Idealize.ShloMosaic.TcCoe Idealize.SL.Sem Idealize.ShloMosaic.StableHlo

/-- One minus the blended score. -/
def oneMinusScore (cc : FVec Ideal S8x16 .f32) (sim : FVec Ideal S8x16x1 .f32) : FVec Ideal S8x16 .f32 :=
  subf (broadcastInDim S8x16 ![] bcast_S_S8x16 (constant (F := Ideal) S_ .f32 0x3F800000#32))
    (addf (mulf (broadcastInDim S8x16 ![] bcast_S_S8x16 (constant (F := Ideal) S_ .f32 0x3E99999A#32)) cc)
      (mulf (broadcastInDim S8x16 ![] bcast_S_S8x16 (constant (F := Ideal) S_ .f32 0x3F333333#32))
        (shapeCast S8x16 sim shapeCasts_S8x16x1_S8x16)))

/-- The weights: exp of each entry over its batch's maximum. -/
def weightsOf (s : FVec Ideal S8x16 .f32) : FVec Ideal S8x1x16 .f32 :=
  shapeCast S8x1x16
    (Host.exp (F := Ideal) (Host.divf (F := Ideal) s
      (broadcastInDim S8x16 ![0, 1] bcast_S8x1_S8x16_0_1
        (broadcastInDim S8x1 ![0] bcast_S8_S8x1_0
          (Host.reduce (FloatOps.maximumf (F := Ideal)) s (constant (F := Ideal) S_ .f32 0xFF800000#32)
            reducesTo_S8x16_S8_d1 h_S_)))))
    shapeCasts_S8x16_S8x1x16

set_option maxHeartbeats 2000000 in
/-- What the stretch leaves in the weights' buffer, from the contents it starts from. -/
theorem weights_eq (W : Valuation τ sig (Elt Ideal)) :
    StableHlo.after (hostOps2 (F := Ideal)) W (Proc.devRef .tc main_v83)
      = weightsOf (oneMinusScore (W (Proc.devRef .tc main_v40)) (W (Proc.devRef .tc main_v69))) := by
  after_results
  rfl

end Cert.KernelIdeal.Tail

end
-- ==== Proof.LibMinReduce.lean ====
/-
  A minimum taken over one axis, at the extended reals, characterised by its universal property.

  On the extended reals a fold of `min` over a finite index set starting from the top element `+∞` is the greatest lower
  bound of the folded values: `z ≤ fold ↔ ∀ k, z ≤ f k`. Both a vector reduction by `minimumf` over one axis and a
  one-operand host reduction with a minimum body over one axis are such folds over that axis's coordinates, whatever order
  the definitions traverse them in (`min` commutes and associates). Two minima over index sets that cover the same values are
  therefore equal by `eq_of_forall_le_iff`, with no rearrangement of folds.
-/
import Idealize.ShloMosaic.PureOps.Ideal.Laws
import Idealize.ShloMosaic.PureOps.Reduce

noncomputable section

namespace Idealize.ShloMosaic.MinReduce

open Idealize.ShloMosaic

/-- The f32 pattern of `+∞` denotes the top extended real. -/
theorem ofBits_inf_f32 : Ideal.ofBits .f32 0x7F800000#32 = (⊤ : EReal) := by
  simp [Ideal.ofBits, Ideal.ieee]

/-- A fold of `min` from `⊤` over all of a finite type is the greatest lower bound of the values. -/
theorem le_fold_min_top {ι : Type*} [Fintype ι] (f : ι → EReal) (z : EReal) :
    z ≤ (Finset.univ : Finset ι).fold min (⊤ : EReal) f ↔ ∀ k, z ≤ f k := by
  rw [Finset.le_fold_min]
  exact ⟨fun h k => h.2 k (Finset.mem_univ k), fun h => ⟨le_top, fun k _ => h k⟩⟩

/-- A vector reduction by `minimumf` over ONE axis, read at the extended reals: the fold of `min` from the accumulator's
    value over that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- So an f32 vector reduction by `minimumf` from `+∞` over one axis is, at each kept index, the greatest lower bound of
    the source along that axis. -/
theorem le_multiReduction_min {s t : Shape} {a : Fin s.rank} (src : FVec Ideal s .f32)
    (h : s.Reduces [a] t) (hφ : FKind.Formats .f32) (hacc : (0x7F800000#32 : BitVec 32) = FKind.minimumf.neutral .f32 hφ)
    (j : t.Idx) (z : EReal) :
    z ≤ multiReduction .minimumf [a] t src 0x7F800000#32 h hφ hacc j ↔ ∀ k : Fin (s.size a), z ≤ src (h.lift j k) := by
  rw [multiReduction_minimumf_single]
  show z ≤ (Finset.univ : Finset (Fin (s.size a))).fold min (Ideal.ofBits .f32 0x7F800000#32) (src ∘ h.lift j) ↔ _
  rw [ofBits_inf_f32]
  exact le_fold_min_top _ z

/-- The host's one-operand reduction with a minimum body from `+∞` over one axis likewise. -/
theorem le_hostReduce_min {s t u : Shape} {a : Fin s.rank} (x : s.Idx → Ideal .f32) (h' : s.ReducesTo [a] t)
    (h : s.Reduces [a] t) (hu : 0 < u.numel) (j : t.Idx) (z : EReal) :
    z ≤ Host.reduce (FloatOps.minimumf (F := Ideal) (φ := .f32)) x (constant u .f32 0x7F800000#32) h' hu j
      ↔ ∀ k : Fin (s.size a), z ≤ x (h.lift j k) := by
  rw [Host.reduce_eq_fold_single (FloatOps.minimumf (F := Ideal) (φ := .f32)) x _ h' h hu]
  show z ≤ (Finset.univ : Finset (Fin (s.size a))).fold min (Ideal.ofBits .f32 0x7F800000#32) (x ∘ h.lift j) ↔ _
  rw [ofBits_inf_f32]
  exact le_fold_min_top _ z

end Idealize.ShloMosaic.MinReduce

end
-- ==== Proof.LibBlockExtrema.lean ====
/-
  A block's minimum and maximum over all axes but one, as a vector program spells them, by their universal
  properties: for an [a, b, c, d] block reduced over the last axis, then the (new) last axis, cast
  [a, b] → [a, b, 1] and reduced over the leading axis from +∞ (−∞), at (t, u):
  `z ≤ min ↔ ∀ k l n, z ≤ block (k, t, l, n)` and `max ≤ z ↔ ∀ k l n, block (k, t, l, n) ≤ z`.
  Arbitrary extents; extended reals; no program imported.
-/
import proofs.«174061_j72688026517959_2_alg».proof.Proof.LibMinReduce
import proofs.«174061_j72688026517959_2_alg».proof.Proof.LibBlockSums

noncomputable section

namespace LibBlockExtrema

open Idealize.ShloMosaic Idealize.ShloMosaic.ValueIdx LibBlockSums

variable {a b c d : Nat}

/-- The f32 pattern of −∞ denotes the bottom extended real. -/
theorem ofBits_neg_inf_f32 : Ideal.ofBits .f32 0xFF800000#32 = (⊥ : EReal) := by
  simp [Ideal.ofBits, Ideal.ieee]

/-- A fold of max from ⊥ over all of a finite type is the least upper bound of the values. -/
theorem fold_max_bot_le {ι : Type*} [Fintype ι] (f : ι → EReal) (z : EReal) :
    (Finset.univ : Finset ι).fold max (⊥ : EReal) f ≤ z ↔ ∀ k, f k ≤ z := by
  rw [Finset.fold_max_le]
  exact ⟨fun h k => h.2 k (Finset.mem_univ k), fun h => ⟨bot_le, fun k _ => h k⟩⟩

/-- An f32 vector reduction by maximumf from −∞ over one axis is the least upper bound along that axis. -/
theorem multiReduction_max_le {s t : Shape} {ax : Fin s.rank} (src : FVec Ideal s .f32)
    (h : s.Reduces [ax] t) (hφ : FKind.Formats .f32) (hacc : (0xFF800000#32 : BitVec 32) = FKind.maximumf.neutral .f32 hφ)
    (j : t.Idx) (z : EReal) :
    multiReduction .maximumf [ax] t src 0xFF800000#32 h hφ hacc j ≤ z ↔ ∀ k : Fin (s.size ax), src (h.lift j k) ≤ z := by
  rw [Ideal.multiReduction_maximumf_single]
  show (Finset.univ : Finset (Fin (s.size ax))).fold max (Ideal.ofBits .f32 0xFF800000#32) (src ∘ h.lift j) ≤ z ↔ _
  rw [ofBits_neg_inf_f32]
  exact fold_max_bot_le _ z

/-! ## Minimum -/

theorem le_min_last4 (v : FVec Ideal ⟨4, ![a, b, c, d]⟩ .f32)
    (h : (⟨4, ![a, b, c, d]⟩ : Shape).Reduces [3] ⟨3, ![a, b, c]⟩) (hφ : FKind.Formats .f32)
    (hacc : (0x7F800000#32 : BitVec 32) = FKind.minimumf.neutral .f32 hφ) (k : Fin a) (t : Fin b) (l : Fin c) (z : EReal) :
    z ≤ multiReduction .minimumf [3] ⟨3, ![a, b, c]⟩ v 0x7F800000#32 h hφ hacc (ix3 k t l)
      ↔ ∀ n : Fin d, z ≤ v (ix4 k t l n) :=
  (MinReduce.le_multiReduction_min v h hφ hacc (ix3 k t l) z).trans (forall_congr' fun n => by
    rw [show h.lift (ix3 k t l) n = ix4 k t l n from funext fun r => Fin.ext (by
      match r with
      | ⟨0, _⟩ => rfl
      | ⟨1, _⟩ => rfl
      | ⟨2, _⟩ => rfl
      | ⟨3, _⟩ => rfl)]
    exact Iff.rfl)

theorem le_min_last3 (v : FVec Ideal ⟨3, ![a, b, c]⟩ .f32)
    (h : (⟨3, ![a, b, c]⟩ : Shape).Reduces [2] ⟨2, ![a, b]⟩) (hφ : FKind.Formats .f32)
    (hacc : (0x7F800000#32 : BitVec 32) = FKind.minimumf.neutral .f32 hφ) (k : Fin a) (t : Fin b) (z : EReal) :
    z ≤ multiReduction .minimumf [2] ⟨2, ![a, b]⟩ v 0x7F800000#32 h hφ hacc (ix2 k t)
      ↔ ∀ l : Fin c, z ≤ v (ix3 k t l) :=
  (MinReduce.le_multiReduction_min v h hφ hacc (ix2 k t) z).trans (forall_congr' fun n => by
    rw [show h.lift (ix2 k t) n = ix3 k t n from funext fun r => Fin.ext (by
      match r with
      | ⟨0, _⟩ => rfl
      | ⟨1, _⟩ => rfl
      | ⟨2, _⟩ => rfl)]
    exact Iff.rfl)

theorem le_min_lead3 (v : FVec Ideal ⟨3, ![a, b, 1]⟩ .f32)
    (h : (⟨3, ![a, b, 1]⟩ : Shape).Reduces [0] ⟨2, ![b, 1]⟩) (hφ : FKind.Formats .f32)
    (hacc : (0x7F800000#32 : BitVec 32) = FKind.minimumf.neutral .f32 hφ) (t : Fin b) (u : Fin 1) (z : EReal) :
    z ≤ multiReduction .minimumf [0] ⟨2, ![b, 1]⟩ v 0x7F800000#32 h hφ hacc (ix2 t u)
      ↔ ∀ k : Fin a, z ≤ v (ix3 k t u) :=
  (MinReduce.le_multiReduction_min v h hφ hacc (ix2 t u) z).trans (forall_congr' fun n => by
    rw [show h.lift (ix2 t u) n = ix3 n t u from funext fun r => Fin.ext (by
      match r with
      | ⟨0, _⟩ => rfl
      | ⟨1, _⟩ => rfl
      | ⟨2, _⟩ => rfl)]
    exact Iff.rfl)

/-- The block's minimum over every axis but axis 1, at (t, u). -/
theorem le_block_min (v : FVec Ideal ⟨4, ![a, b, c, d]⟩ .f32)
    (h3 : (⟨4, ![a, b, c, d]⟩ : Shape).Reduces [3] ⟨3, ![a, b, c]⟩)
    (h2 : (⟨3, ![a, b, c]⟩ : Shape).Reduces [2] ⟨2, ![a, b]⟩)
    (hc : (⟨2, ![a, b]⟩ : Shape).ShapeCasts ⟨3, ![a, b, 1]⟩)
    (h0 : (⟨3, ![a, b, 1]⟩ : Shape).Reduces [0] ⟨2, ![b, 1]⟩)
    (hφ3 hφ2 hφ0 : FKind.Formats .f32)
    (hacc3 : (0x7F800000#32 : BitVec 32) = FKind.minimumf.neutral .f32 hφ3)
    (hacc2 : (0x7F800000#32 : BitVec 32) = FKind.minimumf.neutral .f32 hφ2)
    (hacc0 : (0x7F800000#32 : BitVec 32) = FKind.minimumf.neutral .f32 hφ0) (t : Fin b) (u : Fin 1) (z : EReal) :
    z ≤ multiReduction .minimumf [0] ⟨2, ![b, 1]⟩
        (shapeCast ⟨3, ![a, b, 1]⟩
          (multiReduction .minimumf [2] ⟨2, ![a, b]⟩
            (multiReduction .minimumf [3] ⟨3, ![a, b, c]⟩ v 0x7F800000#32 h3 hφ3 hacc3) 0x7F800000#32 h2 hφ2 hacc2) hc)
        0x7F800000#32 h0 hφ0 hacc0 (ix2 t u)
      ↔ ∀ (k : Fin a) (l : Fin c) (n : Fin d), z ≤ v (ix4 k t l n) := by
  rw [le_min_lead3]
  refine forall_congr' fun k => ?_
  rw [keepdims_apply, le_min_last3]
  refine forall_congr' fun l => ?_
  rw [le_min_last4]

/-! ## Maximum -/

theorem max_last4_le (v : FVec Ideal ⟨4, ![a, b, c, d]⟩ .f32)
    (h : (⟨4, ![a, b, c, d]⟩ : Shape).Reduces [3] ⟨3, ![a, b, c]⟩) (hφ : FKind.Formats .f32)
    (hacc : (0xFF800000#32 : BitVec 32) = FKind.maximumf.neutral .f32 hφ) (k : Fin a) (t : Fin b) (l : Fin c) (z : EReal) :
    multiReduction .maximumf [3] ⟨3, ![a, b, c]⟩ v 0xFF800000#32 h hφ hacc (ix3 k t l) ≤ z
      ↔ ∀ n : Fin d, v (ix4 k t l n) ≤ z :=
  (multiReduction_max_le v h hφ hacc (ix3 k t l) z).trans (forall_congr' fun n => by
    rw [show h.lift (ix3 k t l) n = ix4 k t l n from funext fun r => Fin.ext (by
      match r with
      | ⟨0, _⟩ => rfl
      | ⟨1, _⟩ => rfl
      | ⟨2, _⟩ => rfl
      | ⟨3, _⟩ => rfl)]
    exact Iff.rfl)

theorem max_last3_le (v : FVec Ideal ⟨3, ![a, b, c]⟩ .f32)
    (h : (⟨3, ![a, b, c]⟩ : Shape).Reduces [2] ⟨2, ![a, b]⟩) (hφ : FKind.Formats .f32)
    (hacc : (0xFF800000#32 : BitVec 32) = FKind.maximumf.neutral .f32 hφ) (k : Fin a) (t : Fin b) (z : EReal) :
    multiReduction .maximumf [2] ⟨2, ![a, b]⟩ v 0xFF800000#32 h hφ hacc (ix2 k t) ≤ z
      ↔ ∀ l : Fin c, v (ix3 k t l) ≤ z :=
  (multiReduction_max_le v h hφ hacc (ix2 k t) z).trans (forall_congr' fun n => by
    rw [show h.lift (ix2 k t) n = ix3 k t n from funext fun r => Fin.ext (by
      match r with
      | ⟨0, _⟩ => rfl
      | ⟨1, _⟩ => rfl
      | ⟨2, _⟩ => rfl)]
    exact Iff.rfl)

theorem max_lead3_le (v : FVec Ideal ⟨3, ![a, b, 1]⟩ .f32)
    (h : (⟨3, ![a, b, 1]⟩ : Shape).Reduces [0] ⟨2, ![b, 1]⟩) (hφ : FKind.Formats .f32)
    (hacc : (0xFF800000#32 : BitVec 32) = FKind.maximumf.neutral .f32 hφ) (t : Fin b) (u : Fin 1) (z : EReal) :
    multiReduction .maximumf [0] ⟨2, ![b, 1]⟩ v 0xFF800000#32 h hφ hacc (ix2 t u) ≤ z
      ↔ ∀ k : Fin a, v (ix3 k t u) ≤ z :=
  (multiReduction_max_le v h hφ hacc (ix2 t u) z).trans (forall_congr' fun n => by
    rw [show h.lift (ix2 t u) n = ix3 n t u from funext fun r => Fin.ext (by
      match r with
      | ⟨0, _⟩ => rfl
      | ⟨1, _⟩ => rfl
      | ⟨2, _⟩ => rfl)]
    exact Iff.rfl)

/-- The block's maximum over every axis but axis 1, at (t, u). -/
theorem block_max_le (v : FVec Ideal ⟨4, ![a, b, c, d]⟩ .f32)
    (h3 : (⟨4, ![a, b, c, d]⟩ : Shape).Reduces [3] ⟨3, ![a, b, c]⟩)
    (h2 : (⟨3, ![a, b, c]⟩ : Shape).Reduces [2] ⟨2, ![a, b]⟩)
    (hc : (⟨2, ![a, b]⟩ : Shape).ShapeCasts ⟨3, ![a, b, 1]⟩)
    (h0 : (⟨3, ![a, b, 1]⟩ : Shape).Reduces [0] ⟨2, ![b, 1]⟩)
    (hφ3 hφ2 hφ0 : FKind.Formats .f32)
    (hacc3 : (0xFF800000#32 : BitVec 32) = FKind.maximumf.neutral .f32 hφ3)
    (hacc2 : (0xFF800000#32 : BitVec 32) = FKind.maximumf.neutral .f32 hφ2)
    (hacc0 : (0xFF800000#32 : BitVec 32) = FKind.maximumf.neutral .f32 hφ0) (t : Fin b) (u : Fin 1) (z : EReal) :
    multiReduction .maximumf [0] ⟨2, ![b, 1]⟩
        (shapeCast ⟨3, ![a, b, 1]⟩
          (multiReduction .maximumf [2] ⟨2, ![a, b]⟩
            (multiReduction .maximumf [3] ⟨3, ![a, b, c]⟩ v 0xFF800000#32 h3 hφ3 hacc3) 0xFF800000#32 h2 hφ2 hacc2) hc)
        0xFF800000#32 h0 hφ0 hacc0 (ix2 t u) ≤ z
      ↔ ∀ (k : Fin a) (l : Fin c) (n : Fin d), v (ix4 k t l n) ≤ z := by
  rw [max_lead3_le]
  refine forall_congr' fun k => ?_
  rw [keepdims_apply, max_last3_le]
  refine forall_congr' fun l => ?_
  rw [max_last4_le]

end LibBlockExtrema

end
-- ==== Proof.Region0Value.lean ====
/-
  The first region (the statistics pass): at grid point (b, ct) the body writes the block's T-mean map and adds
  to the batch's running [16, 1] statistics the block's sums of x, of x², of x times the T-mean, and folds in
  the block's minimum and maximum. The first point of a batch (ct = 0) starts from 0, 0, 0, +∞, −∞.
-/
import proofs.«174061_j72688026517959_2_alg».proof.Proof.Gen.KernelIdeal.Frame
import proofs.«174061_j72688026517959_2_alg».proof.Proof.BlockLayout
import proofs.«174061_j72688026517959_2_alg».proof.Proof.LibBlockSums
import proofs.«174061_j72688026517959_2_alg».proof.Proof.LibBlockExtrema
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)

section Cases
variable {F : FTy → Type} [FloatOps F]

theorem hz5 : (![0, 0, 0, 0, 0] : Fin 5 → Nat) = fun _ => 0 := funext fun a => by fin_cases a <;> rfl
theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-! ### A later point of a batch -/

theorem outB_1 (c : Dev nD) (i : grid0.Coords) (a2 : Memref sig .tc .vmem S1x8x16x112x112 .f32) (h2 : a2.IsWhole) (a3 : Memref sig .tc .vmem S1x8x112x112 .f32) (h3 : a3.IsWhole) (a4 : Memref sig .tc .vmem S1x16x1 .f32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (hc : ¬cond0_0 i) (x0 : Vec F S1x8x16x112x112 .f32)
    (xo2 xo3 xo4 xo5 xo6 : Vec F S1x16x1 .f32) :
    out0_B_1 c i a2 h2 a3 h3 a4 h4 a5 h5 a6 h6 a7 h7 a8 h8 hc x0 xo2 xo3 xo4 xo5 xo6 = k0_pay9 x0 := by
  unfold out0_B_1
  rw [View.read_writes_eq_canon _ _ _ (cover0_B_1 c i a2 h2 a3 h3 a4 h4 a5 h5 a6 h6 a7 h7 a8 h8 hc x0 xo2 xo3 xo4 xo5 xo6)]
  unfold kernelRun0_B
  dsimp only
  sl_unfold_words
  rw [View.canon_unit_zero hz4]
  simp only [View.readAt_eq_ld, h2.read_unread, h4.read_unread, h5.read_unread, h6.read_unread, h7.read_unread, h8.read_unread,
    View.ld_unit_zero (S := S1x8x16x112x112) hz5, View.ld_unit_zero (S := S1x16x1) hz3]

theorem outB_2 (c : Dev nD) (i : grid0.Coords) (a2 : Memref sig .tc .vmem S1x8x16x112x112 .f32) (h2 : a2.IsWhole) (a3 : Memref sig .tc .vmem S1x8x112x112 .f32) (h3 : a3.IsWhole) (a4 : Memref sig .tc .vmem S1x16x1 .f32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (hc : ¬cond0_0 i) (x0 : Vec F S1x8x16x112x112 .f32)
    (xo2 xo3 xo4 xo5 xo6 : Vec F S1x16x1 .f32) :
    out0_B_2 c i a2 h2 a3 h3 a4 h4 a5 h5 a6 h6 a7 h7 a8 h8 hc x0 xo2 xo3 xo4 xo5 xo6 = k0_pay15 (k0_pay10 x0) xo2 := by
  unfold out0_B_2
  rw [View.read_writes_eq_canon _ _ _ (cover0_B_2 c i a2 h2 a3 h3 a4 h4 a5 h5 a6 h6 a7 h7 a8 h8 hc x0 xo2 xo3 xo4 xo5 xo6)]
  unfold kernelRun0_B
  dsimp only
  sl_unfold_words
  rw [View.canon_unit_zero hz3]
  simp only [View.readAt_eq_ld, h2.read_unread, h4.read_unread, h5.read_unread, h6.read_unread, h7.read_unread, h8.read_unread,
    View.ld_unit_zero (S := S1x8x16x112x112) hz5, View.ld_unit_zero (S := S1x16x1) hz3]

theorem outB_3 (c : Dev nD) (i : grid0.Coords) (a2 : Memref sig .tc .vmem S1x8x16x112x112 .f32) (h2 : a2.IsWhole) (a3 : Memref sig .tc .vmem S1x8x112x112 .f32) (h3 : a3.IsWhole) (a4 : Memref sig .tc .vmem S1x16x1 .f32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (hc : ¬cond0_0 i) (x0 : Vec F S1x8x16x112x112 .f32)
    (xo2 xo3 xo4 xo5 xo6 : Vec F S1x16x1 .f32) :
    out0_B_3 c i a2 h2 a3 h3 a4 h4 a5 h5 a6 h6 a7 h7 a8 h8 hc x0 xo2 xo3 xo4 xo5 xo6 = k0_pay16 (k0_pay11 x0) xo3 := by
  unfold out0_B_3
  rw [View.read_writes_eq_canon _ _ _ (cover0_B_3 c i a2 h2 a3 h3 a4 h4 a5 h5 a6 h6 a7 h7 a8 h8 hc x0 xo2 xo3 xo4 xo5 xo6)]
  unfold kernelRun0_B
  dsimp only
  sl_unfold_words
  rw [View.canon_unit_zero hz3]
  simp only [View.readAt_eq_ld, h2.read_unread, h4.read_unread, h5.read_unread, h6.read_unread, h7.read_unread, h8.read_unread,
    View.ld_unit_zero (S := S1x8x16x112x112) hz5, View.ld_unit_zero (S := S1x16x1) hz3]

theorem outB_4 (c : Dev nD) (i : grid0.Coords) (a2 : Memref sig .tc .vmem S1x8x16x112x112 .f32) (h2 : a2.IsWhole) (a3 : Memref sig .tc .vmem S1x8x112x112 .f32) (h3 : a3.IsWhole) (a4 : Memref sig .tc .vmem S1x16x1 .f32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (hc : ¬cond0_0 i) (x0 : Vec F S1x8x16x112x112 .f32)
    (xo2 xo3 xo4 xo5 xo6 : Vec F S1x16x1 .f32) :
    out0_B_4 c i a2 h2 a3 h3 a4 h4 a5 h5 a6 h6 a7 h7 a8 h8 hc x0 xo2 xo3 xo4 xo5 xo6 = k0_pay17 (k0_pay12 x0) xo4 := by
  unfold out0_B_4
  rw [View.read_writes_eq_canon _ _ _ (cover0_B_4 c i a2 h2 a3 h3 a4 h4 a5 h5 a6 h6 a7 h7 a8 h8 hc x0 xo2 xo3 xo4 xo5 xo6)]
  unfold kernelRun0_B
  dsimp only
  sl_unfold_words
  rw [View.canon_unit_zero hz3]
  simp only [View.readAt_eq_ld, h2.read_unread, h4.read_unread, h5.read_unread, h6.read_unread, h7.read_unread, h8.read_unread,
    View.ld_unit_zero (S := S1x8x16x112x112) hz5, View.ld_unit_zero (S := S1x16x1) hz3]

theorem outB_5 (c : Dev nD) (i : grid0.Coords) (a2 : Memref sig .tc .vmem S1x8x16x112x112 .f32) (h2 : a2.IsWhole) (a3 : Memref sig .tc .vmem S1x8x112x112 .f32) (h3 : a3.IsWhole) (a4 : Memref sig .tc .vmem S1x16x1 .f32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (hc : ¬cond0_0 i) (x0 : Vec F S1x8x16x112x112 .f32)
    (xo2 xo3 xo4 xo5 xo6 : Vec F S1x16x1 .f32) :
    out0_B_5 c i a2 h2 a3 h3 a4 h4 a5 h5 a6 h6 a7 h7 a8 h8 hc x0 xo2 xo3 xo4 xo5 xo6 = k0_pay18 (k0_pay13 x0) xo5 := by
  unfold out0_B_5
  rw [View.read_writes_eq_canon _ _ _ (cover0_B_5 c i a2 h2 a3 h3 a4 h4 a5 h5 a6 h6 a7 h7 a8 h8 hc x0 xo2 xo3 xo4 xo5 xo6)]
  unfold kernelRun0_B
  dsimp only
  sl_unfold_words
  rw [View.canon_unit_zero hz3]
  simp only [View.readAt_eq_ld, h2.read_unread, h4.read_unread, h5.read_unread, h6.read_unread, h7.read_unread, h8.read_unread,
    View.ld_unit_zero (S := S1x8x16x112x112) hz5, View.ld_unit_zero (S := S1x16x1) hz3]

theorem outB_6 (c : Dev nD) (i : grid0.Coords) (a2 : Memref sig .tc .vmem S1x8x16x112x112 .f32) (h2 : a2.IsWhole) (a3 : Memref sig .tc .vmem S1x8x112x112 .f32) (h3 : a3.IsWhole) (a4 : Memref sig .tc .vmem S1x16x1 .f32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (hc : ¬cond0_0 i) (x0 : Vec F S1x8x16x112x112 .f32)
    (xo2 xo3 xo4 xo5 xo6 : Vec F S1x16x1 .f32) :
    out0_B_6 c i a2 h2 a3 h3 a4 h4 a5 h5 a6 h6 a7 h7 a8 h8 hc x0 xo2 xo3 xo4 xo5 xo6 = k0_pay1 (k0_pay14 (k0_pay7 x0)) xo6 := by
  unfold out0_B_6
  rw [View.read_writes_eq_canon _ _ _ (cover0_B_6 c i a2 h2 a3 h3 a4 h4 a5 h5 a6 h6 a7 h7 a8 h8 hc x0 xo2 xo3 xo4 xo5 xo6)]
  unfold kernelRun0_B
  dsimp only
  sl_unfold_words
  rw [View.canon_unit_zero hz3]
  simp only [View.readAt_eq_ld, h2.read_unread, h4.read_unread, h5.read_unread, h6.read_unread, h7.read_unread, h8.read_unread,
    View.ld_unit_zero (S := S1x8x16x112x112) hz5, View.ld_unit_zero (S := S1x16x1) hz3]

/-! ### The first point of a batch -/

theorem outA_1 (c : Dev nD) (i : grid0.Coords) (a2 : Memref sig .tc .vmem S1x8x16x112x112 .f32) (h2 : a2.IsWhole) (a3 : Memref sig .tc .vmem S1x8x112x112 .f32) (h3 : a3.IsWhole) (a4 : Memref sig .tc .vmem S1x16x1 .f32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (hc : cond0_0 i) (x0 : Vec F S1x8x16x112x112 .f32) :
    out0_A_1 c i a2 h2 a3 h3 a4 h4 a5 h5 a6 h6 a7 h7 a8 h8 hc x0 = k0_pay9 x0 := by
  unfold out0_A_1
  rw [View.read_writes_eq_canon _ _ _ (cover0_A_1 c i a2 h2 a3 h3 a4 h4 a5 h5 a6 h6 a7 h7 a8 h8 hc x0)]
  unfold kernelRun0_A
  dsimp only
  sl_unfold_words
  rw [View.canon_unit_zero hz4]
  simp only [View.readAt_eq_ld, h2.read_unread,
    View.ld_unit_zero (S := S1x8x16x112x112) hz5, View.ld_unit_zero (S := S1x16x1) hz3]

theorem outA_2 (c : Dev nD) (i : grid0.Coords) (a2 : Memref sig .tc .vmem S1x8x16x112x112 .f32) (h2 : a2.IsWhole) (a3 : Memref sig .tc .vmem S1x8x112x112 .f32) (h3 : a3.IsWhole) (a4 : Memref sig .tc .vmem S1x16x1 .f32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (hc : cond0_0 i) (x0 : Vec F S1x8x16x112x112 .f32) :
    out0_A_2 c i a2 h2 a3 h3 a4 h4 a5 h5 a6 h6 a7 h7 a8 h8 hc x0 = k0_pay15 (k0_pay10 x0) k0_pay2 := by
  unfold out0_A_2
  rw [View.read_writes_eq_canon _ _ _ (cover0_A_2 c i a2 h2 a3 h3 a4 h4 a5 h5 a6 h6 a7 h7 a8 h8 hc x0)]
  unfold kernelRun0_A
  dsimp only
  sl_unfold_words
  rw [View.canon_cons_unit_zero (S := S1x16x1) hz3, View.readCov_unit_zero (S := S1x16x1) _ hz3]
  simp only [View.readAt_eq_ld, h2.read_unread,
    View.ld_unit_zero (S := S1x8x16x112x112) hz5, View.ld_unit_zero (S := S1x16x1) hz3]

theorem outA_3 (c : Dev nD) (i : grid0.Coords) (a2 : Memref sig .tc .vmem S1x8x16x112x112 .f32) (h2 : a2.IsWhole) (a3 : Memref sig .tc .vmem S1x8x112x112 .f32) (h3 : a3.IsWhole) (a4 : Memref sig .tc .vmem S1x16x1 .f32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (hc : cond0_0 i) (x0 : Vec F S1x8x16x112x112 .f32) :
    out0_A_3 c i a2 h2 a3 h3 a4 h4 a5 h5 a6 h6 a7 h7 a8 h8 hc x0 = k0_pay16 (k0_pay11 x0) k0_pay3 := by
  unfold out0_A_3
  rw [View.read_writes_eq_canon _ _ _ (cover0_A_3 c i a2 h2 a3 h3 a4 h4 a5 h5 a6 h6 a7 h7 a8 h8 hc x0)]
  unfold kernelRun0_A
  dsimp only
  sl_unfold_words
  rw [View.canon_cons_unit_zero (S := S1x16x1) hz3, View.readCov_unit_zero (S := S1x16x1) _ hz3]
  simp only [View.readAt_eq_ld, h2.read_unread,
    View.ld_unit_zero (S := S1x8x16x112x112) hz5, View.ld_unit_zero (S := S1x16x1) hz3]

theorem outA_4 (c : Dev nD) (i : grid0.Coords) (a2 : Memref sig .tc .vmem S1x8x16x112x112 .f32) (h2 : a2.IsWhole) (a3 : Memref sig .tc .vmem S1x8x112x112 .f32) (h3 : a3.IsWhole) (a4 : Memref sig .tc .vmem S1x16x1 .f32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (hc : cond0_0 i) (x0 : Vec F S1x8x16x112x112 .f32) :
    out0_A_4 c i a2 h2 a3 h3 a4 h4 a5 h5 a6 h6 a7 h7 a8 h8 hc x0 = k0_pay17 (k0_pay12 x0) k0_pay4 := by
  unfold out0_A_4
  rw [View.read_writes_eq_canon _ _ _ (cover0_A_4 c i a2 h2 a3 h3 a4 h4 a5 h5 a6 h6 a7 h7 a8 h8 hc x0)]
  unfold kernelRun0_A
  dsimp only
  sl_unfold_words
  rw [View.canon_cons_unit_zero (S := S1x16x1) hz3, View.readCov_unit_zero (S := S1x16x1) _ hz3]
  simp only [View.readAt_eq_ld, h2.read_unread,
    View.ld_unit_zero (S := S1x8x16x112x112) hz5, View.ld_unit_zero (S := S1x16x1) hz3]

theorem outA_5 (c : Dev nD) (i : grid0.Coords) (a2 : Memref sig .tc .vmem S1x8x16x112x112 .f32) (h2 : a2.IsWhole) (a3 : Memref sig .tc .vmem S1x8x112x112 .f32) (h3 : a3.IsWhole) (a4 : Memref sig .tc .vmem S1x16x1 .f32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (hc : cond0_0 i) (x0 : Vec F S1x8x16x112x112 .f32) :
    out0_A_5 c i a2 h2 a3 h3 a4 h4 a5 h5 a6 h6 a7 h7 a8 h8 hc x0 = k0_pay18 (k0_pay13 x0) k0_pay5 := by
  unfold out0_A_5
  rw [View.read_writes_eq_canon _ _ _ (cover0_A_5 c i a2 h2 a3 h3 a4 h4 a5 h5 a6 h6 a7 h7 a8 h8 hc x0)]
  unfold kernelRun0_A
  dsimp only
  sl_unfold_words
  rw [View.canon_cons_unit_zero (S := S1x16x1) hz3, View.readCov_unit_zero (S := S1x16x1) _ hz3]
  simp only [View.readAt_eq_ld, h2.read_unread,
    View.ld_unit_zero (S := S1x8x16x112x112) hz5, View.ld_unit_zero (S := S1x16x1) hz3]

theorem outA_6 (c : Dev nD) (i : grid0.Coords) (a2 : Memref sig .tc .vmem S1x8x16x112x112 .f32) (h2 : a2.IsWhole) (a3 : Memref sig .tc .vmem S1x8x112x112 .f32) (h3 : a3.IsWhole) (a4 : Memref sig .tc .vmem S1x16x1 .f32) (h4 : a4.IsWhole) (a5 : Memref sig .tc .vmem S1x16x1 .f32) (h5 : a5.IsWhole) (a6 : Memref sig .tc .vmem S1x16x1 .f32) (h6 : a6.IsWhole) (a7 : Memref sig .tc .vmem S1x16x1 .f32) (h7 : a7.IsWhole) (a8 : Memref sig .tc .vmem S1x16x1 .f32) (h8 : a8.IsWhole) (hc : cond0_0 i) (x0 : Vec F S1x8x16x112x112 .f32) :
    out0_A_6 c i a2 h2 a3 h3 a4 h4 a5 h5 a6 h6 a7 h7 a8 h8 hc x0 = k0_pay1 (k0_pay14 (k0_pay7 x0)) k0_pay6 := by
  unfold out0_A_6
  rw [View.read_writes_eq_canon _ _ _ (cover0_A_6 c i a2 h2 a3 h3 a4 h4 a5 h5 a6 h6 a7 h7 a8 h8 hc x0)]
  unfold kernelRun0_A
  dsimp only
  sl_unfold_words
  rw [View.canon_cons_unit_zero (S := S1x16x1) hz3, View.readCov_unit_zero (S := S1x16x1) _ hz3]
  simp only [View.readAt_eq_ld, h2.read_unread,
    View.ld_unit_zero (S := S1x8x16x112x112) hz5, View.ld_unit_zero (S := S1x16x1) hz3]

end Cases

/-! ## The body's values at an index, on the extended reals -/

theorem ofBits_inf : Ideal.ofBits .f32 0x7F800000#32 = (⊤ : EReal) := by simp [Ideal.ofBits, Ideal.ieee]
theorem ofBits_neg_inf : Ideal.ofBits .f32 0xFF800000#32 = (⊥ : EReal) := by simp [Ideal.ofBits, Ideal.ieee]

/-- A constant [16, 1] vector stored as a [1, 16, 1] block reads the constant. -/
theorem const_block_apply (b : BitVec 32) (j : S1x16x1.Idx) :
    shapeCast S1x16x1 (broadcast S16x1 (Scalar.ofBits (F := Ideal) .f32 b)) shapeCasts_S16x1_S1x16x1 j
      = Ideal.ofBits .f32 b := by
  refine (shapeCast_apply _ _ j (ix2 (j 1) (j 2)) ?_).trans rfl
  have h0 : (j 0).val < 1 := (j 0).isLt
  rw [Shape.rowMajor_val_two, Shape.rowMajor_val_three]
  show (j 1).val * 1 + (j 2).val = ((j 0).val * 16 + (j 1).val) * 1 + (j 2).val
  omega

theorem init_sx (j : S1x16x1.Idx) : (k0_pay2 (F := Ideal)) j = 0 :=
  (const_block_apply _ j).trans Ideal.ofBits_zero_f32
theorem init_sxx (j : S1x16x1.Idx) : (k0_pay3 (F := Ideal)) j = 0 :=
  (const_block_apply _ j).trans Ideal.ofBits_zero_f32
theorem init_cr (j : S1x16x1.Idx) : (k0_pay4 (F := Ideal)) j = 0 :=
  (const_block_apply _ j).trans Ideal.ofBits_zero_f32
theorem init_mn (j : S1x16x1.Idx) : (k0_pay5 (F := Ideal)) j = ⊤ :=
  (const_block_apply _ j).trans ofBits_inf
theorem init_mx (j : S1x16x1.Idx) : (k0_pay6 (F := Ideal)) j = ⊥ :=
  (const_block_apply _ j).trans ofBits_neg_inf

/-- The T-mean of a block at (k, l, n): the sum over the 16 frames divided by 16. -/
def meanBlk (x0 : Vec Ideal S1x8x16x112x112 .f32) (k : Fin 8) (l n : Fin 112) : EReal :=
  Ideal.div (∑ t : Fin 16, x0 (ix5 (0 : Fin 1) k t l n)) (Ideal.ofBits .f32 0x41800000#32)

theorem mean3_apply (x0 : Vec Ideal S1x8x16x112x112 .f32) (k : Fin 8) (l n : Fin 112) :
    k0_pay8 x0 (ix3 k l n) = meanBlk x0 k l n := by
  unfold k0_pay8 k0_pay7 meanBlk
  dsimp only
  rw [divf_apply]
  refine congrArg₂ Ideal.div ?_ rfl
  refine (LibBlockSums.sum_axis1_4 _ _ _ _ k l n).trans ?_
  exact Finset.sum_congr rfl fun t _ => BlockLayout.xblock_apply x0 k t l n

/-- The T-mean map's block, as stored. -/
theorem mean_apply (x0 : Vec Ideal S1x8x16x112x112 .f32) (z : Fin 1) (k : Fin 8) (l n : Fin 112) :
    k0_pay9 x0 (ix4 z k l n) = meanBlk x0 k l n := by
  unfold k0_pay9
  exact (shapeCast_abc_1abc_apply _ _ z k l n).trans (mean3_apply x0 k l n)

/-- An [8, 112, 112] map given a unit frame axis and broadcast over the 16 frames, at (k, t, l, n). -/
theorem map3_bcast_apply {α : Type} (y : S8x112x112.Idx → α) (k : Fin 8) (t : Fin 16) (l n : Fin 112) :
    broadcastTo S8x16x112x112 (shapeCast S8x1x112x112 y shapeCasts_S8x112x112_S8x1x112x112)
        broadcasts_S8x1x112x112_S8x16x112x112 (ix4 k t l n) = y (ix3 k l n) := by
  refine (broadcastTo_apply _ _ (ix4 k t l n) (ix4 k (0 : Fin 1) l n) fun a => ?_).trans ?_
  · match a with
    | ⟨0, _⟩ => rfl
    | ⟨1, _⟩ => rfl
    | ⟨2, _⟩ => rfl
    | ⟨3, _⟩ => rfl
  refine shapeCast_apply _ _ (ix4 k (0 : Fin 1) l n) (ix3 k l n) ?_
  rw [Shape.rowMajor_val_four, Shape.rowMajor_val_three]
  show (k.val * 112 + l.val) * 112 + n.val = ((k.val * 1 + 0) * 112 + l.val) * 112 + n.val
  omega

/-- One frame's sum of a block over its channels, rows and columns. -/
def sumBlk (x0 : Vec Ideal S1x8x16x112x112 .f32) (t : Fin 16) : EReal :=
  ∑ k : Fin 8, ∑ l : Fin 112, ∑ n : Fin 112, x0 (ix5 (0 : Fin 1) k t l n)
/-- One frame's sum of squares of a block. -/
def sqBlk (x0 : Vec Ideal S1x8x16x112x112 .f32) (t : Fin 16) : EReal :=
  ∑ k : Fin 8, ∑ l : Fin 112, ∑ n : Fin 112, x0 (ix5 (0 : Fin 1) k t l n) * x0 (ix5 (0 : Fin 1) k t l n)
/-- One frame's sum of products with the block's T-mean. -/
def crBlk (x0 : Vec Ideal S1x8x16x112x112 .f32) (t : Fin 16) : EReal :=
  ∑ k : Fin 8, ∑ l : Fin 112, ∑ n : Fin 112, x0 (ix5 (0 : Fin 1) k t l n) * meanBlk x0 k l n
/-- One frame's minimum of a block, as the body computes it. -/
def minBlk (x0 : Vec Ideal S1x8x16x112x112 .f32) (t : Fin 16) : EReal := k0_pay13 x0 (ix2 t (0 : Fin 1))
/-- One frame's maximum of a block, as the body computes it. -/
def maxBlk (x0 : Vec Ideal S1x8x16x112x112 .f32) (t : Fin 16) : EReal := k0_pay14 (k0_pay7 x0) (ix2 t (0 : Fin 1))

theorem le_minBlk (x0 : Vec Ideal S1x8x16x112x112 .f32) (t : Fin 16) (z : EReal) :
    z ≤ minBlk x0 t ↔ ∀ (k : Fin 8) (l n : Fin 112), z ≤ x0 (ix5 (0 : Fin 1) k t l n) := by
  unfold minBlk k0_pay13 k0_pay7
  dsimp only
  refine (LibBlockExtrema.le_block_min _ _ _ _ _ _ _ _ _ _ _ t (0 : Fin 1) z).trans ?_
  exact forall_congr' fun k => forall_congr' fun l => forall_congr' fun n => by
    rw [BlockLayout.xblock_apply]

theorem maxBlk_le (x0 : Vec Ideal S1x8x16x112x112 .f32) (t : Fin 16) (z : EReal) :
    maxBlk x0 t ≤ z ↔ ∀ (k : Fin 8) (l n : Fin 112), x0 (ix5 (0 : Fin 1) k t l n) ≤ z := by
  unfold maxBlk k0_pay14 k0_pay7
  dsimp only
  refine (LibBlockExtrema.block_max_le _ _ _ _ _ _ _ _ _ _ _ t (0 : Fin 1) z).trans ?_
  exact forall_congr' fun k => forall_congr' fun l => forall_congr' fun n => by
    rw [BlockLayout.xblock_apply]

theorem sx_apply (x0 : Vec Ideal S1x8x16x112x112 .f32) (acc : Vec Ideal S1x16x1 .f32) (z : Fin 1) (t : Fin 16) (u : Fin 1) :
    k0_pay15 (k0_pay10 x0) acc (ix3 z t u) = acc (ix3 (0 : Fin 1) t u) + sumBlk x0 t := by
  unfold k0_pay15 k0_pay10 k0_pay7 sumBlk
  dsimp only
  rw [BlockLayout.acc_add_apply, addf_apply, BlockLayout.acc_drop_apply]
  refine congrArg (acc (ix3 (0 : Fin 1) t u) + ·) ?_
  refine (LibBlockSums.block_sum _ _ _ _ _ _ _ _ _ _ _ t u).trans ?_
  exact Finset.sum_congr rfl fun k _ => Finset.sum_congr rfl fun l _ => Finset.sum_congr rfl fun n _ =>
    BlockLayout.xblock_apply x0 k t l n

theorem sxx_apply (x0 : Vec Ideal S1x8x16x112x112 .f32) (acc : Vec Ideal S1x16x1 .f32) (z : Fin 1) (t : Fin 16) (u : Fin 1) :
    k0_pay16 (k0_pay11 x0) acc (ix3 z t u) = acc (ix3 (0 : Fin 1) t u) + sqBlk x0 t := by
  unfold k0_pay16 k0_pay11 k0_pay7 sqBlk
  dsimp only
  rw [BlockLayout.acc_add_apply, addf_apply, BlockLayout.acc_drop_apply]
  refine congrArg (acc (ix3 (0 : Fin 1) t u) + ·) ?_
  refine (LibBlockSums.block_sum _ _ _ _ _ _ _ _ _ _ _ t u).trans ?_
  refine Finset.sum_congr rfl fun k _ => Finset.sum_congr rfl fun l _ => Finset.sum_congr rfl fun n _ => ?_
  rw [mulf_apply, BlockLayout.xblock_apply]

theorem cr_apply (x0 : Vec Ideal S1x8x16x112x112 .f32) (acc : Vec Ideal S1x16x1 .f32) (z : Fin 1) (t : Fin 16) (u : Fin 1) :
    k0_pay17 (k0_pay12 x0) acc (ix3 z t u) = acc (ix3 (0 : Fin 1) t u) + crBlk x0 t := by
  unfold k0_pay17 k0_pay12 crBlk
  dsimp only
  rw [BlockLayout.acc_add_apply, addf_apply, BlockLayout.acc_drop_apply]
  refine congrArg (acc (ix3 (0 : Fin 1) t u) + ·) ?_
  refine (LibBlockSums.block_sum _ _ _ _ _ _ _ _ _ _ _ t u).trans ?_
  refine Finset.sum_congr rfl fun k _ => Finset.sum_congr rfl fun l _ => Finset.sum_congr rfl fun n _ => ?_
  rw [mulf_apply, map3_bcast_apply, mean3_apply]
  unfold k0_pay7
  rw [BlockLayout.xblock_apply]

theorem mn_apply (x0 : Vec Ideal S1x8x16x112x112 .f32) (acc : Vec Ideal S1x16x1 .f32) (z : Fin 1) (t : Fin 16) (u : Fin 1) :
    k0_pay18 (k0_pay13 x0) acc (ix3 z t u) = min (acc (ix3 (0 : Fin 1) t u)) (minBlk x0 t) := by
  have hu : u = (0 : Fin 1) := Subsingleton.elim _ _
  subst hu
  unfold k0_pay18 minBlk
  rw [BlockLayout.acc_add_apply, minimumf_apply, BlockLayout.acc_drop_apply]

theorem mx_apply (x0 : Vec Ideal S1x8x16x112x112 .f32) (acc : Vec Ideal S1x16x1 .f32) (z : Fin 1) (t : Fin 16) (u : Fin 1) :
    k0_pay1 (k0_pay14 (k0_pay7 x0)) acc (ix3 z t u) = max (acc (ix3 (0 : Fin 1) t u)) (maxBlk x0 t) := by
  have hu : u = (0 : Fin 1) := Subsingleton.elim _ _
  subst hu
  unfold k0_pay1 maxBlk
  rw [BlockLayout.acc_add_apply, maximumf_apply, BlockLayout.acc_drop_apply]

/-! ## A statistic carried over the grid: restarted at every fourth point -/

/-- The value after point n of a statistic folded by `op` from `e`, restarted at every fourth point. -/
def carried {N : ℕ} (op : EReal → EReal → EReal) (e : EReal) (f : (n : ℕ) → n < N → EReal) : (n : ℕ) → n < N → EReal
  | 0, h => op e (f 0 h)
  | n + 1, h => if (n + 1) % 4 = 0 then op e (f (n + 1) h) else op (carried op e f n (Nat.lt_of_succ_lt h)) (f (n + 1) h)

theorem carried_restart {N : ℕ} (op : EReal → EReal → EReal) (e : EReal) (f : (n : ℕ) → n < N → EReal) :
    ∀ (n : ℕ) (h : n < N), n % 4 = 0 → carried op e f n h = op e (f n h)
  | 0, _, _ => rfl
  | n + 1, h, hn => by simp only [carried, if_pos hn]

theorem carried_step {N : ℕ} (op : EReal → EReal → EReal) (e : EReal) (f : (n : ℕ) → n < N → EReal)
    (n : ℕ) (h : n + 1 < N) (hn : ¬(n + 1) % 4 = 0) :
    carried op e f (n + 1) h = op (carried op e f n (Nat.lt_of_succ_lt h)) (f (n + 1) h) := by
  simp only [carried, if_neg hn]

theorem carried_last {N : ℕ} (op : EReal → EReal → EReal) (e : EReal) (f : (n : ℕ) → n < N → EReal)
    (q : ℕ) (h : 4 * q + 3 < N) :
    carried op e f (4 * q + 3) h
      = op (op (op (op e (f (4 * q) (by omega))) (f (4 * q + 1) (by omega))) (f (4 * q + 2) (by omega))) (f (4 * q + 3) h) := by
  rw [carried_step op e f (4 * q + 2) h (by omega), carried_step op e f (4 * q + 1) (by omega) (by omega),
    carried_step op e f (4 * q) (by omega) (by omega), carried_restart op e f (4 * q) (by omega) (by omega)]

theorem carried_congr {N : ℕ} (op : EReal → EReal → EReal) (e : EReal) (f : (n : ℕ) → n < N → EReal)
    {n n' : ℕ} (hnn : n = n') (h : n < N) (h' : n' < N) : carried op e f n h = carried op e f n' h' := by
  subst hnn; rfl

/-! ## The running statistics over the grid -/

variable (V : (c : Dev nD) → (b : Ref sig .tc) → Buf (Elt Ideal) ((c : Thread nD τ).loc b))

/-- After point n each of the five staging buffers holds its statistic carried over the points of the batch so far. -/
theorem outsAt_eq (c : Dev nD) : ∀ (n : ℕ) (h : n < cfg0.N),
    (∀ (z : Fin 1) (t : Fin 16) (u : Fin 1), (outsAt0 V c n h).2.1 (ix3 z t u)
        = carried (· + ·) 0 (fun n h => sumBlk (iblk0 V c 0 ⟨n, h⟩) t) n h)
    ∧ (∀ (z : Fin 1) (t : Fin 16) (u : Fin 1), (outsAt0 V c n h).2.2.1 (ix3 z t u)
        = carried (· + ·) 0 (fun n h => sqBlk (iblk0 V c 0 ⟨n, h⟩) t) n h)
    ∧ (∀ (z : Fin 1) (t : Fin 16) (u : Fin 1), (outsAt0 V c n h).2.2.2.1 (ix3 z t u)
        = carried (· + ·) 0 (fun n h => crBlk (iblk0 V c 0 ⟨n, h⟩) t) n h)
    ∧ (∀ (z : Fin 1) (t : Fin 16) (u : Fin 1), (outsAt0 V c n h).2.2.2.2.1 (ix3 z t u)
        = carried min ⊤ (fun n h => minBlk (iblk0 V c 0 ⟨n, h⟩) t) n h)
    ∧ (∀ (z : Fin 1) (t : Fin 16) (u : Fin 1), (outsAt0 V c n h).2.2.2.2.2 (ix3 z t u)
        = carried max ⊥ (fun n h => maxBlk (iblk0 V c 0 ⟨n, h⟩) t) n h)
  | 0, h => by
    rw [show outsAt0 V c 0 h = _ from outsAt0_A V c ⟨0, h⟩ rfl]
    refine ⟨fun z t u => ?_, fun z t u => ?_, fun z t u => ?_, fun z t u => ?_, fun z t u => ?_⟩
    · dsimp only; rw [outA_2, sx_apply, init_sx]; rfl
    · dsimp only; rw [outA_3, sxx_apply, init_sxx]; rfl
    · dsimp only; rw [outA_4, cr_apply, init_cr]; rfl
    · dsimp only; rw [outA_5, mn_apply, init_mn]; rfl
    · dsimp only; rw [outA_6, mx_apply, init_mx]; rfl
  | n + 1, h => by
    by_cases h0 : (n + 1) % 4 = 0
    · rw [show outsAt0 V c (n + 1) h = _ from outsAt0_A V c ⟨n + 1, h⟩ h0]
      refine ⟨fun z t u => ?_, fun z t u => ?_, fun z t u => ?_, fun z t u => ?_, fun z t u => ?_⟩
      · dsimp only; rw [outA_2, sx_apply, init_sx, carried_restart _ _ _ (n + 1) h h0]
      · dsimp only; rw [outA_3, sxx_apply, init_sxx, carried_restart _ _ _ (n + 1) h h0]
      · dsimp only; rw [outA_4, cr_apply, init_cr, carried_restart _ _ _ (n + 1) h h0]
      · dsimp only; rw [outA_5, mn_apply, init_mn, carried_restart _ _ _ (n + 1) h h0]
      · dsimp only; rw [outA_6, mx_apply, init_mx, carried_restart _ _ _ (n + 1) h h0]
    · obtain ⟨i2, i3, i4, i5, i6⟩ := outsAt_eq c n (Nat.lt_of_succ_lt h)
      rw [show outsAt0 V c (n + 1) h = _ from outsAt0_B V c ⟨n + 1, h⟩ h0]
      refine ⟨fun z t u => ?_, fun z t u => ?_, fun z t u => ?_, fun z t u => ?_, fun z t u => ?_⟩
      · dsimp only; rw [outB_2, sx_apply, carried_step _ _ _ n h h0]
        exact congrArg (· + _) (i2 (0 : Fin 1) t u)
      · dsimp only; rw [outB_3, sxx_apply, carried_step _ _ _ n h h0]
        exact congrArg (· + _) (i3 (0 : Fin 1) t u)
      · dsimp only; rw [outB_4, cr_apply, carried_step _ _ _ n h h0]
        exact congrArg (· + _) (i4 (0 : Fin 1) t u)
      · dsimp only; rw [outB_5, mn_apply, carried_step _ _ _ n h h0]
        exact congrArg (min · _) (i5 (0 : Fin 1) t u)
      · dsimp only; rw [outB_6, mx_apply, carried_step _ _ _ n h h0]
        exact congrArg (max · _) (i6 (0 : Fin 1) t u)

/-- And the T-mean map's staging buffer holds the point's block of means. -/
theorem mean_at (c : Dev nD) (n : Fin cfg0.N) (z : Fin 1) (k : Fin 8) (l m : Fin 112) :
    (outsAt0 V c n.val n.isLt).1 (ix4 z k l m) = meanBlk (iblk0 V c 0 n) k l m := by
  by_cases h0 : n.val % 4 = 0
  · rw [outsAt0_A V c n h0]; dsimp only; rw [outA_1, mean_apply]
  · rw [outsAt0_B V c n h0]; dsimp only; rw [outB_1, mean_apply]

/-! ## From the blocks to the arrays -/

theorem N0 : cfg0.N = 32 := N_0

/-- The printed index maps over the grid: point n is batch n / 4, channel tile n % 4; the statistics follow the
    batch only. -/
theorem idx_facts : ∀ n : Fin cfg0.N,
    win0_0.index n (0 : Fin 5) = n.val / 4 ∧ win0_0.index n (1 : Fin 5) = n.val % 4 ∧ win0_0.index n (2 : Fin 5) = 0
    ∧ win0_0.index n (3 : Fin 5) = 0 ∧ win0_0.index n (4 : Fin 5) = 0
    ∧ win0_1.index n (0 : Fin 4) = n.val / 4 ∧ win0_1.index n (1 : Fin 4) = n.val % 4 ∧ win0_1.index n (2 : Fin 4) = 0
    ∧ win0_1.index n (3 : Fin 4) = 0
    ∧ win0_2.index n (0 : Fin 3) = n.val / 4 ∧ win0_2.index n (1 : Fin 3) = 0 ∧ win0_2.index n (2 : Fin 3) = 0
    ∧ win0_3.index n (0 : Fin 3) = n.val / 4 ∧ win0_3.index n (1 : Fin 3) = 0 ∧ win0_3.index n (2 : Fin 3) = 0
    ∧ win0_4.index n (0 : Fin 3) = n.val / 4 ∧ win0_4.index n (1 : Fin 3) = 0 ∧ win0_4.index n (2 : Fin 3) = 0
    ∧ win0_5.index n (0 : Fin 3) = n.val / 4 ∧ win0_5.index n (1 : Fin 3) = 0 ∧ win0_5.index n (2 : Fin 3) = 0
    ∧ win0_6.index n (0 : Fin 3) = n.val / 4 ∧ win0_6.index n (1 : Fin 3) = 0 ∧ win0_6.index n (2 : Fin 3) = 0 :=
  (by decide +kernel : ∀ n : Fin grid0.N, _)

/-- Channel k of tile j. -/
abbrev chan (j : Fin 4) (k : Fin 8) : Fin 32 := ⟨8 * j.val + k.val, by omega⟩

/-- The T-mean map of x. -/
def meanMap (x : S8x32x16x112x112.Idx → EReal) : S8x32x112x112.Idx → EReal := fun i =>
  Ideal.div (∑ t : Fin 16, x (ix5 (i 0) (i 1) t (i 2) (i 3))) (Ideal.ofBits .f32 0x41800000#32)

/-- The block of x at point n = 4·b + j read at (0, k, t, l, m). -/
theorem x_read (c : Dev nD) (n : Fin cfg0.N) (b : Fin 8) (j : Fin 4) (hb : n.val / 4 = b.val) (hj : n.val % 4 = j.val)
    (k : Fin 8) (t : Fin 16) (l m : Fin 112) :
    iblk0 V c 0 n (ix5 (0 : Fin 1) k t l m) = V c main_arg0 (ix5 b (chan j k) t l m) := by
  obtain ⟨a0, a1, a2, a3, a4, -⟩ := idx_facts n
  show V c main_arg0 (((cfg0.win 0).blk n).view.emb (ix5 (0 : Fin 1) k t l m)) = _
  refine congrArg (V c main_arg0) (funext fun a => Fin.ext ?_)
  match a with
  | ⟨0, _⟩ => show win0_0.index n (0 : Fin 5) * 1 + 1 * 0 = b.val; omega
  | ⟨1, _⟩ => show win0_0.index n (1 : Fin 5) * 8 + 1 * k.val = 8 * j.val + k.val; omega
  | ⟨2, _⟩ => show win0_0.index n (2 : Fin 5) * 16 + 1 * t.val = t.val; omega
  | ⟨3, _⟩ => show win0_0.index n (3 : Fin 5) * 112 + 1 * l.val = l.val; omega
  | ⟨4, _⟩ => show win0_0.index n (4 : Fin 5) * 112 + 1 * m.val = m.val; omega

theorem mean_read (c : Dev nD) (n : Fin cfg0.N) (b : Fin 8) (j : Fin 4) (hb : n.val / 4 = b.val) (hj : n.val % 4 = j.val)
    (k : Fin 8) (l m : Fin 112) :
    meanBlk (iblk0 V c 0 n) k l m = meanMap (V c main_arg0) (ix4 b (chan j k) l m) := by
  unfold meanBlk meanMap
  refine congrArg₂ Ideal.div (Finset.sum_congr rfl fun t _ => ?_) rfl
  exact x_read V c n b j hb hj k t l m

/-- Tile j's sum, sum of squares, sum of products with the T-mean, minimum and maximum of batch b, frame t. -/
def tileSum (x : S8x32x16x112x112.Idx → EReal) (b : Fin 8) (t : Fin 16) (j : Fin 4) : EReal :=
  ∑ k : Fin 8, ∑ l : Fin 112, ∑ n : Fin 112, x (ix5 b (chan j k) t l n)
def tileSq (x : S8x32x16x112x112.Idx → EReal) (b : Fin 8) (t : Fin 16) (j : Fin 4) : EReal :=
  ∑ k : Fin 8, ∑ l : Fin 112, ∑ n : Fin 112, x (ix5 b (chan j k) t l n) * x (ix5 b (chan j k) t l n)
def tileCr (x : S8x32x16x112x112.Idx → EReal) (b : Fin 8) (t : Fin 16) (j : Fin 4) : EReal :=
  ∑ k : Fin 8, ∑ l : Fin 112, ∑ n : Fin 112, x (ix5 b (chan j k) t l n) * meanMap x (ix4 b (chan j k) l n)
def tileMin (x : S8x32x16x112x112.Idx → EReal) (b : Fin 8) (t : Fin 16) (j : Fin 4) : EReal :=
  ⨅ k : Fin 8, ⨅ l : Fin 112, ⨅ n : Fin 112, x (ix5 b (chan j k) t l n)
def tileMax (x : S8x32x16x112x112.Idx → EReal) (b : Fin 8) (t : Fin 16) (j : Fin 4) : EReal :=
  ⨆ k : Fin 8, ⨆ l : Fin 112, ⨆ n : Fin 112, x (ix5 b (chan j k) t l n)

section Tiles
variable (c : Dev nD) (n : Fin cfg0.N) (b : Fin 8) (j : Fin 4) (hb : n.val / 4 = b.val) (hj : n.val % 4 = j.val) (t : Fin 16)
include hb hj

theorem sumBlk_eq : sumBlk (iblk0 V c 0 n) t = tileSum (V c main_arg0) b t j :=
  Finset.sum_congr rfl fun k _ => Finset.sum_congr rfl fun l _ => Finset.sum_congr rfl fun m _ =>
    x_read V c n b j hb hj k t l m
theorem sqBlk_eq : sqBlk (iblk0 V c 0 n) t = tileSq (V c main_arg0) b t j :=
  Finset.sum_congr rfl fun k _ => Finset.sum_congr rfl fun l _ => Finset.sum_congr rfl fun m _ => by
    rw [x_read V c n b j hb hj k t l m]
theorem crBlk_eq : crBlk (iblk0 V c 0 n) t = tileCr (V c main_arg0) b t j :=
  Finset.sum_congr rfl fun k _ => Finset.sum_congr rfl fun l _ => Finset.sum_congr rfl fun m _ => by
    rw [x_read V c n b j hb hj k t l m, mean_read V c n b j hb hj k l m]
theorem minBlk_eq : minBlk (iblk0 V c 0 n) t = tileMin (V c main_arg0) b t j :=
  eq_of_forall_le_iff fun z => by
    rw [le_minBlk]; unfold tileMin
    simp only [le_iInf_iff]
    exact forall_congr' fun k => forall_congr' fun l => forall_congr' fun m => by
      rw [x_read V c n b j hb hj k t l m]
theorem maxBlk_eq : maxBlk (iblk0 V c 0 n) t = tileMax (V c main_arg0) b t j :=
  eq_of_forall_ge_iff fun z => by
    rw [maxBlk_le]; unfold tileMax
    simp only [iSup_le_iff]
    exact forall_congr' fun k => forall_congr' fun l => forall_congr' fun m => by
      rw [x_read V c n b j hb hj k t l m]

end Tiles

/-- Four tiles' values folded in order from e. -/
def four (op : EReal → EReal → EReal) (e : EReal) (T : Fin 4 → EReal) : EReal :=
  op (op (op (op e (T 0)) (T 1)) (T 2)) (T 3)

/-! ## The five statistics' arrays -/

/-- The sums as one function of x: the four channel tiles' values folded in order. -/
def sumsOf (x : S8x32x16x112x112.Idx → EReal) : S8x16x1.Idx → EReal := fun i =>
  four (· + ·) 0 (tileSum x (i 0) (i 1))

theorem flushed_at_2 (c : Dev nD) (n : Fin cfg0.N) (h3 : n.val % 4 = 3) (hb : n.val / 4 < 8)
    (z : Fin 1) (t : Fin 16) (u : Fin 1) :
    (outsAt0 V c n.val n.isLt).2.1 (ix3 z t u) = sumsOf (V c main_arg0) (ix3 (⟨n.val / 4, hb⟩ : Fin 8) t u) := by
  have hN : n.val < 32 := lt_of_lt_of_eq n.isLt N0
  rw [(outsAt_eq V c n.val n.isLt).1 z t u]
  have hq : n.val = 4 * (n.val / 4) + 3 := by omega
  have hlt : 4 * (n.val / 4) + 3 < cfg0.N := (by omega : 4 * (n.val / 4) + 3 < 32).trans_eq N0.symm
  refine (carried_congr _ _ _ hq n.isLt hlt).trans ?_
  rw [carried_last]
  show _ = four (· + ·) 0 (tileSum (V c main_arg0) (⟨n.val / 4, hb⟩ : Fin 8) t)
  unfold four
  try dsimp only
  rw [sumBlk_eq V c ⟨4 * (n.val / 4), by omega⟩ ⟨n.val / 4, hb⟩ 0 (by show 4 * (n.val / 4) / 4 = n.val / 4; omega)
      (by show 4 * (n.val / 4) % 4 = 0; omega),
    sumBlk_eq V c ⟨4 * (n.val / 4) + 1, by omega⟩ ⟨n.val / 4, hb⟩ 1 (by show (4 * (n.val / 4) + 1) / 4 = n.val / 4; omega)
      (by show (4 * (n.val / 4) + 1) % 4 = 1; omega),
    sumBlk_eq V c ⟨4 * (n.val / 4) + 2, by omega⟩ ⟨n.val / 4, hb⟩ 2 (by show (4 * (n.val / 4) + 2) / 4 = n.val / 4; omega)
      (by show (4 * (n.val / 4) + 2) % 4 = 2; omega),
    sumBlk_eq V c ⟨4 * (n.val / 4) + 3, hlt⟩ ⟨n.val / 4, hb⟩ 3 (by show (4 * (n.val / 4) + 3) / 4 = n.val / 4; omega)
      (by show (4 * (n.val / 4) + 3) % 4 = 3; omega)]

theorem flushed_eq_2 (c : Dev nD) (n : Fin cfg0.N) (hf : (cfg0.win 2).flush n = true) :
    (dat0 V c).flushed 2 n = ((cfg0.win 2).blk n).view.read (Elt Ideal) (sumsOf (V c main_arg0)) := by
  have h3 : n.val % 4 = 3 := (flush0_2 n).mp hf
  have hN : n.val < 32 := lt_of_lt_of_eq n.isLt N0
  have hb : n.val / 4 < 8 := by omega
  have o := idx_facts n
  have o0 : win0_2.index n (0 : Fin 3) = n.val / 4 := by simp only [o]
  have o1 : win0_2.index n (1 : Fin 3) = 0 := by simp only [o]
  have o2 : win0_2.index n (2 : Fin 3) = 0 := by simp only [o]
  show (cfg0.win 2).cut (grid0.coords n) ((dat0 V c).after 2 n) = _
  rw [after0_2]
  funext j
  have hemb : ((cfg0.win 2).blk n).view.emb j = ix3 (⟨n.val / 4, hb⟩ : Fin 8) (j 1) (j 2) := by
    have hj0 : (j 0).val < 1 := (j 0).isLt
    funext a; apply Fin.ext
    match a with
    | ⟨0, _⟩ => show win0_2.index n (0 : Fin 3) * 1 + 1 * (j 0).val = n.val / 4; omega
    | ⟨1, _⟩ => show win0_2.index n (1 : Fin 3) * 16 + 1 * (j 1).val = (j 1).val; omega
    | ⟨2, _⟩ => show win0_2.index n (2 : Fin 3) * 1 + 1 * (j 2).val = (j 2).val; omega
  exact (congrArg ((outsAt0 V c n.val n.isLt).2.1) (eq_ix3 j)).trans
    ((flushed_at_2 V c n h3 hb (j 0) (j 1) (j 2)).trans (congrArg _ hemb.symm))

theorem mem_blk_2 (n : Fin cfg0.N) (i : S8x16x1.Idx) :
    i ∈ ((cfg0.win 2).blk n).view.set ↔ ∀ a : Fin 3, win0_2.index n a * S1x16x1.size a ≤ (i a).val
      ∧ (i a).val < win0_2.index n a * S1x16x1.size a + S1x16x1.size a := by
  show i ∈ ((View.whole main_v0_1).slice (win0_2.rect n)).set ↔ _
  rw [View.set_slice_whole, Rect.mem_set_unit]
  exact Iff.rfl

/-- The sums' array after the region. -/
theorem final_2 (c : Dev nD) : (dat0 V c).arrAt 2 cfg0.N = sumsOf (V c main_arg0) :=
  (dat0 V c).arrAt_eq_of_cover 2 _ (fun n hf => flushed_eq_2 V c n hf) fun i => by
    have hi0 : (i 0).val < 8 := (i 0).isLt
    have hi1 : (i 1).val < 16 := (i 1).isLt
    have hi2 : (i 2).val < 1 := (i 2).isLt
    have hn : 4 * (i 0).val + 3 < cfg0.N := (by omega : 4 * (i 0).val + 3 < 32).trans_eq N0.symm
    have o := idx_facts ⟨4 * (i 0).val + 3, hn⟩
    have o0 : win0_2.index ⟨4 * (i 0).val + 3, hn⟩ (0 : Fin 3) = (4 * (i 0).val + 3) / 4 := by simp only [o]
    have o1 : win0_2.index ⟨4 * (i 0).val + 3, hn⟩ (1 : Fin 3) = 0 := by simp only [o]
    have o2 : win0_2.index ⟨4 * (i 0).val + 3, hn⟩ (2 : Fin 3) = 0 := by simp only [o]
    refine ⟨⟨4 * (i 0).val + 3, hn⟩, (flush0_2 _).mpr (by show (4 * (i 0).val + 3) % 4 = 3; omega), ?_⟩
    rw [mem_blk_2]
    intro a
    match a with
    | ⟨0, _⟩ =>
      show win0_2.index ⟨4 * (i 0).val + 3, hn⟩ (0 : Fin 3) * 1 ≤ (i 0).val
        ∧ (i 0).val < win0_2.index ⟨4 * (i 0).val + 3, hn⟩ (0 : Fin 3) * 1 + 1
      rw [o0]; omega
    | ⟨1, _⟩ =>
      show win0_2.index ⟨4 * (i 0).val + 3, hn⟩ (1 : Fin 3) * 16 ≤ (i 1).val
        ∧ (i 1).val < win0_2.index ⟨4 * (i 0).val + 3, hn⟩ (1 : Fin 3) * 16 + 16
      rw [o1]; omega
    | ⟨2, _⟩ =>
      show win0_2.index ⟨4 * (i 0).val + 3, hn⟩ (2 : Fin 3) * 1 ≤ (i 2).val
        ∧ (i 2).val < win0_2.index ⟨4 * (i 0).val + 3, hn⟩ (2 : Fin 3) * 1 + 1
      rw [o2]; omega

/-- The squares as one function of x: the four channel tiles' values folded in order. -/
def squaresOf (x : S8x32x16x112x112.Idx → EReal) : S8x16x1.Idx → EReal := fun i =>
  four (· + ·) 0 (tileSq x (i 0) (i 1))

theorem flushed_at_3 (c : Dev nD) (n : Fin cfg0.N) (h3 : n.val % 4 = 3) (hb : n.val / 4 < 8)
    (z : Fin 1) (t : Fin 16) (u : Fin 1) :
    (outsAt0 V c n.val n.isLt).2.2.1 (ix3 z t u) = squaresOf (V c main_arg0) (ix3 (⟨n.val / 4, hb⟩ : Fin 8) t u) := by
  have hN : n.val < 32 := lt_of_lt_of_eq n.isLt N0
  rw [(outsAt_eq V c n.val n.isLt).2.1 z t u]
  have hq : n.val = 4 * (n.val / 4) + 3 := by omega
  have hlt : 4 * (n.val / 4) + 3 < cfg0.N := (by omega : 4 * (n.val / 4) + 3 < 32).trans_eq N0.symm
  refine (carried_congr _ _ _ hq n.isLt hlt).trans ?_
  rw [carried_last]
  show _ = four (· + ·) 0 (tileSq (V c main_arg0) (⟨n.val / 4, hb⟩ : Fin 8) t)
  unfold four
  try dsimp only
  rw [sqBlk_eq V c ⟨4 * (n.val / 4), by omega⟩ ⟨n.val / 4, hb⟩ 0 (by show 4 * (n.val / 4) / 4 = n.val / 4; omega)
      (by show 4 * (n.val / 4) % 4 = 0; omega),
    sqBlk_eq V c ⟨4 * (n.val / 4) + 1, by omega⟩ ⟨n.val / 4, hb⟩ 1 (by show (4 * (n.val / 4) + 1) / 4 = n.val / 4; omega)
      (by show (4 * (n.val / 4) + 1) % 4 = 1; omega),
    sqBlk_eq V c ⟨4 * (n.val / 4) + 2, by omega⟩ ⟨n.val / 4, hb⟩ 2 (by show (4 * (n.val / 4) + 2) / 4 = n.val / 4; omega)
      (by show (4 * (n.val / 4) + 2) % 4 = 2; omega),
    sqBlk_eq V c ⟨4 * (n.val / 4) + 3, hlt⟩ ⟨n.val / 4, hb⟩ 3 (by show (4 * (n.val / 4) + 3) / 4 = n.val / 4; omega)
      (by show (4 * (n.val / 4) + 3) % 4 = 3; omega)]

theorem flushed_eq_3 (c : Dev nD) (n : Fin cfg0.N) (hf : (cfg0.win 3).flush n = true) :
    (dat0 V c).flushed 3 n = ((cfg0.win 3).blk n).view.read (Elt Ideal) (squaresOf (V c main_arg0)) := by
  have h3 : n.val % 4 = 3 := (flush0_3 n).mp hf
  have hN : n.val < 32 := lt_of_lt_of_eq n.isLt N0
  have hb : n.val / 4 < 8 := by omega
  have o := idx_facts n
  have o0 : win0_3.index n (0 : Fin 3) = n.val / 4 := by simp only [o]
  have o1 : win0_3.index n (1 : Fin 3) = 0 := by simp only [o]
  have o2 : win0_3.index n (2 : Fin 3) = 0 := by simp only [o]
  show (cfg0.win 3).cut (grid0.coords n) ((dat0 V c).after 3 n) = _
  rw [after0_3]
  funext j
  have hemb : ((cfg0.win 3).blk n).view.emb j = ix3 (⟨n.val / 4, hb⟩ : Fin 8) (j 1) (j 2) := by
    have hj0 : (j 0).val < 1 := (j 0).isLt
    funext a; apply Fin.ext
    match a with
    | ⟨0, _⟩ => show win0_3.index n (0 : Fin 3) * 1 + 1 * (j 0).val = n.val / 4; omega
    | ⟨1, _⟩ => show win0_3.index n (1 : Fin 3) * 16 + 1 * (j 1).val = (j 1).val; omega
    | ⟨2, _⟩ => show win0_3.index n (2 : Fin 3) * 1 + 1 * (j 2).val = (j 2).val; omega
  exact (congrArg ((outsAt0 V c n.val n.isLt).2.2.1) (eq_ix3 j)).trans
    ((flushed_at_3 V c n h3 hb (j 0) (j 1) (j 2)).trans (congrArg _ hemb.symm))

theorem mem_blk_3 (n : Fin cfg0.N) (i : S8x16x1.Idx) :
    i ∈ ((cfg0.win 3).blk n).view.set ↔ ∀ a : Fin 3, win0_3.index n a * S1x16x1.size a ≤ (i a).val
      ∧ (i a).val < win0_3.index n a * S1x16x1.size a + S1x16x1.size a := by
  show i ∈ ((View.whole main_v0_2).slice (win0_3.rect n)).set ↔ _
  rw [View.set_slice_whole, Rect.mem_set_unit]
  exact Iff.rfl

/-- The squares' array after the region. -/
theorem final_3 (c : Dev nD) : (dat0 V c).arrAt 3 cfg0.N = squaresOf (V c main_arg0) :=
  (dat0 V c).arrAt_eq_of_cover 3 _ (fun n hf => flushed_eq_3 V c n hf) fun i => by
    have hi0 : (i 0).val < 8 := (i 0).isLt
    have hi1 : (i 1).val < 16 := (i 1).isLt
    have hi2 : (i 2).val < 1 := (i 2).isLt
    have hn : 4 * (i 0).val + 3 < cfg0.N := (by omega : 4 * (i 0).val + 3 < 32).trans_eq N0.symm
    have o := idx_facts ⟨4 * (i 0).val + 3, hn⟩
    have o0 : win0_3.index ⟨4 * (i 0).val + 3, hn⟩ (0 : Fin 3) = (4 * (i 0).val + 3) / 4 := by simp only [o]
    have o1 : win0_3.index ⟨4 * (i 0).val + 3, hn⟩ (1 : Fin 3) = 0 := by simp only [o]
    have o2 : win0_3.index ⟨4 * (i 0).val + 3, hn⟩ (2 : Fin 3) = 0 := by simp only [o]
    refine ⟨⟨4 * (i 0).val + 3, hn⟩, (flush0_3 _).mpr (by show (4 * (i 0).val + 3) % 4 = 3; omega), ?_⟩
    rw [mem_blk_3]
    intro a
    match a with
    | ⟨0, _⟩ =>
      show win0_3.index ⟨4 * (i 0).val + 3, hn⟩ (0 : Fin 3) * 1 ≤ (i 0).val
        ∧ (i 0).val < win0_3.index ⟨4 * (i 0).val + 3, hn⟩ (0 : Fin 3) * 1 + 1
      rw [o0]; omega
    | ⟨1, _⟩ =>
      show win0_3.index ⟨4 * (i 0).val + 3, hn⟩ (1 : Fin 3) * 16 ≤ (i 1).val
        ∧ (i 1).val < win0_3.index ⟨4 * (i 0).val + 3, hn⟩ (1 : Fin 3) * 16 + 16
      rw [o1]; omega
    | ⟨2, _⟩ =>
      show win0_3.index ⟨4 * (i 0).val + 3, hn⟩ (2 : Fin 3) * 1 ≤ (i 2).val
        ∧ (i 2).val < win0_3.index ⟨4 * (i 0).val + 3, hn⟩ (2 : Fin 3) * 1 + 1
      rw [o2]; omega

/-- The crosses as one function of x: the four channel tiles' values folded in order. -/
def crossesOf (x : S8x32x16x112x112.Idx → EReal) : S8x16x1.Idx → EReal := fun i =>
  four (· + ·) 0 (tileCr x (i 0) (i 1))

theorem flushed_at_4 (c : Dev nD) (n : Fin cfg0.N) (h3 : n.val % 4 = 3) (hb : n.val / 4 < 8)
    (z : Fin 1) (t : Fin 16) (u : Fin 1) :
    (outsAt0 V c n.val n.isLt).2.2.2.1 (ix3 z t u) = crossesOf (V c main_arg0) (ix3 (⟨n.val / 4, hb⟩ : Fin 8) t u) := by
  have hN : n.val < 32 := lt_of_lt_of_eq n.isLt N0
  rw [(outsAt_eq V c n.val n.isLt).2.2.1 z t u]
  have hq : n.val = 4 * (n.val / 4) + 3 := by omega
  have hlt : 4 * (n.val / 4) + 3 < cfg0.N := (by omega : 4 * (n.val / 4) + 3 < 32).trans_eq N0.symm
  refine (carried_congr _ _ _ hq n.isLt hlt).trans ?_
  rw [carried_last]
  show _ = four (· + ·) 0 (tileCr (V c main_arg0) (⟨n.val / 4, hb⟩ : Fin 8) t)
  unfold four
  try dsimp only
  rw [crBlk_eq V c ⟨4 * (n.val / 4), by omega⟩ ⟨n.val / 4, hb⟩ 0 (by show 4 * (n.val / 4) / 4 = n.val / 4; omega)
      (by show 4 * (n.val / 4) % 4 = 0; omega),
    crBlk_eq V c ⟨4 * (n.val / 4) + 1, by omega⟩ ⟨n.val / 4, hb⟩ 1 (by show (4 * (n.val / 4) + 1) / 4 = n.val / 4; omega)
      (by show (4 * (n.val / 4) + 1) % 4 = 1; omega),
    crBlk_eq V c ⟨4 * (n.val / 4) + 2, by omega⟩ ⟨n.val / 4, hb⟩ 2 (by show (4 * (n.val / 4) + 2) / 4 = n.val / 4; omega)
      (by show (4 * (n.val / 4) + 2) % 4 = 2; omega),
    crBlk_eq V c ⟨4 * (n.val / 4) + 3, hlt⟩ ⟨n.val / 4, hb⟩ 3 (by show (4 * (n.val / 4) + 3) / 4 = n.val / 4; omega)
      (by show (4 * (n.val / 4) + 3) % 4 = 3; omega)]

theorem flushed_eq_4 (c : Dev nD) (n : Fin cfg0.N) (hf : (cfg0.win 4).flush n = true) :
    (dat0 V c).flushed 4 n = ((cfg0.win 4).blk n).view.read (Elt Ideal) (crossesOf (V c main_arg0)) := by
  have h3 : n.val % 4 = 3 := (flush0_4 n).mp hf
  have hN : n.val < 32 := lt_of_lt_of_eq n.isLt N0
  have hb : n.val / 4 < 8 := by omega
  have o := idx_facts n
  have o0 : win0_4.index n (0 : Fin 3) = n.val / 4 := by simp only [o]
  have o1 : win0_4.index n (1 : Fin 3) = 0 := by simp only [o]
  have o2 : win0_4.index n (2 : Fin 3) = 0 := by simp only [o]
  show (cfg0.win 4).cut (grid0.coords n) ((dat0 V c).after 4 n) = _
  rw [after0_4]
  funext j
  have hemb : ((cfg0.win 4).blk n).view.emb j = ix3 (⟨n.val / 4, hb⟩ : Fin 8) (j 1) (j 2) := by
    have hj0 : (j 0).val < 1 := (j 0).isLt
    funext a; apply Fin.ext
    match a with
    | ⟨0, _⟩ => show win0_4.index n (0 : Fin 3) * 1 + 1 * (j 0).val = n.val / 4; omega
    | ⟨1, _⟩ => show win0_4.index n (1 : Fin 3) * 16 + 1 * (j 1).val = (j 1).val; omega
    | ⟨2, _⟩ => show win0_4.index n (2 : Fin 3) * 1 + 1 * (j 2).val = (j 2).val; omega
  exact (congrArg ((outsAt0 V c n.val n.isLt).2.2.2.1) (eq_ix3 j)).trans
    ((flushed_at_4 V c n h3 hb (j 0) (j 1) (j 2)).trans (congrArg _ hemb.symm))

theorem mem_blk_4 (n : Fin cfg0.N) (i : S8x16x1.Idx) :
    i ∈ ((cfg0.win 4).blk n).view.set ↔ ∀ a : Fin 3, win0_4.index n a * S1x16x1.size a ≤ (i a).val
      ∧ (i a).val < win0_4.index n a * S1x16x1.size a + S1x16x1.size a := by
  show i ∈ ((View.whole main_v0_3).slice (win0_4.rect n)).set ↔ _
  rw [View.set_slice_whole, Rect.mem_set_unit]
  exact Iff.rfl

/-- The crosses' array after the region. -/
theorem final_4 (c : Dev nD) : (dat0 V c).arrAt 4 cfg0.N = crossesOf (V c main_arg0) :=
  (dat0 V c).arrAt_eq_of_cover 4 _ (fun n hf => flushed_eq_4 V c n hf) fun i => by
    have hi0 : (i 0).val < 8 := (i 0).isLt
    have hi1 : (i 1).val < 16 := (i 1).isLt
    have hi2 : (i 2).val < 1 := (i 2).isLt
    have hn : 4 * (i 0).val + 3 < cfg0.N := (by omega : 4 * (i 0).val + 3 < 32).trans_eq N0.symm
    have o := idx_facts ⟨4 * (i 0).val + 3, hn⟩
    have o0 : win0_4.index ⟨4 * (i 0).val + 3, hn⟩ (0 : Fin 3) = (4 * (i 0).val + 3) / 4 := by simp only [o]
    have o1 : win0_4.index ⟨4 * (i 0).val + 3, hn⟩ (1 : Fin 3) = 0 := by simp only [o]
    have o2 : win0_4.index ⟨4 * (i 0).val + 3, hn⟩ (2 : Fin 3) = 0 := by simp only [o]
    refine ⟨⟨4 * (i 0).val + 3, hn⟩, (flush0_4 _).mpr (by show (4 * (i 0).val + 3) % 4 = 3; omega), ?_⟩
    rw [mem_blk_4]
    intro a
    match a with
    | ⟨0, _⟩ =>
      show win0_4.index ⟨4 * (i 0).val + 3, hn⟩ (0 : Fin 3) * 1 ≤ (i 0).val
        ∧ (i 0).val < win0_4.index ⟨4 * (i 0).val + 3, hn⟩ (0 : Fin 3) * 1 + 1
      rw [o0]; omega
    | ⟨1, _⟩ =>
      show win0_4.index ⟨4 * (i 0).val + 3, hn⟩ (1 : Fin 3) * 16 ≤ (i 1).val
        ∧ (i 1).val < win0_4.index ⟨4 * (i 0).val + 3, hn⟩ (1 : Fin 3) * 16 + 16
      rw [o1]; omega
    | ⟨2, _⟩ =>
      show win0_4.index ⟨4 * (i 0).val + 3, hn⟩ (2 : Fin 3) * 1 ≤ (i 2).val
        ∧ (i 2).val < win0_4.index ⟨4 * (i 0).val + 3, hn⟩ (2 : Fin 3) * 1 + 1
      rw [o2]; omega

/-- The minima as one function of x: the four channel tiles' values folded in order. -/
def minimaOf (x : S8x32x16x112x112.Idx → EReal) : S8x16x1.Idx → EReal := fun i =>
  four min ⊤ (tileMin x (i 0) (i 1))

theorem flushed_at_5 (c : Dev nD) (n : Fin cfg0.N) (h3 : n.val % 4 = 3) (hb : n.val / 4 < 8)
    (z : Fin 1) (t : Fin 16) (u : Fin 1) :
    (outsAt0 V c n.val n.isLt).2.2.2.2.1 (ix3 z t u) = minimaOf (V c main_arg0) (ix3 (⟨n.val / 4, hb⟩ : Fin 8) t u) := by
  have hN : n.val < 32 := lt_of_lt_of_eq n.isLt N0
  rw [(outsAt_eq V c n.val n.isLt).2.2.2.1 z t u]
  have hq : n.val = 4 * (n.val / 4) + 3 := by omega
  have hlt : 4 * (n.val / 4) + 3 < cfg0.N := (by omega : 4 * (n.val / 4) + 3 < 32).trans_eq N0.symm
  refine (carried_congr _ _ _ hq n.isLt hlt).trans ?_
  rw [carried_last]
  show _ = four min ⊤ (tileMin (V c main_arg0) (⟨n.val / 4, hb⟩ : Fin 8) t)
  unfold four
  try dsimp only
  rw [minBlk_eq V c ⟨4 * (n.val / 4), by omega⟩ ⟨n.val / 4, hb⟩ 0 (by show 4 * (n.val / 4) / 4 = n.val / 4; omega)
      (by show 4 * (n.val / 4) % 4 = 0; omega),
    minBlk_eq V c ⟨4 * (n.val / 4) + 1, by omega⟩ ⟨n.val / 4, hb⟩ 1 (by show (4 * (n.val / 4) + 1) / 4 = n.val / 4; omega)
      (by show (4 * (n.val / 4) + 1) % 4 = 1; omega),
    minBlk_eq V c ⟨4 * (n.val / 4) + 2, by omega⟩ ⟨n.val / 4, hb⟩ 2 (by show (4 * (n.val / 4) + 2) / 4 = n.val / 4; omega)
      (by show (4 * (n.val / 4) + 2) % 4 = 2; omega),
    minBlk_eq V c ⟨4 * (n.val / 4) + 3, hlt⟩ ⟨n.val / 4, hb⟩ 3 (by show (4 * (n.val / 4) + 3) / 4 = n.val / 4; omega)
      (by show (4 * (n.val / 4) + 3) % 4 = 3; omega)]

theorem flushed_eq_5 (c : Dev nD) (n : Fin cfg0.N) (hf : (cfg0.win 5).flush n = true) :
    (dat0 V c).flushed 5 n = ((cfg0.win 5).blk n).view.read (Elt Ideal) (minimaOf (V c main_arg0)) := by
  have h3 : n.val % 4 = 3 := (flush0_5 n).mp hf
  have hN : n.val < 32 := lt_of_lt_of_eq n.isLt N0
  have hb : n.val / 4 < 8 := by omega
  have o := idx_facts n
  have o0 : win0_5.index n (0 : Fin 3) = n.val / 4 := by simp only [o]
  have o1 : win0_5.index n (1 : Fin 3) = 0 := by simp only [o]
  have o2 : win0_5.index n (2 : Fin 3) = 0 := by simp only [o]
  show (cfg0.win 5).cut (grid0.coords n) ((dat0 V c).after 5 n) = _
  rw [after0_5]
  funext j
  have hemb : ((cfg0.win 5).blk n).view.emb j = ix3 (⟨n.val / 4, hb⟩ : Fin 8) (j 1) (j 2) := by
    have hj0 : (j 0).val < 1 := (j 0).isLt
    funext a; apply Fin.ext
    match a with
    | ⟨0, _⟩ => show win0_5.index n (0 : Fin 3) * 1 + 1 * (j 0).val = n.val / 4; omega
    | ⟨1, _⟩ => show win0_5.index n (1 : Fin 3) * 16 + 1 * (j 1).val = (j 1).val; omega
    | ⟨2, _⟩ => show win0_5.index n (2 : Fin 3) * 1 + 1 * (j 2).val = (j 2).val; omega
  exact (congrArg ((outsAt0 V c n.val n.isLt).2.2.2.2.1) (eq_ix3 j)).trans
    ((flushed_at_5 V c n h3 hb (j 0) (j 1) (j 2)).trans (congrArg _ hemb.symm))

theorem mem_blk_5 (n : Fin cfg0.N) (i : S8x16x1.Idx) :
    i ∈ ((cfg0.win 5).blk n).view.set ↔ ∀ a : Fin 3, win0_5.index n a * S1x16x1.size a ≤ (i a).val
      ∧ (i a).val < win0_5.index n a * S1x16x1.size a + S1x16x1.size a := by
  show i ∈ ((View.whole main_v0_4).slice (win0_5.rect n)).set ↔ _
  rw [View.set_slice_whole, Rect.mem_set_unit]
  exact Iff.rfl

/-- The minima' array after the region. -/
theorem final_5 (c : Dev nD) : (dat0 V c).arrAt 5 cfg0.N = minimaOf (V c main_arg0) :=
  (dat0 V c).arrAt_eq_of_cover 5 _ (fun n hf => flushed_eq_5 V c n hf) fun i => by
    have hi0 : (i 0).val < 8 := (i 0).isLt
    have hi1 : (i 1).val < 16 := (i 1).isLt
    have hi2 : (i 2).val < 1 := (i 2).isLt
    have hn : 4 * (i 0).val + 3 < cfg0.N := (by omega : 4 * (i 0).val + 3 < 32).trans_eq N0.symm
    have o := idx_facts ⟨4 * (i 0).val + 3, hn⟩
    have o0 : win0_5.index ⟨4 * (i 0).val + 3, hn⟩ (0 : Fin 3) = (4 * (i 0).val + 3) / 4 := by simp only [o]
    have o1 : win0_5.index ⟨4 * (i 0).val + 3, hn⟩ (1 : Fin 3) = 0 := by simp only [o]
    have o2 : win0_5.index ⟨4 * (i 0).val + 3, hn⟩ (2 : Fin 3) = 0 := by simp only [o]
    refine ⟨⟨4 * (i 0).val + 3, hn⟩, (flush0_5 _).mpr (by show (4 * (i 0).val + 3) % 4 = 3; omega), ?_⟩
    rw [mem_blk_5]
    intro a
    match a with
    | ⟨0, _⟩ =>
      show win0_5.index ⟨4 * (i 0).val + 3, hn⟩ (0 : Fin 3) * 1 ≤ (i 0).val
        ∧ (i 0).val < win0_5.index ⟨4 * (i 0).val + 3, hn⟩ (0 : Fin 3) * 1 + 1
      rw [o0]; omega
    | ⟨1, _⟩ =>
      show win0_5.index ⟨4 * (i 0).val + 3, hn⟩ (1 : Fin 3) * 16 ≤ (i 1).val
        ∧ (i 1).val < win0_5.index ⟨4 * (i 0).val + 3, hn⟩ (1 : Fin 3) * 16 + 16
      rw [o1]; omega
    | ⟨2, _⟩ =>
      show win0_5.index ⟨4 * (i 0).val + 3, hn⟩ (2 : Fin 3) * 1 ≤ (i 2).val
        ∧ (i 2).val < win0_5.index ⟨4 * (i 0).val + 3, hn⟩ (2 : Fin 3) * 1 + 1
      rw [o2]; omega

/-- The maxima as one function of x: the four channel tiles' values folded in order. -/
def maximaOf (x : S8x32x16x112x112.Idx → EReal) : S8x16x1.Idx → EReal := fun i =>
  four max ⊥ (tileMax x (i 0) (i 1))

theorem flushed_at_6 (c : Dev nD) (n : Fin cfg0.N) (h3 : n.val % 4 = 3) (hb : n.val / 4 < 8)
    (z : Fin 1) (t : Fin 16) (u : Fin 1) :
    (outsAt0 V c n.val n.isLt).2.2.2.2.2 (ix3 z t u) = maximaOf (V c main_arg0) (ix3 (⟨n.val / 4, hb⟩ : Fin 8) t u) := by
  have hN : n.val < 32 := lt_of_lt_of_eq n.isLt N0
  rw [(outsAt_eq V c n.val n.isLt).2.2.2.2 z t u]
  have hq : n.val = 4 * (n.val / 4) + 3 := by omega
  have hlt : 4 * (n.val / 4) + 3 < cfg0.N := (by omega : 4 * (n.val / 4) + 3 < 32).trans_eq N0.symm
  refine (carried_congr _ _ _ hq n.isLt hlt).trans ?_
  rw [carried_last]
  show _ = four max ⊥ (tileMax (V c main_arg0) (⟨n.val / 4, hb⟩ : Fin 8) t)
  unfold four
  try dsimp only
  rw [maxBlk_eq V c ⟨4 * (n.val / 4), by omega⟩ ⟨n.val / 4, hb⟩ 0 (by show 4 * (n.val / 4) / 4 = n.val / 4; omega)
      (by show 4 * (n.val / 4) % 4 = 0; omega),
    maxBlk_eq V c ⟨4 * (n.val / 4) + 1, by omega⟩ ⟨n.val / 4, hb⟩ 1 (by show (4 * (n.val / 4) + 1) / 4 = n.val / 4; omega)
      (by show (4 * (n.val / 4) + 1) % 4 = 1; omega),
    maxBlk_eq V c ⟨4 * (n.val / 4) + 2, by omega⟩ ⟨n.val / 4, hb⟩ 2 (by show (4 * (n.val / 4) + 2) / 4 = n.val / 4; omega)
      (by show (4 * (n.val / 4) + 2) % 4 = 2; omega),
    maxBlk_eq V c ⟨4 * (n.val / 4) + 3, hlt⟩ ⟨n.val / 4, hb⟩ 3 (by show (4 * (n.val / 4) + 3) / 4 = n.val / 4; omega)
      (by show (4 * (n.val / 4) + 3) % 4 = 3; omega)]

theorem flushed_eq_6 (c : Dev nD) (n : Fin cfg0.N) (hf : (cfg0.win 6).flush n = true) :
    (dat0 V c).flushed 6 n = ((cfg0.win 6).blk n).view.read (Elt Ideal) (maximaOf (V c main_arg0)) := by
  have h3 : n.val % 4 = 3 := (flush0_6 n).mp hf
  have hN : n.val < 32 := lt_of_lt_of_eq n.isLt N0
  have hb : n.val / 4 < 8 := by omega
  have o := idx_facts n
  have o0 : win0_6.index n (0 : Fin 3) = n.val / 4 := by simp only [o]
  have o1 : win0_6.index n (1 : Fin 3) = 0 := by simp only [o]
  have o2 : win0_6.index n (2 : Fin 3) = 0 := by simp only [o]
  show (cfg0.win 6).cut (grid0.coords n) ((dat0 V c).after 6 n) = _
  rw [after0_6]
  funext j
  have hemb : ((cfg0.win 6).blk n).view.emb j = ix3 (⟨n.val / 4, hb⟩ : Fin 8) (j 1) (j 2) := by
    have hj0 : (j 0).val < 1 := (j 0).isLt
    funext a; apply Fin.ext
    match a with
    | ⟨0, _⟩ => show win0_6.index n (0 : Fin 3) * 1 + 1 * (j 0).val = n.val / 4; omega
    | ⟨1, _⟩ => show win0_6.index n (1 : Fin 3) * 16 + 1 * (j 1).val = (j 1).val; omega
    | ⟨2, _⟩ => show win0_6.index n (2 : Fin 3) * 1 + 1 * (j 2).val = (j 2).val; omega
  exact (congrArg ((outsAt0 V c n.val n.isLt).2.2.2.2.2) (eq_ix3 j)).trans
    ((flushed_at_6 V c n h3 hb (j 0) (j 1) (j 2)).trans (congrArg _ hemb.symm))

theorem mem_blk_6 (n : Fin cfg0.N) (i : S8x16x1.Idx) :
    i ∈ ((cfg0.win 6).blk n).view.set ↔ ∀ a : Fin 3, win0_6.index n a * S1x16x1.size a ≤ (i a).val
      ∧ (i a).val < win0_6.index n a * S1x16x1.size a + S1x16x1.size a := by
  show i ∈ ((View.whole main_v0_5).slice (win0_6.rect n)).set ↔ _
  rw [View.set_slice_whole, Rect.mem_set_unit]
  exact Iff.rfl

/-- The maxima' array after the region. -/
theorem final_6 (c : Dev nD) : (dat0 V c).arrAt 6 cfg0.N = maximaOf (V c main_arg0) :=
  (dat0 V c).arrAt_eq_of_cover 6 _ (fun n hf => flushed_eq_6 V c n hf) fun i => by
    have hi0 : (i 0).val < 8 := (i 0).isLt
    have hi1 : (i 1).val < 16 := (i 1).isLt
    have hi2 : (i 2).val < 1 := (i 2).isLt
    have hn : 4 * (i 0).val + 3 < cfg0.N := (by omega : 4 * (i 0).val + 3 < 32).trans_eq N0.symm
    have o := idx_facts ⟨4 * (i 0).val + 3, hn⟩
    have o0 : win0_6.index ⟨4 * (i 0).val + 3, hn⟩ (0 : Fin 3) = (4 * (i 0).val + 3) / 4 := by simp only [o]
    have o1 : win0_6.index ⟨4 * (i 0).val + 3, hn⟩ (1 : Fin 3) = 0 := by simp only [o]
    have o2 : win0_6.index ⟨4 * (i 0).val + 3, hn⟩ (2 : Fin 3) = 0 := by simp only [o]
    refine ⟨⟨4 * (i 0).val + 3, hn⟩, (flush0_6 _).mpr (by show (4 * (i 0).val + 3) % 4 = 3; omega), ?_⟩
    rw [mem_blk_6]
    intro a
    match a with
    | ⟨0, _⟩ =>
      show win0_6.index ⟨4 * (i 0).val + 3, hn⟩ (0 : Fin 3) * 1 ≤ (i 0).val
        ∧ (i 0).val < win0_6.index ⟨4 * (i 0).val + 3, hn⟩ (0 : Fin 3) * 1 + 1
      rw [o0]; omega
    | ⟨1, _⟩ =>
      show win0_6.index ⟨4 * (i 0).val + 3, hn⟩ (1 : Fin 3) * 16 ≤ (i 1).val
        ∧ (i 1).val < win0_6.index ⟨4 * (i 0).val + 3, hn⟩ (1 : Fin 3) * 16 + 16
      rw [o1]; omega
    | ⟨2, _⟩ =>
      show win0_6.index ⟨4 * (i 0).val + 3, hn⟩ (2 : Fin 3) * 1 ≤ (i 2).val
        ∧ (i 2).val < win0_6.index ⟨4 * (i 0).val + 3, hn⟩ (2 : Fin 3) * 1 + 1
      rw [o2]; omega

/-! ## The T-mean map's array -/

theorem mem_blk_1 (n : Fin cfg0.N) (i : S8x32x112x112.Idx) :
    i ∈ ((cfg0.win 1).blk n).view.set ↔ ∀ a : Fin 4, win0_1.index n a * S1x8x112x112.size a ≤ (i a).val
      ∧ (i a).val < win0_1.index n a * S1x8x112x112.size a + S1x8x112x112.size a := by
  show i ∈ ((View.whole main_v0_0).slice (win0_1.rect n)).set ↔ _
  rw [View.set_slice_whole, Rect.mem_set_unit]
  exact Iff.rfl

/-- What point n writes back of the T-mean map is block n of the T-mean map of x. -/
theorem flushed_eq_1 (c : Dev nD) (n : Fin cfg0.N) :
    (dat0 V c).flushed 1 n = ((cfg0.win 1).blk n).view.read (Elt Ideal) (meanMap (V c main_arg0)) := by
  have hN : n.val < 32 := lt_of_lt_of_eq n.isLt N0
  have hb : n.val / 4 < 8 := by omega
  have hj : n.val % 4 < 4 := by omega
  obtain ⟨-, -, -, -, -, g0, g1, g2, g3, -⟩ := idx_facts n
  show (cfg0.win 1).cut (grid0.coords n) ((dat0 V c).after 1 n) = _
  rw [after0_1]
  funext j
  have hemb : ((cfg0.win 1).blk n).view.emb j
      = ix4 (⟨n.val / 4, hb⟩ : Fin 8) (chan ⟨n.val % 4, hj⟩ (j 1)) (j 2) (j 3) := by
    have hj0 : (j 0).val < 1 := (j 0).isLt
    funext a; apply Fin.ext
    match a with
    | ⟨0, _⟩ => show win0_1.index n (0 : Fin 4) * 1 + 1 * (j 0).val = n.val / 4; omega
    | ⟨1, _⟩ => show win0_1.index n (1 : Fin 4) * 8 + 1 * (j 1).val = 8 * (n.val % 4) + (j 1).val; omega
    | ⟨2, _⟩ => show win0_1.index n (2 : Fin 4) * 112 + 1 * (j 2).val = (j 2).val; omega
    | ⟨3, _⟩ => show win0_1.index n (3 : Fin 4) * 112 + 1 * (j 3).val = (j 3).val; omega
  exact (congrArg ((outsAt0 V c n.val n.isLt).1) (eq_ix4 j)).trans
    ((mean_at V c n (j 0) (j 1) (j 2) (j 3)).trans
      ((mean_read V c n ⟨n.val / 4, hb⟩ ⟨n.val % 4, hj⟩ rfl rfl (j 1) (j 2) (j 3)).trans (congrArg _ hemb.symm)))

/-- The T-mean map's array after the region: the T-mean map of x, whole. -/
theorem final_1 (c : Dev nD) : (dat0 V c).arrAt 1 cfg0.N = meanMap (V c main_arg0) :=
  (dat0 V c).arrAt_eq_of_cover 1 _ (fun n _ => flushed_eq_1 V c n) fun i => by
    have hi0 : (i 0).val < 8 := (i 0).isLt
    have hi1 : (i 1).val < 32 := (i 1).isLt
    have hi2 : (i 2).val < 112 := (i 2).isLt
    have hi3 : (i 3).val < 112 := (i 3).isLt
    have hn : 4 * (i 0).val + (i 1).val / 8 < cfg0.N := (by omega : 4 * (i 0).val + (i 1).val / 8 < 32).trans_eq N0.symm
    obtain ⟨-, -, -, -, -, g0, g1, g2, g3, -⟩ := idx_facts ⟨4 * (i 0).val + (i 1).val / 8, hn⟩
    have g0' : win0_1.index ⟨4 * (i 0).val + (i 1).val / 8, hn⟩ (0 : Fin 4) = (4 * (i 0).val + (i 1).val / 8) / 4 := g0
    have g1' : win0_1.index ⟨4 * (i 0).val + (i 1).val / 8, hn⟩ (1 : Fin 4) = (4 * (i 0).val + (i 1).val / 8) % 4 := g1
    refine ⟨⟨4 * (i 0).val + (i 1).val / 8, hn⟩, flush0_1 _, ?_⟩
    rw [mem_blk_1]
    intro a
    match a with
    | ⟨0, _⟩ =>
      show win0_1.index ⟨4 * (i 0).val + (i 1).val / 8, hn⟩ (0 : Fin 4) * 1 ≤ (i 0).val
        ∧ (i 0).val < win0_1.index ⟨4 * (i 0).val + (i 1).val / 8, hn⟩ (0 : Fin 4) * 1 + 1
      rw [g0']; omega
    | ⟨1, _⟩ =>
      show win0_1.index ⟨4 * (i 0).val + (i 1).val / 8, hn⟩ (1 : Fin 4) * 8 ≤ (i 1).val
        ∧ (i 1).val < win0_1.index ⟨4 * (i 0).val + (i 1).val / 8, hn⟩ (1 : Fin 4) * 8 + 8
      rw [g1']; omega
    | ⟨2, _⟩ =>
      show win0_1.index ⟨4 * (i 0).val + (i 1).val / 8, hn⟩ (2 : Fin 4) * 112 ≤ (i 2).val
        ∧ (i 2).val < win0_1.index ⟨4 * (i 0).val + (i 1).val / 8, hn⟩ (2 : Fin 4) * 112 + 112
      rw [g2]; omega
    | ⟨3, _⟩ =>
      show win0_1.index ⟨4 * (i 0).val + (i 1).val / 8, hn⟩ (3 : Fin 4) * 112 ≤ (i 3).val
        ∧ (i 3).val < win0_1.index ⟨4 * (i 0).val + (i 1).val / 8, hn⟩ (3 : Fin 4) * 112 + 112
      rw [g3]; omega

end Cert.KernelIdeal.Region0

end
-- ==== Proof.HostStats.lean ====
/-
  The host operations between the first and the second region, as functions of the six arrays the first region leaves
  (the T-mean map xm and the [8, 16, 1] sums, sums of squares, cross sums, minima and maxima):
  the correlation score  cc = (cr − n·s_mean·g_mean) / ((n − 1)·s_std·g_std),
  the per-frame scale    1 / ((max − min)·((sx − n·min) / (max − min)))  and shift  min·scale,
  and the normalised T-mean map  gn = xm·g_scale − g_shift, with g_scale, g_shift the same forms over xm's own sum,
  minimum and maximum. n = 401408 = 32·112·112 and n − 1 are exact f32 literals.
-/
import proofs.«174061_j72688026517959_2_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.KernelIdeal.HostStats

open Cert.KernelIdeal Cert.KernelIdeal.Gen
open Idealize.ShloMosaic Idealize.ShloMosaic.TcCoe Idealize.SL.Sem Idealize.ShloMosaic.StableHlo

/-- An [8, 16, 1] statistic viewed [8, 16]. -/
def flat (a : FVec Ideal S8x16x1 .f32) : FVec Ideal S8x16 .f32 := shapeCast S8x16 a shapeCasts_S8x16x1_S8x16

/-- A scalar literal over [8, 16] and over [8]. -/
def lit16 (b : BitVec 32) : FVec Ideal S8x16 .f32 := broadcastInDim S8x16 ![] bcast_S_S8x16 (constant (F := Ideal) S_ .f32 b)
def lit8 (b : BitVec 32) : FVec Ideal S8 .f32 := broadcastInDim S8 ![] bcast_S_S8 (constant (F := Ideal) S_ .f32 b)

/-- A per-batch value repeated over the 16 frames. -/
def overFrames (v : FVec Ideal S8 .f32) : FVec Ideal S8x16 .f32 :=
  broadcastInDim S8x16 ![0, 1] bcast_S8x1_S8x16_0_1 (broadcastInDim S8x1 ![0] bcast_S8_S8x1_0 v)

/-- A per-batch value repeated over a whole map. -/
def overMap (v : FVec Ideal S8 .f32) : FVec Ideal S8x32x112x112 .f32 :=
  broadcastInDim S8x32x112x112 ![0, 1, 2, 3] bcast_S8x1x1x1_S8x32x112x112_0_1_2_3 (broadcastInDim S8x1x1x1 ![0] bcast_S8_S8x1x1x1_0 v)

def mapSum (xm : FVec Ideal S8x32x112x112 .f32) : FVec Ideal S8 .f32 :=
  Host.reduceAdd (F := Ideal) xm (constant (F := Ideal) S_ .f32 0x00000000#32) reducesTo_S8x32x112x112_S8_d1_2_3 h_S_
def mapMin (xm : FVec Ideal S8x32x112x112 .f32) : FVec Ideal S8 .f32 :=
  Host.reduce (FloatOps.minimumf (F := Ideal)) xm (constant (F := Ideal) S_ .f32 0x7F800000#32) reducesTo_S8x32x112x112_S8_d1_2_3 h_S_
def mapMax (xm : FVec Ideal S8x32x112x112 .f32) : FVec Ideal S8 .f32 :=
  Host.reduce (FloatOps.maximumf (F := Ideal)) xm (constant (F := Ideal) S_ .f32 0xFF800000#32) reducesTo_S8x32x112x112_S8_d1_2_3 h_S_

def sMean (sx : FVec Ideal S8x16x1 .f32) : FVec Ideal S8x16 .f32 := Host.divf (F := Ideal) (flat sx) (lit16 0x48C40000#32)
def sStd (sx sxx : FVec Ideal S8x16x1 .f32) : FVec Ideal S8x16 .f32 :=
  Host.sqrt (F := Ideal) (Host.divf (F := Ideal) (subf (flat sxx) (mulf (mulf (lit16 0x48C40000#32) (sMean sx)) (sMean sx)))
    (lit16 0x48C3FFE0#32))
def gMean (xm : FVec Ideal S8x32x112x112 .f32) : FVec Ideal S8 .f32 := Host.divf (F := Ideal) (mapSum xm) (lit8 0x48C40000#32)
def gStd (xm : FVec Ideal S8x32x112x112 .f32) : FVec Ideal S8 .f32 :=
  Host.sqrt (F := Ideal) (Host.divf (F := Ideal) (subf (mapSum (mulf xm xm)) (mulf (mulf (lit8 0x48C40000#32) (gMean xm)) (gMean xm)))
    (lit8 0x48C3FFE0#32))

/-- The correlation scores. -/
def ccHost (xm : FVec Ideal S8x32x112x112 .f32) (sx sxx cr : FVec Ideal S8x16x1 .f32) : FVec Ideal S8x16 .f32 :=
  Host.divf (F := Ideal) (subf (flat cr) (mulf (mulf (lit16 0x48C40000#32) (sMean sx)) (overFrames (gMean xm))))
    (mulf (mulf (lit16 0x48C3FFE0#32) (sStd sx sxx)) (overFrames (gStd xm)))

/-- The per-frame scale 1 / ((max − min)·((sx − n·min) / (max − min))). -/
def scaleHost (sx mn mx : FVec Ideal S8x16x1 .f32) : FVec Ideal S8x16 .f32 :=
  Host.divf (F := Ideal) (lit16 0x3F800000#32)
    (mulf (subf (flat mx) (flat mn))
      (Host.divf (F := Ideal) (subf (flat sx) (mulf (lit16 0x48C40000#32) (flat mn))) (subf (flat mx) (flat mn))))

/-- The same form over the T-mean map's own sum, minimum and maximum. -/
def gScale (xm : FVec Ideal S8x32x112x112 .f32) : FVec Ideal S8 .f32 :=
  Host.divf (F := Ideal) (lit8 0x3F800000#32)
    (mulf (subf (mapMax xm) (mapMin xm))
      (Host.divf (F := Ideal) (subf (mapSum xm) (mulf (lit8 0x48C40000#32) (mapMin xm))) (subf (mapMax xm) (mapMin xm))))

/-- The normalised T-mean map. -/
def gnHost (xm : FVec Ideal S8x32x112x112 .f32) : FVec Ideal S8x32x112x112 .f32 :=
  subf (mulf xm (overMap (gScale xm))) (overMap (mulf (mapMin xm) (gScale xm)))

/-- A per-frame [8, 16] value as the [8, 1, 16] array the second region reads. -/
def asRow (v : FVec Ideal S8x16 .f32) : FVec Ideal S8x1x16 .f32 := shapeCast S8x1x16 v shapeCasts_S8x16_S8x1x16

variable (W : Valuation τ sig (Elt Ideal))

set_option maxHeartbeats 4000000 in
theorem cc_eq : StableHlo.after (hostOps1 (F := Ideal)) W (Proc.devRef .tc main_v40)
    = ccHost (W (Proc.devRef .tc main_v0_0)) (W (Proc.devRef .tc main_v0_1)) (W (Proc.devRef .tc main_v0_2))
        (W (Proc.devRef .tc main_v0_3)) := by
  after_results_simp
  rfl

set_option maxHeartbeats 4000000 in
theorem gn_eq : StableHlo.after (hostOps1 (F := Ideal)) W (Proc.devRef .tc main_v66) = gnHost (W (Proc.devRef .tc main_v0_0)) := by
  after_results_simp
  rfl

set_option maxHeartbeats 4000000 in
theorem scale_eq : StableHlo.after (hostOps1 (F := Ideal)) W (Proc.devRef .tc main_v67)
    = asRow (scaleHost (W (Proc.devRef .tc main_v0_1)) (W (Proc.devRef .tc main_v0_4)) (W (Proc.devRef .tc main_v0_5))) := by
  after_results_simp
  rfl

set_option maxHeartbeats 4000000 in
theorem shift_eq : StableHlo.after (hostOps1 (F := Ideal)) W (Proc.devRef .tc main_v68)
    = asRow (mulf (flat (W (Proc.devRef .tc main_v0_4)))
        (scaleHost (W (Proc.devRef .tc main_v0_1)) (W (Proc.devRef .tc main_v0_4)) (W (Proc.devRef .tc main_v0_5)))) := by
  after_results_simp
  rfl

end Cert.KernelIdeal.HostStats

end
-- ==== Proof.KernelValue.lean ====
/-
  The idealized kernel program's result as a function of its argument: through the last region (x times the weights),
  the host operations before it (the weights from the two scores) and the second region (the similarity sums), down to
  what the first stretch of host operations leaves (the correlation scores, the normalised T-mean map, the per-frame
  scale and shift), each of those read where the run's boundary contents hold it.
-/
import proofs.«174061_j72688026517959_2_alg».proof.Proof.KernelRun
import proofs.«174061_j72688026517959_2_alg».proof.Proof.Region1Value
import proofs.«174061_j72688026517959_2_alg».proof.Proof.Region2Value
import proofs.«174061_j72688026517959_2_alg».proof.Proof.Tail
import proofs.«174061_j72688026517959_2_alg».proof.Proof.Region0Value
import proofs.«174061_j72688026517959_2_alg».proof.Proof.HostStats

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The argument array at every boundary is the launch contents -/

theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

theorem W2_arg0 (c : Dev nD) : W2 m ρ c (Proc.devRef .tc main_arg0) = m ((c : Thread nD τ).loc main_arg0) :=
  (StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans (W1_arg0 m ρ c)

theorem W3_arg0 (c : Dev nD) : W3 m ρ c (Proc.devRef .tc main_arg0) = m ((c : Thread nD τ).loc main_arg0) :=
  ((W3_arr m ρ c 0).trans (((dat1 (V2 m ρ) c).arrAt_in 0 rfl _).trans (A_eq1 (V2 m ρ) c 0))).trans (W2_arg0 m ρ c)

theorem W4_arg0 (c : Dev nD) : W4 m ρ c (Proc.devRef .tc main_arg0) = m ((c : Thread nD τ).loc main_arg0) :=
  (StableHlo.after_of_forall_not_mem (b := Proc.devRef .tc main_arg0) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans (W3_arg0 m ρ c)

/-! ## The result array -/

/-- The correlation scores pass the second region untouched. -/
theorem W3_cc (c : Dev nD) : W3 m ρ c (Proc.devRef .tc main_v40) = W2 m ρ c (Proc.devRef .tc main_v40) :=
  W3_of_ne m ρ c main_v40 (by decide)

/-- The similarity sums' array after the second region. -/
theorem W3_sim (c : Dev nD) : W3 m ρ c (Proc.devRef .tc main_v69)
    = Region1.simSums (m ((c : Thread nD τ).loc main_arg0)) (W2 m ρ c (Proc.devRef .tc main_v66))
        (W2 m ρ c (Proc.devRef .tc main_v67)) (W2 m ρ c (Proc.devRef .tc main_v68)) := by
  refine (W3_arr m ρ c 4).trans ((Region1.final (V2 m ρ) c).trans ?_)
  show Region1.simSums (W2 m ρ c (Proc.devRef .tc main_arg0)) _ _ _ = _
  rw [W2_arg0]

/-- The result array: x times the weights of the two scores. -/
theorem result_eq (c : Dev nD) : W5 m ρ c (Proc.devRef .tc main_v84)
    = Region2.reweighted (m ((c : Thread nD τ).loc main_arg0))
        (Tail.weightsOf (Tail.oneMinusScore (W2 m ρ c (Proc.devRef .tc main_v40))
          (Region1.simSums (m ((c : Thread nD τ).loc main_arg0)) (W2 m ρ c (Proc.devRef .tc main_v66))
            (W2 m ρ c (Proc.devRef .tc main_v67)) (W2 m ρ c (Proc.devRef .tc main_v68))))) := by
  refine (W5_arr m ρ c 2).trans ((Region2.final (V4 m ρ) c).trans ?_)
  show Region2.reweighted (W4 m ρ c (Proc.devRef .tc main_arg0)) (W4 m ρ c (Proc.devRef .tc main_v83)) = _
  rw [W4_arg0, show W4 m ρ c (Proc.devRef .tc main_v83) = _ from Tail.weights_eq (W3 m ρ c), W3_cc, W3_sim]

/-! ## The whole program as one function of x -/

/-- The six arrays the first region leaves, as functions of x. -/
theorem W1_mean (c : Dev nD) : W1 m ρ c (Proc.devRef .tc main_v0_0) = Region0.meanMap (m ((c : Thread nD τ).loc main_arg0)) :=
  (W1_arr m ρ c 1).trans (Region0.final_1 (V0 m ρ) c)
theorem W1_sums (c : Dev nD) : W1 m ρ c (Proc.devRef .tc main_v0_1) = Region0.sumsOf (m ((c : Thread nD τ).loc main_arg0)) :=
  (W1_arr m ρ c 2).trans (Region0.final_2 (V0 m ρ) c)
theorem W1_squares (c : Dev nD) : W1 m ρ c (Proc.devRef .tc main_v0_2) = Region0.squaresOf (m ((c : Thread nD τ).loc main_arg0)) :=
  (W1_arr m ρ c 3).trans (Region0.final_3 (V0 m ρ) c)
theorem W1_crosses (c : Dev nD) : W1 m ρ c (Proc.devRef .tc main_v0_3) = Region0.crossesOf (m ((c : Thread nD τ).loc main_arg0)) :=
  (W1_arr m ρ c 4).trans (Region0.final_4 (V0 m ρ) c)
theorem W1_minima (c : Dev nD) : W1 m ρ c (Proc.devRef .tc main_v0_4) = Region0.minimaOf (m ((c : Thread nD τ).loc main_arg0)) :=
  (W1_arr m ρ c 5).trans (Region0.final_5 (V0 m ρ) c)
theorem W1_maxima (c : Dev nD) : W1 m ρ c (Proc.devRef .tc main_v0_5) = Region0.maximaOf (m ((c : Thread nD τ).loc main_arg0)) :=
  (W1_arr m ρ c 6).trans (Region0.final_6 (V0 m ρ) c)

/-- The correlation scores of x, as the kernel program computes them. -/
def kernelCc (x : S8x32x16x112x112.Idx → EReal) : FVec Ideal S8x16 .f32 :=
  HostStats.ccHost (Region0.meanMap x) (Region0.sumsOf x) (Region0.squaresOf x) (Region0.crossesOf x)

/-- The similarity sums of x, as the kernel program computes them. -/
def kernelSim (x : S8x32x16x112x112.Idx → EReal) : S8x16x1.Idx → EReal :=
  Region1.simSums x (HostStats.gnHost (Region0.meanMap x))
    (HostStats.asRow (HostStats.scaleHost (Region0.sumsOf x) (Region0.minimaOf x) (Region0.maximaOf x)))
    (HostStats.asRow (mulf (HostStats.flat (Region0.minimaOf x))
      (HostStats.scaleHost (Region0.sumsOf x) (Region0.minimaOf x) (Region0.maximaOf x))))

/-- The kernel program's result as one function of x. -/
def kernelOut (x : S8x32x16x112x112.Idx → EReal) : S8x32x16x112x112.Idx → EReal :=
  Region2.reweighted x (Tail.weightsOf (Tail.oneMinusScore (kernelCc x) (kernelSim x)))

theorem kernel_out (c : Dev nD) :
    W5 m ρ c (Proc.devRef .tc main_v84) = kernelOut (m ((c : Thread nD τ).loc main_arg0)) := by
  rw [result_eq]
  have hcc : W2 m ρ c (Proc.devRef .tc main_v40) = kernelCc (m ((c : Thread nD τ).loc main_arg0)) := by
    refine (HostStats.cc_eq (W1 m ρ c)).trans ?_
    rw [W1_mean, W1_sums, W1_squares, W1_crosses]; rfl
  have hgn : W2 m ρ c (Proc.devRef .tc main_v66) = HostStats.gnHost (Region0.meanMap (m ((c : Thread nD τ).loc main_arg0))) := by
    refine (HostStats.gn_eq (W1 m ρ c)).trans ?_
    rw [W1_mean]
  have hsc : W2 m ρ c (Proc.devRef .tc main_v67) = _ := (HostStats.scale_eq (W1 m ρ c)).trans (by
    rw [W1_sums, W1_minima, W1_maxima])
  have hsh : W2 m ρ c (Proc.devRef .tc main_v68) = _ := (HostStats.shift_eq (W1 m ρ c)).trans (by
    rw [W1_sums, W1_minima, W1_maxima])
  rw [hcc, hgn, hsc, hsh]
  rfl

/-- The run, read: the result array at `kernelOut` of the argument, the argument unchanged. -/
theorem run : θ_run defs (onTc (τ := τ) (main (F := Ideal))) ⟨m, fun _ => 0, ρ⟩ (fun r => ∀ c : Dev nD,
      r.2.mem ((c.tc : Thread nD τ).loc main_v84) = kernelOut (m ((c : Thread nD τ).loc main_arg0))
      ∧ r.2.mem ((c.tc : Thread nD τ).loc main_arg0) = m ((c.tc : Thread nD τ).loc main_arg0)) :=
  (θ_run defs _ _).mono (fun _ h c => ⟨(h c).1.trans (kernel_out m ρ c), (h c).2⟩) (run_values m ρ)

end Cert.KernelIdeal.KValue

end
-- ==== Proof.RefRun.lean ====
/-
  The reference program's run. Its @main is printed in two windows of 60 and 58 host operations; each window is the
  straight line of its operations (checked by the kernel's definitional unfolding, one window at a time), so @main is the
  line of all 118, and every weakly fair execution terminates with every buffer at the fold of the operations'
  results over its launch contents (Lib/StableHlo/Run.lean). The argument's buffer is written by no operation, so it
  ends as launched: the reference's frame.
-/
import proofs.«174061_j72688026517959_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's 60 operations, in order. -/
abbrev ops0 : List (HloOp τ sig (Elt F)) :=
  [ nullary main_cst (constant S_ .f32 0x00000000#32),
    binary main_arg0 main_cst main_v0 ((fun x v => Host.reduceAdd x v reducesTo_S8x32x16x112x112_S8x32x112x112_d2 h_S_) : (⟨S8x32x16x112x112, .f32⟩ : BufTy).Contents (Elt F) → (⟨S_, .f32⟩ : BufTy).Contents (Elt F) → (⟨S8x32x112x112, .f32⟩ : BufTy).Contents (Elt F)),
    nullary main_cst_0 (constant S_ .f32 0x41800000#32),
    unary main_cst_0 main_v1 (broadcastInDim S8x32x112x112 ![] bcast_S_S8x32x112x112 : (⟨S_, .f32⟩ : BufTy).Contents (Elt F) → (⟨S8x32x112x112, .f32⟩ : BufTy).Contents (Elt F)),
    binary main_v0 main_v1 main_v2 (Host.divf : (⟨S8x32x112x112, .f32⟩ : BufTy).Contents (Elt F) → (⟨S8x32x112x112, .f32⟩ : BufTy).Contents (Elt F) → (⟨S8x32x112x112, .f32⟩ : BufTy).Contents (Elt F)),
    unary main_arg0 main_v3 ((transpose S8x16x32x112x112 [0, 2, 1, 3, 4] · transposes_S8x32x16x112x112_S8x16x32x112x112_0_2_1_3_4) : (⟨S8x32x16x112x112, .f32⟩ : BufTy).Contents (Elt F) → (⟨S8x16x32x112x112, .f32⟩ : BufTy).Contents (Elt F)),
    nullary main_cst_1 (constant S_ .f32 0x00000000#32),
    binary main_v3 main_cst_1 main_v4 ((fun x v => Host.reduceAdd x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    unary main_v4 main_v5 (broadcastInDim S8x16x1x1x1 ![0, 1] bcast_S8x16_S8x16x1x1x1_0_1 : (⟨S8x16, .f32⟩ : BufTy).Contents (Elt F) → (⟨S8x16x1x1x1, .f32⟩ : BufTy).Contents (Elt F)),
    nullary main_cst_2 (constant S_ .f32 0x48C40000#32),
    unary main_cst_2 main_v6 (broadcastInDim S8x16x1x1x1 ![] bcast_S_S8x16x1x1x1 : (⟨S_, .f32⟩ : BufTy).Contents (Elt F) → (⟨S8x16x1x1x1, .f32⟩ : BufTy).Contents (Elt F)),
    binary main_v5 main_v6 main_v7 (Host.divf : (⟨S8x16x1x1x1, .f32⟩ : BufTy).Contents (Elt F) → (⟨S8x16x1x1x1, .f32⟩ : BufTy).Contents (Elt F) → (⟨S8x16x1x1x1, .f32⟩ : BufTy).Contents (Elt F)),
    unary main_v7 main_v8 (broadcastInDim S8x16x32x112x112 ![0, 1, 2, 3, 4] bcast_S8x16x1x1x1_S8x16x32x112x112_0_1_2_3_4 : (⟨S8x16x1x1x1, .f32⟩ : BufTy).Contents (Elt F) → (⟨S8x16x32x112x112, .f32⟩ : BufTy).Contents (Elt F)),
    binary main_v3 main_v8 main_v9 (subf : (⟨S8x16x32x112x112, .f32⟩ : BufTy).Contents (Elt F) → (⟨S8x16x32x112x112, .f32⟩ : BufTy).Contents (Elt F) → (⟨S8x16x32x112x112, .f32⟩ : BufTy).Contents (Elt F)),
    binary main_v9 main_v9 main_v10 (mulf : (⟨S8x16x32x112x112, .f32⟩ : BufTy).Contents (Elt F) → (⟨S8x16x32x112x112, .f32⟩ : BufTy).Contents (Elt F) → (⟨S8x16x32x112x112, .f32⟩ : BufTy).Contents (Elt F)),
    nullary main_cst_3 (constant S_ .f32 0x00000000#32),
    binary main_v10 main_cst_3 main_v11 ((fun x v => Host.reduceAdd x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    unary main_v11 main_v12 (broadcastInDim S8x16x1x1x1 ![0, 1] bcast_S8x16_S8x16x1x1x1_0_1 : (⟨S8x16, .f32⟩ : BufTy).Contents (Elt F) → (⟨S8x16x1x1x1, .f32⟩ : BufTy).Contents (Elt F)),
    nullary main_cst_4 (constant S_ .f32 0x48C3FFE0#32),
    unary main_cst_4 main_v13 (broadcastInDim S8x16x1x1x1 ![] bcast_S_S8x16x1x1x1 : (⟨S_, .f32⟩ : BufTy).Contents (Elt F) → (⟨S8x16x1x1x1, .f32⟩ : BufTy).Contents (Elt F)),
    binary main_v12 main_v13 main_v14 (Host.divf : (⟨S8x16x1x1x1, .f32⟩ : BufTy).Contents (Elt F) → (⟨S8x16x1x1x1, .f32⟩ : BufTy).Contents (Elt F) → (⟨S8x16x1x1x1, .f32⟩ : BufTy).Contents (Elt F)),
    unary main_v14 main_v15 (Host.sqrt : (⟨S8x16x1x1x1, .f32⟩ : BufTy).Contents (Elt F) → (⟨S8x16x1x1x1, .f32⟩ : BufTy).Contents (Elt F)),
    unary main_v7 main_v16 (broadcastInDim S8x16x32x112x112 ![0, 1, 2, 3, 4] bcast_S8x16x1x1x1_S8x16x32x112x112_0_1_2_3_4 : (⟨S8x16x1x1x1, .f32⟩ : BufTy).Contents (Elt F) → (⟨S8x16x32x112x112, .f32⟩ : BufTy).Contents (Elt F)),
    binary main_v3 main_v16 main_v17 (subf : (⟨S8x16x32x112x112, .f32⟩ : BufTy).Contents (Elt F) → (⟨S8x16x32x112x112, .f32⟩ : BufTy).Contents (Elt F) → (⟨S8x16x32x112x112, .f32⟩ : BufTy).Contents (Elt F)),
    unary main_v15 main_v18 (broadcastInDim S8x16x32x112x112 ![0, 1, 2, 3, 4] bcast_S8x16x1x1x1_S8x16x32x112x112_0_1_2_3_4 : (⟨S8x16x1x1x1, .f32⟩ : BufTy).Contents (Elt F) → (⟨S8x16x32x112x112, .f32⟩ : BufTy).Contents (Elt F)),
    binary main_v17 main_v18 main_v19 (Host.divf : (⟨S8x16x32x112x112, .f32⟩ : BufTy).Contents (Elt F) → (⟨S8x16x32x112x112, .f32⟩ : BufTy).Contents (Elt F) → (⟨S8x16x32x112x112, .f32⟩ : BufTy).Contents (Elt F)),
    nullary main_cst_5 (constant S_ .f32 0x00000000#32),
    binary main_v2 main_cst_5 main_v20 ((fun x v => Host.reduceAdd x v reducesTo_S8x32x112x112_S8_d1_2_3 h_S_) : (⟨S8x32x112x112, .f32⟩ : BufTy).Contents (Elt F) → (⟨S_, .f32⟩ : BufTy).Contents (Elt F) → (⟨S8, .f32⟩ : BufTy).Contents (Elt F)),
    unary main_v20 main_v21 (broadcastInDim S8x1x1x1 ![0] bcast_S8_S8x1x1x1_0 : (⟨S8, .f32⟩ : BufTy).Contents (Elt F) → (⟨S8x1x1x1, .f32⟩ : BufTy).Contents (Elt F)),
    nullary main_cst_6 (constant S_ .f32 0x48C40000#32),
    unary main_cst_6 main_v22 (broadcastInDim S8x1x1x1 ![] bcast_S_S8x1x1x1 : (⟨S_, .f32⟩ : BufTy).Contents (Elt F) → (⟨S8x1x1x1, .f32⟩ : BufTy).Contents (Elt F)),
    binary main_v21 main_v22 main_v23 (Host.divf : (⟨S8x1x1x1, .f32⟩ : BufTy).Contents (Elt F) → (⟨S8x1x1x1, .f32⟩ : BufTy).Contents (Elt F) → (⟨S8x1x1x1, .f32⟩ : BufTy).Contents (Elt F)),
    unary main_v23 main_v24 (broadcastInDim S8x32x112x112 ![0, 1, 2, 3] bcast_S8x1x1x1_S8x32x112x112_0_1_2_3 : (⟨S8x1x1x1, .f32⟩ : BufTy).Contents (Elt F) → (⟨S8x32x112x112, .f32⟩ : BufTy).Contents (Elt F)),
    binary main_v2 main_v24 main_v25 (subf : (⟨S8x32x112x112, .f32⟩ : BufTy).Contents (Elt F) → (⟨S8x32x112x112, .f32⟩ : BufTy).Contents (Elt F) → (⟨S8x32x112x112, .f32⟩ : BufTy).Contents (Elt F)),
    binary main_v25 main_v25 main_v26 (mulf : (⟨S8x32x112x112, .f32⟩ : BufTy).Contents (Elt F) → (⟨S8x32x112x112, .f32⟩ : BufTy).Contents (Elt F) → (⟨S8x32x112x112, .f32⟩ : BufTy).Contents (Elt F)),
    nullary main_cst_7 (constant S_ .f32 0x00000000#32),
    binary main_v26 main_cst_7 main_v27 ((fun x v => Host.reduceAdd x v reducesTo_S8x32x112x112_S8_d1_2_3 h_S_) : (⟨S8x32x112x112, .f32⟩ : BufTy).Contents (Elt F) → (⟨S_, .f32⟩ : BufTy).Contents (Elt F) → (⟨S8, .f32⟩ : BufTy).Contents (Elt F)),
    unary main_v27 main_v28 (broadcastInDim S8x1x1x1 ![0] bcast_S8_S8x1x1x1_0 : (⟨S8, .f32⟩ : BufTy).Contents (Elt F) → (⟨S8x1x1x1, .f32⟩ : BufTy).Contents (Elt F)),
    nullary main_cst_8 (constant S_ .f32 0x48C3FFE0#32),
    unary main_cst_8 main_v29 (broadcastInDim S8x1x1x1 ![] bcast_S_S8x1x1x1 : (⟨S_, .f32⟩ : BufTy).Contents (Elt F) → (⟨S8x1x1x1, .f32⟩ : BufTy).Contents (Elt F)),
    binary main_v28 main_v29 main_v30 (Host.divf : (⟨S8x1x1x1, .f32⟩ : BufTy).Contents (Elt F) → (⟨S8x1x1x1, .f32⟩ : BufTy).Contents (Elt F) → (⟨S8x1x1x1, .f32⟩ : BufTy).Contents (Elt F)),
    unary main_v30 main_v31 (Host.sqrt : (⟨S8x1x1x1, .f32⟩ : BufTy).Contents (Elt F) → (⟨S8x1x1x1, .f32⟩ : BufTy).Contents (Elt F)),
    unary main_v23 main_v32 (broadcastInDim S8x32x112x112 ![0, 1, 2, 3] bcast_S8x1x1x1_S8x32x112x112_0_1_2_3 : (⟨S8x1x1x1, .f32⟩ : BufTy).Contents (Elt F) → (⟨S8x32x112x112, .f32⟩ : BufTy).Contents (Elt F)),
    binary main_v2 main_v32 main_v33 (subf : (⟨S8x32x112x112, .f32⟩ : BufTy).Contents (Elt F) → (⟨S8x32x112x112, .f32⟩ : BufTy).Contents (Elt F) → (⟨S8x32x112x112, .f32⟩ : BufTy).Contents (Elt F)),
    unary main_v31 main_v34 (broadcastInDim S8x32x112x112 ![0, 1, 2, 3] bcast_S8x1x1x1_S8x32x112x112_0_1_2_3 : (⟨S8x1x1x1, .f32⟩ : BufTy).Contents (Elt F) → (⟨S8x32x112x112, .f32⟩ : BufTy).Contents (Elt F)),
    binary main_v33 main_v34 main_v35 (Host.divf : (⟨S8x32x112x112, .f32⟩ : BufTy).Contents (Elt F) → (⟨S8x32x112x112, .f32⟩ : BufTy).Contents (Elt F) → (⟨S8x32x112x112, .f32⟩ : BufTy).Contents (Elt F)),
    binary main_v35 main_v35 main_v36 (mulf : (⟨S8x32x112x112, .f32⟩ : BufTy).Contents (Elt F) → (⟨S8x32x112x112, .f32⟩ : BufTy).Contents (Elt F) → (⟨S8x32x112x112, .f32⟩ : BufTy).Contents (Elt F)),
    nullary main_cst_9 (constant S_ .f32 0x00000000#32),
    binary main_v36 main_cst_9 main_v37 ((fun x v => Host.reduceAdd x v reducesTo_S8x32x112x112_S8_d1_2_3 h_S_) : (⟨S8x32x112x112, .f32⟩ : BufTy).Contents (Elt F) → (⟨S_, .f32⟩ : BufTy).Contents (Elt F) → (⟨S8, .f32⟩ : BufTy).Contents (Elt F)),
    unary main_v35 main_v38 (broadcastInDim S8x1x32x112x112 ![0, 2, 3, 4] bcast_S8x32x112x112_S8x1x32x112x112_0_2_3_4 : (⟨S8x32x112x112, .f32⟩ : BufTy).Contents (Elt F) → (⟨S8x1x32x112x112, .f32⟩ : BufTy).Contents (Elt F)),
    unary main_v38 main_v39 (broadcastInDim S8x16x32x112x112 ![0, 1, 2, 3, 4] bcast_S8x1x32x112x112_S8x16x32x112x112_0_1_2_3_4 : (⟨S8x1x32x112x112, .f32⟩ : BufTy).Contents (Elt F) → (⟨S8x16x32x112x112, .f32⟩ : BufTy).Contents (Elt F)),
    binary main_v19 main_v39 main_v40 (mulf : (⟨S8x16x32x112x112, .f32⟩ : BufTy).Contents (Elt F) → (⟨S8x16x32x112x112, .f32⟩ : BufTy).Contents (Elt F) → (⟨S8x16x32x112x112, .f32⟩ : BufTy).Contents (Elt F)),
    nullary main_cst_10 (constant S_ .f32 0x00000000#32),
    binary main_v40 main_cst_10 main_v41 ((fun x v => Host.reduceAdd x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    binary main_v19 main_v19 main_v42 (mulf : (⟨S8x16x32x112x112, .f32⟩ : BufTy).Contents (Elt F) → (⟨S8x16x32x112x112, .f32⟩ : BufTy).Contents (Elt F) → (⟨S8x16x32x112x112, .f32⟩ : BufTy).Contents (Elt F)),
    nullary main_cst_11 (constant S_ .f32 0x00000000#32),
    binary main_v42 main_cst_11 main_v43 ((fun x v => Host.reduceAdd x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    unary main_v37 main_v44 (broadcastInDim S8x1 ![0] bcast_S8_S8x1_0 : (⟨S8, .f32⟩ : BufTy).Contents (Elt F) → (⟨S8x1, .f32⟩ : BufTy).Contents (Elt F)),
    unary main_v44 main_v45 (broadcastInDim S8x16 ![0, 1] bcast_S8x1_S8x16_0_1 : (⟨S8x1, .f32⟩ : BufTy).Contents (Elt F) → (⟨S8x16, .f32⟩ : BufTy).Contents (Elt F)),
    binary main_v43 main_v45 main_v46 (mulf : (⟨S8x16, .f32⟩ : BufTy).Contents (Elt F) → (⟨S8x16, .f32⟩ : BufTy).Contents (Elt F) → (⟨S8x16, .f32⟩ : BufTy).Contents (Elt F)) ]

/-- The second window's 58 operations, in order. -/
abbrev ops1 : List (HloOp τ sig (Elt F)) :=
  [ unary main_v46 main_v47 (Host.sqrt : (⟨S8x16, .f32⟩ : BufTy).Contents (Elt F) → (⟨S8x16, .f32⟩ : BufTy).Contents (Elt F)),
    binary main_v41 main_v47 main_v48 (Host.divf : (⟨S8x16, .f32⟩ : BufTy).Contents (Elt F) → (⟨S8x16, .f32⟩ : BufTy).Contents (Elt F) → (⟨S8x16, .f32⟩ : BufTy).Contents (Elt F)),
    nullary main_cst_12 (constant S_ .f32 0x7F800000#32),
    binary main_v3 main_cst_12 main_v49 ((fun x v => Host.reduce FloatOps.minimumf x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    unary main_v49 main_v50 (broadcastInDim S8x16x1x1x1 ![0, 1] bcast_S8x16_S8x16x1x1x1_0_1 : (⟨S8x16, .f32⟩ : BufTy).Contents (Elt F) → (⟨S8x16x1x1x1, .f32⟩ : BufTy).Contents (Elt F)),
    nullary main_cst_13 (constant S_ .f32 0xFF800000#32),
    binary main_v3 main_cst_13 main_v51 ((fun x v => Host.reduce FloatOps.maximumf x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    unary main_v51 main_v52 (broadcastInDim S8x16x1x1x1 ![0, 1] bcast_S8x16_S8x16x1x1x1_0_1 : (⟨S8x16, .f32⟩ : BufTy).Contents (Elt F) → (⟨S8x16x1x1x1, .f32⟩ : BufTy).Contents (Elt F)),
    unary main_v50 main_v53 (broadcastInDim S8x16x32x112x112 ![0, 1, 2, 3, 4] bcast_S8x16x1x1x1_S8x16x32x112x112_0_1_2_3_4 : (⟨S8x16x1x1x1, .f32⟩ : BufTy).Contents (Elt F) → (⟨S8x16x32x112x112, .f32⟩ : BufTy).Contents (Elt F)),
    binary main_v3 main_v53 main_v54 (subf : (⟨S8x16x32x112x112, .f32⟩ : BufTy).Contents (Elt F) → (⟨S8x16x32x112x112, .f32⟩ : BufTy).Contents (Elt F) → (⟨S8x16x32x112x112, .f32⟩ : BufTy).Contents (Elt F)),
    binary main_v52 main_v50 main_v55 (subf : (⟨S8x16x1x1x1, .f32⟩ : BufTy).Contents (Elt F) → (⟨S8x16x1x1x1, .f32⟩ : BufTy).Contents (Elt F) → (⟨S8x16x1x1x1, .f32⟩ : BufTy).Contents (Elt F)),
    unary main_v55 main_v56 (broadcastInDim S8x16x32x112x112 ![0, 1, 2, 3, 4] bcast_S8x16x1x1x1_S8x16x32x112x112_0_1_2_3_4 : (⟨S8x16x1x1x1, .f32⟩ : BufTy).Contents (Elt F) → (⟨S8x16x32x112x112, .f32⟩ : BufTy).Contents (Elt F)),
    binary main_v54 main_v56 main_v57 (Host.divf : (⟨S8x16x32x112x112, .f32⟩ : BufTy).Contents (Elt F) → (⟨S8x16x32x112x112, .f32⟩ : BufTy).Contents (Elt F) → (⟨S8x16x32x112x112, .f32⟩ : BufTy).Contents (Elt F)),
    nullary main_cst_14 (constant S_ .f32 0x00000000#32),
    binary main_v57 main_cst_14 main_v58 ((fun x v => Host.reduceAdd x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    unary main_v58 main_v59 (broadcastInDim S8x16x1x1x1 ![0, 1] bcast_S8x16_S8x16x1x1x1_0_1 : (⟨S8x16, .f32⟩ : BufTy).Contents (Elt F) → (⟨S8x16x1x1x1, .f32⟩ : BufTy).Contents (Elt F)),
    unary main_v59 main_v60 (broadcastInDim S8x16x32x112x112 ![0, 1, 2, 3, 4] bcast_S8x16x1x1x1_S8x16x32x112x112_0_1_2_3_4 : (⟨S8x16x1x1x1, .f32⟩ : BufTy).Contents (Elt F) → (⟨S8x16x32x112x112, .f32⟩ : BufTy).Contents (Elt F)),
    binary main_v57 main_v60 main_v61 (Host.divf : (⟨S8x16x32x112x112, .f32⟩ : BufTy).Contents (Elt F) → (⟨S8x16x32x112x112, .f32⟩ : BufTy).Contents (Elt F) → (⟨S8x16x32x112x112, .f32⟩ : BufTy).Contents (Elt F)),
    nullary main_cst_15 (constant S_ .f32 0x7F800000#32),
    binary main_v2 main_cst_15 main_v62 ((fun x v => Host.reduce FloatOps.minimumf x v reducesTo_S8x32x112x112_S8_d1_2_3 h_S_) : (⟨S8x32x112x112, .f32⟩ : BufTy).Contents (Elt F) → (⟨S_, .f32⟩ : BufTy).Contents (Elt F) → (⟨S8, .f32⟩ : BufTy).Contents (Elt F)),
    unary main_v62 main_v63 (broadcastInDim S8x1x1x1 ![0] bcast_S8_S8x1x1x1_0 : (⟨S8, .f32⟩ : BufTy).Contents (Elt F) → (⟨S8x1x1x1, .f32⟩ : BufTy).Contents (Elt F)),
    nullary main_cst_16 (constant S_ .f32 0xFF800000#32),
    binary main_v2 main_cst_16 main_v64 ((fun x v => Host.reduce FloatOps.maximumf x v reducesTo_S8x32x112x112_S8_d1_2_3 h_S_) : (⟨S8x32x112x112, .f32⟩ : BufTy).Contents (Elt F) → (⟨S_, .f32⟩ : BufTy).Contents (Elt F) → (⟨S8, .f32⟩ : BufTy).Contents (Elt F)),
    unary main_v64 main_v65 (broadcastInDim S8x1x1x1 ![0] bcast_S8_S8x1x1x1_0 : (⟨S8, .f32⟩ : BufTy).Contents (Elt F) → (⟨S8x1x1x1, .f32⟩ : BufTy).Contents (Elt F)),
    unary main_v63 main_v66 (broadcastInDim S8x32x112x112 ![0, 1, 2, 3] bcast_S8x1x1x1_S8x32x112x112_0_1_2_3 : (⟨S8x1x1x1, .f32⟩ : BufTy).Contents (Elt F) → (⟨S8x32x112x112, .f32⟩ : BufTy).Contents (Elt F)),
    binary main_v2 main_v66 main_v67 (subf : (⟨S8x32x112x112, .f32⟩ : BufTy).Contents (Elt F) → (⟨S8x32x112x112, .f32⟩ : BufTy).Contents (Elt F) → (⟨S8x32x112x112, .f32⟩ : BufTy).Contents (Elt F)),
    binary main_v65 main_v63 main_v68 (subf : (⟨S8x1x1x1, .f32⟩ : BufTy).Contents (Elt F) → (⟨S8x1x1x1, .f32⟩ : BufTy).Contents (Elt F) → (⟨S8x1x1x1, .f32⟩ : BufTy).Contents (Elt F)),
    unary main_v68 main_v69 (broadcastInDim S8x32x112x112 ![0, 1, 2, 3] bcast_S8x1x1x1_S8x32x112x112_0_1_2_3 : (⟨S8x1x1x1, .f32⟩ : BufTy).Contents (Elt F) → (⟨S8x32x112x112, .f32⟩ : BufTy).Contents (Elt F)),
    binary main_v67 main_v69 main_v70 (Host.divf : (⟨S8x32x112x112, .f32⟩ : BufTy).Contents (Elt F) → (⟨S8x32x112x112, .f32⟩ : BufTy).Contents (Elt F) → (⟨S8x32x112x112, .f32⟩ : BufTy).Contents (Elt F)),
    nullary main_cst_17 (constant S_ .f32 0x00000000#32),
    binary main_v70 main_cst_17 main_v71 ((fun x v => Host.reduceAdd x v reducesTo_S8x32x112x112_S8_d1_2_3 h_S_) : (⟨S8x32x112x112, .f32⟩ : BufTy).Contents (Elt F) → (⟨S_, .f32⟩ : BufTy).Contents (Elt F) → (⟨S8, .f32⟩ : BufTy).Contents (Elt F)),
    unary main_v71 main_v72 (broadcastInDim S8x1x1x1 ![0] bcast_S8_S8x1x1x1_0 : (⟨S8, .f32⟩ : BufTy).Contents (Elt F) → (⟨S8x1x1x1, .f32⟩ : BufTy).Contents (Elt F)),
    unary main_v72 main_v73 (broadcastInDim S8x32x112x112 ![0, 1, 2, 3] bcast_S8x1x1x1_S8x32x112x112_0_1_2_3 : (⟨S8x1x1x1, .f32⟩ : BufTy).Contents (Elt F) → (⟨S8x32x112x112, .f32⟩ : BufTy).Contents (Elt F)),
    binary main_v70 main_v73 main_v74 (Host.divf : (⟨S8x32x112x112, .f32⟩ : BufTy).Contents (Elt F) → (⟨S8x32x112x112, .f32⟩ : BufTy).Contents (Elt F) → (⟨S8x32x112x112, .f32⟩ : BufTy).Contents (Elt F)),
    unary main_v74 main_v75 (broadcastInDim S8x1x32x112x112 ![0, 2, 3, 4] bcast_S8x32x112x112_S8x1x32x112x112_0_2_3_4 : (⟨S8x32x112x112, .f32⟩ : BufTy).Contents (Elt F) → (⟨S8x1x32x112x112, .f32⟩ : BufTy).Contents (Elt F)),
    unary main_v75 main_v76 (broadcastInDim S8x16x32x112x112 ![0, 1, 2, 3, 4] bcast_S8x1x32x112x112_S8x16x32x112x112_0_1_2_3_4 : (⟨S8x1x32x112x112, .f32⟩ : BufTy).Contents (Elt F) → (⟨S8x16x32x112x112, .f32⟩ : BufTy).Contents (Elt F)),
    binary main_v61 main_v76 main_v77 (minimumf : (⟨S8x16x32x112x112, .f32⟩ : BufTy).Contents (Elt F) → (⟨S8x16x32x112x112, .f32⟩ : BufTy).Contents (Elt F) → (⟨S8x16x32x112x112, .f32⟩ : BufTy).Contents (Elt F)),
    nullary main_cst_18 (constant S_ .f32 0x00000000#32),
    binary main_v77 main_cst_18 main_v78 ((fun x v => Host.reduceAdd x v reducesTo_S8x16x32x112x112_S8x16_d2_3_4 h_S_) : (⟨S8x16x32x112x112, .f32⟩ : BufTy).Contents (Elt F) → (⟨S_, .f32⟩ : BufTy).Contents (Elt F) → (⟨S8x16, .f32⟩ : BufTy).Contents (Elt F)),
    nullary main_cst_19 (constant S_ .f32 0x3E99999A#32),
    unary main_cst_19 main_v79 (broadcastInDim S8x16 ![] bcast_S_S8x16 : (⟨S_, .f32⟩ : BufTy).Contents (Elt F) → (⟨S8x16, .f32⟩ : BufTy).Contents (Elt F)),
    binary main_v79 main_v48 main_v80 (mulf : (⟨S8x16, .f32⟩ : BufTy).Contents (Elt F) → (⟨S8x16, .f32⟩ : BufTy).Contents (Elt F) → (⟨S8x16, .f32⟩ : BufTy).Contents (Elt F)),
    nullary main_cst_20 (constant S_ .f32 0x3F333333#32),
    unary main_cst_20 main_v81 (broadcastInDim S8x16 ![] bcast_S_S8x16 : (⟨S_, .f32⟩ : BufTy).Contents (Elt F) → (⟨S8x16, .f32⟩ : BufTy).Contents (Elt F)),
    binary main_v81 main_v78 main_v82 (mulf : (⟨S8x16, .f32⟩ : BufTy).Contents (Elt F) → (⟨S8x16, .f32⟩ : BufTy).Contents (Elt F) → (⟨S8x16, .f32⟩ : BufTy).Contents (Elt F)),
    binary main_v80 main_v82 main_v83 (addf : (⟨S8x16, .f32⟩ : BufTy).Contents (Elt F) → (⟨S8x16, .f32⟩ : BufTy).Contents (Elt F) → (⟨S8x16, .f32⟩ : BufTy).Contents (Elt F)),
    nullary main_cst_21 (constant S_ .f32 0x3F800000#32),
    unary main_cst_21 main_v84 (broadcastInDim S8x16 ![] bcast_S_S8x16 : (⟨S_, .f32⟩ : BufTy).Contents (Elt F) → (⟨S8x16, .f32⟩ : BufTy).Contents (Elt F)),
    binary main_v84 main_v83 main_v85 (subf : (⟨S8x16, .f32⟩ : BufTy).Contents (Elt F) → (⟨S8x16, .f32⟩ : BufTy).Contents (Elt F) → (⟨S8x16, .f32⟩ : BufTy).Contents (Elt F)),
    nullary main_cst_22 (constant S_ .f32 0xFF800000#32),
    binary main_v85 main_cst_22 main_v86 ((fun x v => Host.reduce FloatOps.maximumf x v reducesTo_S8x16_S8_d1 h_S_) : (⟨S8x16, .f32⟩ : BufTy).Contents (Elt F) → (⟨S_, .f32⟩ : BufTy).Contents (Elt F) → (⟨S8, .f32⟩ : BufTy).Contents (Elt F)),
    unary main_v86 main_v87 (broadcastInDim S8x1 ![0] bcast_S8_S8x1_0 : (⟨S8, .f32⟩ : BufTy).Contents (Elt F) → (⟨S8x1, .f32⟩ : BufTy).Contents (Elt F)),
    unary main_v87 main_v88 (broadcastInDim S8x16 ![0, 1] bcast_S8x1_S8x16_0_1 : (⟨S8x1, .f32⟩ : BufTy).Contents (Elt F) → (⟨S8x16, .f32⟩ : BufTy).Contents (Elt F)),
    binary main_v85 main_v88 main_v89 (Host.divf : (⟨S8x16, .f32⟩ : BufTy).Contents (Elt F) → (⟨S8x16, .f32⟩ : BufTy).Contents (Elt F) → (⟨S8x16, .f32⟩ : BufTy).Contents (Elt F)),
    unary main_v89 main_v90 (Host.exp : (⟨S8x16, .f32⟩ : BufTy).Contents (Elt F) → (⟨S8x16, .f32⟩ : BufTy).Contents (Elt F)),
    unary main_v90 main_v91 (broadcastInDim S8x1x16x1x1 ![0, 2] bcast_S8x16_S8x1x16x1x1_0_2 : (⟨S8x16, .f32⟩ : BufTy).Contents (Elt F) → (⟨S8x1x16x1x1, .f32⟩ : BufTy).Contents (Elt F)),
    unary main_v91 main_v92 (broadcastInDim S8x32x16x112x112 ![0, 1, 2, 3, 4] bcast_S8x1x16x1x1_S8x32x16x112x112_0_1_2_3_4 : (⟨S8x1x16x1x1, .f32⟩ : BufTy).Contents (Elt F) → (⟨S8x32x16x112x112, .f32⟩ : BufTy).Contents (Elt F)),
    binary main_arg0 main_v92 main_v93 (mulf : (⟨S8x32x16x112x112, .f32⟩ : BufTy).Contents (Elt F) → (⟨S8x32x16x112x112, .f32⟩ : BufTy).Contents (Elt F) → (⟨S8x32x16x112x112, .f32⟩ : BufTy).Contents (Elt F)) ]

set_option maxRecDepth 8192 in
theorem part0_eq (c : Dev nD) : main_part0 (F := F) c = seq ops0 := by chain_rfl

set_option maxRecDepth 8192 in
theorem part1_eq (c : Dev nD) : main_part1 (F := F) c = seq ops1 := by chain_rfl

theorem main_eq (c : Dev nD) : main (F := F) c = seq (ops0 ++ ops1) := by
  show (main_part0 (F := F) c >>= fun _ => main_part1 (F := F) c) = _
  rw [part0_eq, part1_eq, seq_append]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., binary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., binary_bufs_sub .., binary_bufs_sub .., nullary_bufs_sub .., binary_bufs_sub .., unary_bufs_sub .., unary_bufs_sub .., binary_bufs_sub ..⟩

set_option maxRecDepth 8192 in
theorem ops1_sub : (ops1 : List (HloOp τ sig (Elt F))).Forall fun op => op.bufs ⊆ tcRefs τ sig :=
  ⟨unary_bufs_sub .., binary_bufs_sub .., nullary_bufs_sub .., binary_bufs_sub .., unary_bufs_sub .., nullary_bufs_sub .., binary_bufs_sub .., unary_bufs_sub .., unary_bufs_sub .., binary_bufs_sub .., binary_bufs_sub .., unary_bufs_sub .., binary_bufs_sub .., nullary_bufs_sub .., binary_bufs_sub .., unary_bufs_sub .., unary_bufs_sub .., binary_bufs_sub .., nullary_bufs_sub .., binary_bufs_sub .., unary_bufs_sub .., nullary_bufs_sub .., binary_bufs_sub .., unary_bufs_sub .., unary_bufs_sub .., binary_bufs_sub .., binary_bufs_sub .., unary_bufs_sub .., binary_bufs_sub .., nullary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., binary_bufs_sub .., unary_bufs_sub .., unary_bufs_sub .., binary_bufs_sub .., unary_bufs_sub .., unary_bufs_sub .., unary_bufs_sub .., binary_bufs_sub ..⟩

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor

/-- Every weakly fair execution of @main terminates with every TensorCore buffer at the fold of the 118 operations'
    results over its launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b)
          = after (ops0 (F := F) ++ ops1) (launchContents m c) (Proc.devRef .tc b) :=
  run_seq scopedRefs_eq scopedSems_eq defs main (fun _ => ops0 ++ ops1) main_eq
    (fun _ => List.forall_iff_forall_mem.mpr fun op hop => by
      rcases List.mem_append.mp hop with h | h
      · exact List.forall_iff_forall_mem.mp ops0_sub op h
      · exact List.forall_iff_forall_mem.mp ops1_sub op h) m ρ
    (fun _ op hop => by
      rcases List.mem_append.mp hop with h | h
      · exact List.forall_iff_forall_mem.mp ops0_fresh op h
      · exact List.forall_iff_forall_mem.mp ops1_fresh op h)

/-- Two lines run one after the other fold their results one after the other. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- No operation writes the argument's buffer. -/
theorem arg0_kept (V : Valuation τ sig (Elt F)) :
    after (ops0 (F := F) ++ ops1) V (Proc.devRef .tc main_arg0) = V (Proc.devRef .tc main_arg0) := by
  rw [after_append']
  refine (after_of_forall_not_mem (b := Proc.devRef .tc main_arg0) _ _ (List.forall_iff_forall_mem.mp (by
    simp only [ops1, List.Forall, nullary_writes, unary_writes, binary_writes, reshape_writes, Finset.mem_singleton]
    repeat' apply And.intro
    all_goals exact devRef_ne_of_ne (by decide)))).trans ?_
  exact after_of_forall_not_mem (b := Proc.devRef .tc main_arg0) _ _ (List.forall_iff_forall_mem.mp (by
    simp only [ops0, List.Forall, nullary_writes, unary_writes, binary_writes, reshape_writes, Finset.mem_singleton]
    repeat' apply And.intro
    all_goals exact devRef_ne_of_ne (by decide)))

/-- The reference's frame: it runs, and the argument array ends as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => (h c main_arg0).trans (arg0_kept _)) (run_raw m ρ)

end Cert.ReferenceIdeal.RefRun

end
-- ==== Proof.RefValue.lean ====
/-
  The reference program's result as one function of x, in the reference's own spelling: the frame maps (x with the
  frame axis moved out), their mean, centred map, unbiased deviation and standardised map a; the same for the T-mean
  map (b); the correlation Σ a·b / √(Σ a² · Σ b²); the min-max normalised maps scaled to unit sum and the similarity
  Σ min(sn, gn); s = 1 − (0.3·cc + 0.7·sim); w = exp(s / max over the frames of s); x·w.
-/
import proofs.«174061_j72688026517959_2_alg».proof.Proof.RefRun
import Idealize.ShloMosaic.PureOps.Ideal
import Idealize.ShloMosaic.Lib.ValueIdx

set_option maxRecDepth 16384

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

abbrev c0 : FVec Ideal S_ .f32 := constant (F := Ideal) S_ .f32 0x00000000#32

def frames (x : FVec Ideal S8x32x16x112x112 .f32) : FVec Ideal S8x16x32x112x112 .f32 :=
  transpose S8x16x32x112x112 [0, 2, 1, 3, 4] x transposes_S8x32x16x112x112_S8x16x32x112x112_0_2_1_3_4
def meanMap (x : FVec Ideal S8x32x16x112x112 .f32) : FVec Ideal S8x32x112x112 .f32 :=
  Host.divf (F := Ideal) (Host.reduceAdd (F := Ideal) x c0 reducesTo_S8x32x16x112x112_S8x32x112x112_d2 h_S_)
    (broadcastInDim S8x32x112x112 ![] bcast_S_S8x32x112x112 (constant (F := Ideal) S_ .f32 0x41800000#32))

def sum5 (v : FVec Ideal S8x16x32x112x112 .f32) : FVec Ideal S8x16 .f32 :=
  Host.reduceAdd (F := Ideal) v c0 reducesTo_S8x16x32x112x112_S8x16_d2_3_4 h_S_
def min5 (v : FVec Ideal S8x16x32x112x112 .f32) : FVec Ideal S8x16 .f32 :=
  Host.reduce (FloatOps.minimumf (F := Ideal)) v (constant (F := Ideal) S_ .f32 0x7F800000#32) reducesTo_S8x16x32x112x112_S8x16_d2_3_4 h_S_
def max5 (v : FVec Ideal S8x16x32x112x112 .f32) : FVec Ideal S8x16 .f32 :=
  Host.reduce (FloatOps.maximumf (F := Ideal)) v (constant (F := Ideal) S_ .f32 0xFF800000#32) reducesTo_S8x16x32x112x112_S8x16_d2_3_4 h_S_
def k5 (v : FVec Ideal S8x16 .f32) : FVec Ideal S8x16x1x1x1 .f32 := broadcastInDim S8x16x1x1x1 ![0, 1] bcast_S8x16_S8x16x1x1x1_0_1 v
def up5 (v : FVec Ideal S8x16x1x1x1 .f32) : FVec Ideal S8x16x32x112x112 .f32 :=
  broadcastInDim S8x16x32x112x112 ![0, 1, 2, 3, 4] bcast_S8x16x1x1x1_S8x16x32x112x112_0_1_2_3_4 v
def lit5 (b : BitVec 32) : FVec Ideal S8x16x1x1x1 .f32 := broadcastInDim S8x16x1x1x1 ![] bcast_S_S8x16x1x1x1 (constant (F := Ideal) S_ .f32 b)

def sum4 (v : FVec Ideal S8x32x112x112 .f32) : FVec Ideal S8 .f32 :=
  Host.reduceAdd (F := Ideal) v c0 reducesTo_S8x32x112x112_S8_d1_2_3 h_S_
def min4 (v : FVec Ideal S8x32x112x112 .f32) : FVec Ideal S8 .f32 :=
  Host.reduce (FloatOps.minimumf (F := Ideal)) v (constant (F := Ideal) S_ .f32 0x7F800000#32) reducesTo_S8x32x112x112_S8_d1_2_3 h_S_
def max4 (v : FVec Ideal S8x32x112x112 .f32) : FVec Ideal S8 .f32 :=
  Host.reduce (FloatOps.maximumf (F := Ideal)) v (constant (F := Ideal) S_ .f32 0xFF800000#32) reducesTo_S8x32x112x112_S8_d1_2_3 h_S_
def k4 (v : FVec Ideal S8 .f32) : FVec Ideal S8x1x1x1 .f32 := broadcastInDim S8x1x1x1 ![0] bcast_S8_S8x1x1x1_0 v
def up4 (v : FVec Ideal S8x1x1x1 .f32) : FVec Ideal S8x32x112x112 .f32 :=
  broadcastInDim S8x32x112x112 ![0, 1, 2, 3] bcast_S8x1x1x1_S8x32x112x112_0_1_2_3 v
def lit4 (b : BitVec 32) : FVec Ideal S8x1x1x1 .f32 := broadcastInDim S8x1x1x1 ![] bcast_S_S8x1x1x1 (constant (F := Ideal) S_ .f32 b)

/-- A per-batch map repeated over the 16 frames. -/
def overT (v : FVec Ideal S8x32x112x112 .f32) : FVec Ideal S8x16x32x112x112 .f32 :=
  broadcastInDim S8x16x32x112x112 ![0, 1, 2, 3, 4] bcast_S8x1x32x112x112_S8x16x32x112x112_0_1_2_3_4
    (broadcastInDim S8x1x32x112x112 ![0, 2, 3, 4] bcast_S8x32x112x112_S8x1x32x112x112_0_2_3_4 v)
/-- A per-batch value repeated over the 16 frames. -/
def overF (v : FVec Ideal S8 .f32) : FVec Ideal S8x16 .f32 :=
  broadcastInDim S8x16 ![0, 1] bcast_S8x1_S8x16_0_1 (broadcastInDim S8x1 ![0] bcast_S8_S8x1_0 v)
def lit16 (b : BitVec 32) : FVec Ideal S8x16 .f32 := broadcastInDim S8x16 ![] bcast_S_S8x16 (constant (F := Ideal) S_ .f32 b)

/-! ### The correlation -/
def sMean (x : FVec Ideal S8x32x16x112x112 .f32) : FVec Ideal S8x16x1x1x1 .f32 :=
  Host.divf (F := Ideal) (k5 (sum5 (frames x))) (lit5 0x48C40000#32)
def cen (x : FVec Ideal S8x32x16x112x112 .f32) : FVec Ideal S8x16x32x112x112 .f32 := subf (frames x) (up5 (sMean x))
def sStd (x : FVec Ideal S8x32x16x112x112 .f32) : FVec Ideal S8x16x1x1x1 .f32 :=
  Host.sqrt (F := Ideal) (Host.divf (F := Ideal) (k5 (sum5 (mulf (cen x) (cen x)))) (lit5 0x48C3FFE0#32))
def aMap (x : FVec Ideal S8x32x16x112x112 .f32) : FVec Ideal S8x16x32x112x112 .f32 :=
  Host.divf (F := Ideal) (cen x) (up5 (sStd x))
def gMean (x : FVec Ideal S8x32x16x112x112 .f32) : FVec Ideal S8x1x1x1 .f32 :=
  Host.divf (F := Ideal) (k4 (sum4 (meanMap x))) (lit4 0x48C40000#32)
def gcen (x : FVec Ideal S8x32x16x112x112 .f32) : FVec Ideal S8x32x112x112 .f32 := subf (meanMap x) (up4 (gMean x))
def gStd (x : FVec Ideal S8x32x16x112x112 .f32) : FVec Ideal S8x1x1x1 .f32 :=
  Host.sqrt (F := Ideal) (Host.divf (F := Ideal) (k4 (sum4 (mulf (gcen x) (gcen x)))) (lit4 0x48C3FFE0#32))
def bMap (x : FVec Ideal S8x32x16x112x112 .f32) : FVec Ideal S8x32x112x112 .f32 :=
  Host.divf (F := Ideal) (gcen x) (up4 (gStd x))
def bb (x : FVec Ideal S8x32x16x112x112 .f32) : FVec Ideal S8 .f32 := sum4 (mulf (bMap x) (bMap x))
def ab (x : FVec Ideal S8x32x16x112x112 .f32) : FVec Ideal S8x16 .f32 := sum5 (mulf (aMap x) (overT (bMap x)))
def aa (x : FVec Ideal S8x32x16x112x112 .f32) : FVec Ideal S8x16 .f32 := sum5 (mulf (aMap x) (aMap x))
def aabb (x : FVec Ideal S8x32x16x112x112 .f32) : FVec Ideal S8x16 .f32 := mulf (aa x) (overF (bb x))
def ccR (x : FVec Ideal S8x32x16x112x112 .f32) : FVec Ideal S8x16 .f32 :=
  Host.divf (F := Ideal) (ab x) (Host.sqrt (F := Ideal) (aabb x))

/-! ### The similarity -/
def sMin (x : FVec Ideal S8x32x16x112x112 .f32) : FVec Ideal S8x16x1x1x1 .f32 := k5 (min5 (frames x))
def sMax (x : FVec Ideal S8x32x16x112x112 .f32) : FVec Ideal S8x16x1x1x1 .f32 := k5 (max5 (frames x))
def uMap (x : FVec Ideal S8x32x16x112x112 .f32) : FVec Ideal S8x16x32x112x112 .f32 :=
  Host.divf (F := Ideal) (subf (frames x) (up5 (sMin x))) (up5 (subf (sMax x) (sMin x)))
def snMap (x : FVec Ideal S8x32x16x112x112 .f32) : FVec Ideal S8x16x32x112x112 .f32 :=
  Host.divf (F := Ideal) (uMap x) (up5 (k5 (sum5 (uMap x))))
def gMin (x : FVec Ideal S8x32x16x112x112 .f32) : FVec Ideal S8x1x1x1 .f32 := k4 (min4 (meanMap x))
def gMax (x : FVec Ideal S8x32x16x112x112 .f32) : FVec Ideal S8x1x1x1 .f32 := k4 (max4 (meanMap x))
def guMap (x : FVec Ideal S8x32x16x112x112 .f32) : FVec Ideal S8x32x112x112 .f32 :=
  Host.divf (F := Ideal) (subf (meanMap x) (up4 (gMin x))) (up4 (subf (gMax x) (gMin x)))
def gnMap (x : FVec Ideal S8x32x16x112x112 .f32) : FVec Ideal S8x32x112x112 .f32 :=
  Host.divf (F := Ideal) (guMap x) (up4 (k4 (sum4 (guMap x))))
def simR (x : FVec Ideal S8x32x16x112x112 .f32) : FVec Ideal S8x16 .f32 :=
  sum5 (minimumf (snMap x) (overT (gnMap x)))

/-! ### The weights and the result -/
def oneMinusScore (cc sim : FVec Ideal S8x16 .f32) : FVec Ideal S8x16 .f32 :=
  subf (lit16 0x3F800000#32) (addf (mulf (lit16 0x3E99999A#32) cc) (mulf (lit16 0x3F333333#32) sim))
def expOverMax (s : FVec Ideal S8x16 .f32) : FVec Ideal S8x16 .f32 :=
  Host.exp (F := Ideal) (Host.divf (F := Ideal) s
    (overF (Host.reduce (FloatOps.maximumf (F := Ideal)) s (constant (F := Ideal) S_ .f32 0xFF800000#32) reducesTo_S8x16_S8_d1 h_S_)))
def overAll (w : FVec Ideal S8x16 .f32) : FVec Ideal S8x32x16x112x112 .f32 :=
  broadcastInDim S8x32x16x112x112 ![0, 1, 2, 3, 4] bcast_S8x1x16x1x1_S8x32x16x112x112_0_1_2_3_4
    (broadcastInDim S8x1x16x1x1 ![0, 2] bcast_S8x16_S8x1x16x1x1_0_2 w)
def refOut (x : FVec Ideal S8x32x16x112x112 .f32) : FVec Ideal S8x32x16x112x112 .f32 :=
  mulf x (overAll (expOverMax (oneMinusScore (ccR x) (simR x))))

/-! ### The run's result buffer holds it -/

variable (V : Valuation τ sig (Elt Ideal))

set_option maxHeartbeats 4000000 in
theorem w0_frames : after (ops0 (F := Ideal)) V (Proc.devRef .tc main_v3) = frames (V (Proc.devRef .tc main_arg0)) := by
  after_results_simp
  rfl
set_option maxHeartbeats 4000000 in
theorem w0_mean : after (ops0 (F := Ideal)) V (Proc.devRef .tc main_v2) = meanMap (V (Proc.devRef .tc main_arg0)) := by
  after_results_simp
  rfl
set_option maxHeartbeats 4000000 in
theorem w0_ab : after (ops0 (F := Ideal)) V (Proc.devRef .tc main_v41) = ab (V (Proc.devRef .tc main_arg0)) := by
  after_results_simp
  rfl
set_option maxHeartbeats 4000000 in
theorem w0_aabb : after (ops0 (F := Ideal)) V (Proc.devRef .tc main_v46) = aabb (V (Proc.devRef .tc main_arg0)) := by
  after_results_simp
  rfl
set_option maxHeartbeats 4000000 in
theorem w0_arg0 : after (ops0 (F := Ideal)) V (Proc.devRef .tc main_arg0) = V (Proc.devRef .tc main_arg0) := by
  after_results_simp

set_option maxHeartbeats 8000000 in
/-- The result buffer after all 118 operations. -/
theorem out_eq : after (ops0 (F := Ideal) ++ ops1) V (Proc.devRef .tc main_v93) = refOut (V (Proc.devRef .tc main_arg0)) := by
  rw [after_append']
  have e3 := w0_frames V
  have e2 := w0_mean V
  have e41 := w0_ab V
  have e46 := w0_aabb V
  have e0 := w0_arg0 V
  generalize after (ops0 (F := Ideal)) V = W at e3 e2 e41 e46 e0 ⊢
  after_results_simp
  rw [e3, e2, e41, e46, e0]
  rfl

end Cert.ReferenceIdeal.RefValue

end
-- ==== Proof.TailBridge.lean ====
/-
  From the scores to the results: both programs turn the two [8, 16] scores into s = 1 − (0.3·cc + 0.7·sim),
  w = exp(s / max over the frames of s) and x·w; the kernel carries sim as [8, 16, 1] and w as [8, 1, 16], the
  reference broadcasts w over channels, rows and columns. So the results agree as soon as the scores do.
-/
import proofs.«174061_j72688026517959_2_alg».proof.Proof.KernelValue
import proofs.«174061_j72688026517959_2_alg».proof.Proof.RefValue
import Idealize.ShloMosaic.Lib.Pipeline.Value
import Idealize.ShloMosaic.Lib.ValueIdx

set_option maxRecDepth 16384

noncomputable section

namespace Cert.TailBridge

open Idealize.ShloMosaic Idealize.ShloMosaic.ValueIdx
open Cert.KernelIdeal (S8x32x16x112x112 S8x16 S8x16x1 S8x1x16)

/-- The weights [8, 16] viewed [8, 1, 16], at (b, 0, t). -/
theorem row_apply {α : Type} (v : S8x16.Idx → α) (h : S8x16.ShapeCasts S8x1x16) (b : Fin 8) (z : Fin 1) (t : Fin 16) :
    shapeCast S8x1x16 v h (ix3 b z t) = v (ix2 b t) :=
  shapeCast_apply v h _ _ (by
    have hz : z.val = 0 := by omega
    rw [Shape.rowMajor_val_two, Shape.rowMajor_val_three]
    show b.val * 16 + t.val = (b.val * 1 + z.val) * 16 + t.val
    rw [hz]; omega)

/-- The similarity sums [8, 16, 1] viewed [8, 16], at (b, t). -/
theorem flat_apply {α : Type} (v : S8x16x1.Idx → α) (h : S8x16x1.ShapeCasts S8x16) (b : Fin 8) (t : Fin 16) :
    shapeCast S8x16 v h (ix2 b t) = v (ix3 b t (0 : Fin 1)) :=
  shapeCast_apply v h _ _ (by
    rw [Shape.rowMajor_val_two, Shape.rowMajor_val_three]
    show (b.val * 16 + t.val) * 1 + 0 = b.val * 16 + t.val
    omega)

/-- The reference's weights [8, 16] broadcast over channels, rows and columns, at any index. -/
theorem overAll_apply (w : FVec Ideal Cert.ReferenceIdeal.S8x16 .f32) (b : Fin 8) (c : Fin 32) (t : Fin 16) (h v : Fin 112) :
    Cert.ReferenceIdeal.RefValue.overAll w (ix5 b c t h v) = w (ix2 b t) := by
  unfold Cert.ReferenceIdeal.RefValue.overAll
  refine (broadcastInDim_apply _ _ _ (ix5 b c t h v) (ix5 b (0 : Fin 1) t (0 : Fin 1) (0 : Fin 1)) fun a => ?_).trans ?_
  · match a with
    | ⟨0, _⟩ => show b.val = if (8 : Nat) = 1 then 0 else b.val; rw [if_neg (by decide)]
    | ⟨1, _⟩ => show 0 = if (1 : Nat) = 1 then 0 else c.val; rw [if_pos rfl]
    | ⟨2, _⟩ => show t.val = if (16 : Nat) = 1 then 0 else t.val; rw [if_neg (by decide)]
    | ⟨3, _⟩ => show 0 = if (1 : Nat) = 1 then 0 else h.val; rw [if_pos rfl]
    | ⟨4, _⟩ => show 0 = if (1 : Nat) = 1 then 0 else v.val; rw [if_pos rfl]
  refine broadcastInDim_apply _ _ _ (ix5 b (0 : Fin 1) t (0 : Fin 1) (0 : Fin 1)) (ix2 b t) fun a => ?_
  match a with
  | ⟨0, _⟩ => show b.val = if (8 : Nat) = 1 then 0 else b.val; rw [if_neg (by decide)]
  | ⟨1, _⟩ => show t.val = if (16 : Nat) = 1 then 0 else t.val; rw [if_neg (by decide)]

/-- The two programs' `1 − (0.3·cc + 0.7·sim)` agree when the scores do. -/
theorem score_eq (ccK : FVec Ideal S8x16 .f32) (simK : FVec Ideal S8x16x1 .f32)
    (ccR simR : FVec Ideal Cert.ReferenceIdeal.S8x16 .f32)
    (hcc : ∀ (b : Fin 8) (t : Fin 16), ccK (ix2 b t) = ccR (ix2 b t))
    (hsim : ∀ (b : Fin 8) (t : Fin 16), simK (ix3 b t (0 : Fin 1)) = simR (ix2 b t)) :
    Cert.KernelIdeal.Tail.oneMinusScore ccK simK = Cert.ReferenceIdeal.RefValue.oneMinusScore ccR simR := by
  funext j
  obtain ⟨b, t, rfl⟩ : ∃ (b : Fin 8) (t : Fin 16), j = ix2 b t := ⟨j 0, j 1, eq_ix2 j⟩
  unfold Cert.KernelIdeal.Tail.oneMinusScore Cert.ReferenceIdeal.RefValue.oneMinusScore Cert.ReferenceIdeal.RefValue.lit16
  simp only [subf_apply, addf_apply, mulf_apply]
  rw [flat_apply, hcc, hsim]

/-- The two programs' results agree when the scores do. -/
theorem out_eq (X : S8x32x16x112x112.Idx → EReal)
    (hcc : ∀ (b : Fin 8) (t : Fin 16), Cert.KernelIdeal.KValue.kernelCc X (ix2 b t) = Cert.ReferenceIdeal.RefValue.ccR X (ix2 b t))
    (hsim : ∀ (b : Fin 8) (t : Fin 16),
      Cert.KernelIdeal.KValue.kernelSim X (ix3 b t (0 : Fin 1)) = Cert.ReferenceIdeal.RefValue.simR X (ix2 b t)) :
    Cert.KernelIdeal.KValue.kernelOut X = Cert.ReferenceIdeal.RefValue.refOut X := by
  funext i
  obtain ⟨b, c, t, h, v, rfl⟩ : ∃ (b : Fin 8) (c : Fin 32) (t : Fin 16) (h v : Fin 112), i = ix5 b c t h v :=
    ⟨i 0, i 1, i 2, i 3, i 4, eq_ix5 i⟩
  unfold Cert.KernelIdeal.KValue.kernelOut Cert.ReferenceIdeal.RefValue.refOut
  rw [score_eq _ _ _ _ hcc hsim]
  show X (ix5 b c t h v) * Cert.KernelIdeal.Tail.weightsOf _ (ix3 b (0 : Fin 1) t) = X (ix5 b c t h v) * _
  rw [overAll_apply]
  unfold Cert.KernelIdeal.Tail.weightsOf
  rw [row_apply]
  rfl

end Cert.TailBridge

end
-- ==== Proof.ScoreDefs.lean ====
/-
  The two scores of one (batch, frame) pair as functions of two families over the map's pixels — the frame map's
  entries xs and the T-mean map's entries gs — on the extended reals, in the two spellings the programs use:
  the kernel's (from raw moments, one scale and one shift) and the reference's (from centred, standardised and
  doubly normalised entries). n = 401408 = 32·112·112 and n − 1 enter as their f32 patterns.
-/
import Idealize.ShloMosaic.PureOps.Ideal
import Idealize.ShloMosaic.Lib.ValueIdx

noncomputable section

namespace Saliency

open Idealize.ShloMosaic Idealize.ShloMosaic.ValueIdx

/-- A map's pixels: channel, row, column. -/
abbrev Pix := Fin 32 × Fin 112 × Fin 112

/-- n, n − 1, 16 and 1 as the programs' f32 literals. -/
def nLit : EReal := Ideal.ofBits .f32 0x48C40000#32
def n1Lit : EReal := Ideal.ofBits .f32 0x48C3FFE0#32
def sixteenLit : EReal := Ideal.ofBits .f32 0x41800000#32
def oneLit : EReal := Ideal.ofBits .f32 0x3F800000#32

/-- The frame map (b, t) of x and the T-mean map b of x, as families over the pixels. -/
def frameOf (X : (⟨5, ![8, 32, 16, 112, 112]⟩ : Shape).Idx → EReal) (b : Fin 8) (t : Fin 16) : Pix → EReal :=
  fun p => X (ix5 b p.1 t p.2.1 p.2.2)
def meanOf (X : (⟨5, ![8, 32, 16, 112, 112]⟩ : Shape).Idx → EReal) (b : Fin 8) : Pix → EReal :=
  fun p => Ideal.div (∑ t : Fin 16, X (ix5 b p.1 t p.2.1 p.2.2)) sixteenLit

/-- The kernel's correlation: (Σ x·g − n·m·mg) / ((n − 1)·s·sg) with the deviations from the raw moments. -/
def ccKer (xs gs : Pix → EReal) : EReal :=
  Ideal.div ((∑ p, xs p * gs p) - (nLit * Ideal.div (∑ p, xs p) nLit) * Ideal.div (∑ p, gs p) nLit)
    ((n1Lit * Ideal.sqrt (Ideal.div ((∑ p, xs p * xs p)
          - (nLit * Ideal.div (∑ p, xs p) nLit) * Ideal.div (∑ p, xs p) nLit) n1Lit))
      * Ideal.sqrt (Ideal.div ((∑ p, gs p * gs p)
          - (nLit * Ideal.div (∑ p, gs p) nLit) * Ideal.div (∑ p, gs p) nLit) n1Lit))

/-- The reference's standardised family: (x − mean) / unbiased deviation. -/
def standardised (xs : Pix → EReal) : Pix → EReal := fun p =>
  Ideal.div (xs p - Ideal.div (∑ q, xs q) nLit)
    (Ideal.sqrt (Ideal.div (∑ q, (xs q - Ideal.div (∑ r, xs r) nLit) * (xs q - Ideal.div (∑ r, xs r) nLit)) n1Lit))

/-- The reference's correlation: Σ a·b / √(Σ a² · Σ b²). -/
def ccRef (xs gs : Pix → EReal) : EReal :=
  Ideal.div (∑ p, standardised xs p * standardised gs p)
    (Ideal.sqrt ((∑ p, standardised xs p * standardised xs p) * (∑ p, standardised gs p * standardised gs p)))

/-- The kernel's scale 1 / ((max − min)·((Σ x − n·min) / (max − min))) of a family. -/
def scaleKer (xs : Pix → EReal) : EReal :=
  Ideal.div oneLit (((⨆ p, xs p) - (⨅ p, xs p))
    * Ideal.div ((∑ p, xs p) - nLit * (⨅ p, xs p)) ((⨆ p, xs p) - (⨅ p, xs p)))

/-- The kernel's similarity: Σ min(x·scale − min·scale, g·gscale − gmin·gscale). -/
def simKer (xs gs : Pix → EReal) : EReal :=
  ∑ p, min (xs p * scaleKer xs - (⨅ q, xs q) * scaleKer xs) (gs p * scaleKer gs - (⨅ q, gs q) * scaleKer gs)

/-- The reference's min-max normalised family (x − min) / (max − min). -/
def minmax (xs : Pix → EReal) : Pix → EReal := fun p =>
  Ideal.div (xs p - (⨅ q, xs q)) ((⨆ q, xs q) - (⨅ q, xs q))

/-- The reference's similarity: Σ min(u / Σ u, gu / Σ gu). -/
def simRef (xs gs : Pix → EReal) : EReal :=
  ∑ p, min (Ideal.div (minmax xs p) (∑ q, minmax xs q)) (Ideal.div (minmax gs p) (∑ q, minmax gs q))

end Saliency

end
-- ==== Proof.SaliencyAlgebra.lean ====
/-
  Real algebra behind the two saliency scores, for a finite family of real numbers (one map's entries).

  * The correlation score. With m = (∑ x)/N and N the number of entries, the sum of squared deviations
    ∑ (x - m)² is ∑ x² - N·m·m, and the sum of products of deviations ∑ (x - m)(g - mg) is ∑ x·g - N·m·mg.
    A map standardised with the unbiased deviation s = √(∑ (x - m)² / (N - 1)) has ∑ ((x - m)/s)² = N - 1,
    so the correlation's denominator √(∑ a² · ∑ b²) is N - 1 and the quotient collapses to
    (∑ x·g - N·m·mg) / ((N - 1)·s·sg).
  * The similarity score. With lo ≤ x ≤ hi, lo < hi, the min-max normalised map u = (x - lo)/(hi - lo)
    sums to (∑ x - N·lo)/(hi - lo) > 0, and u / ∑ u = x·c - lo·c with c = 1/((hi - lo)·∑ u).

  Every division here is by a quantity shown to be non-zero under the stated hypotheses (the map is not
  constant), and every square root is of a positive number.
-/
import Mathlib

namespace SaliencyAlgebra

open Finset

variable {ι : Type*} [Fintype ι]

/-- Sum of squared deviations from the mean, expanded. -/
theorem sum_sq_dev (x : ι → ℝ) (N : ℝ) (hN : (Fintype.card ι : ℝ) = N) (hN0 : N ≠ 0) :
    ∑ i, (x i - (∑ j, x j) / N) * (x i - (∑ j, x j) / N)
      = (∑ i, x i * x i) - N * ((∑ j, x j) / N) * ((∑ j, x j) / N) := by
  have h1 : ∀ i, (x i - (∑ j, x j) / N) * (x i - (∑ j, x j) / N)
      = x i * x i - 2 * ((∑ j, x j) / N) * x i + ((∑ j, x j) / N) * ((∑ j, x j) / N) := fun i => by ring
  simp only [h1, sum_add_distrib, sum_sub_distrib, ← mul_sum, sum_const, card_univ, nsmul_eq_mul, hN]
  field_simp
  ring

/-- Sum of products of deviations from the two means, expanded. -/
theorem sum_cross_dev (x g : ι → ℝ) (N : ℝ) (hN : (Fintype.card ι : ℝ) = N) (hN0 : N ≠ 0) :
    ∑ i, (x i - (∑ j, x j) / N) * (g i - (∑ j, g j) / N)
      = (∑ i, x i * g i) - N * ((∑ j, x j) / N) * ((∑ j, g j) / N) := by
  have h1 : ∀ i, (x i - (∑ j, x j) / N) * (g i - (∑ j, g j) / N)
      = x i * g i - ((∑ j, g j) / N) * x i - ((∑ j, x j) / N) * g i
        + ((∑ j, x j) / N) * ((∑ j, g j) / N) := fun i => by ring
  simp only [h1, sum_add_distrib, sum_sub_distrib, ← mul_sum, sum_const, card_univ, nsmul_eq_mul, hN]
  field_simp
  ring

/-- A map that is not constant has a positive sum of squared deviations from any centre. -/
theorem sum_sq_dev_pos (x : ι → ℝ) (m : ℝ) (hne : ∃ i j, x i ≠ x j) :
    0 < ∑ i, (x i - m) * (x i - m) := by
  obtain ⟨i, j, hij⟩ := hne
  have hk : ∃ k, x k ≠ m := by
    by_contra hcon
    have h' : ∀ k, x k = m := fun k => by_contra fun h => hcon ⟨k, h⟩
    exact hij ((h' i).trans (h' j).symm)
  obtain ⟨k, hk⟩ := hk
  refine sum_pos' (fun i _ => mul_self_nonneg _) ⟨k, mem_univ k, ?_⟩
  exact mul_self_pos.mpr (sub_ne_zero.mpr hk)

/-- The unbiased deviation of a map that is not constant is positive. -/
theorem std_pos (x : ι → ℝ) (N m : ℝ) (hN1 : 1 < N) (hne : ∃ i j, x i ≠ x j) :
    0 < Real.sqrt ((∑ i, (x i - m) * (x i - m)) / (N - 1)) :=
  Real.sqrt_pos.mpr (div_pos (sum_sq_dev_pos x m hne) (by linarith))

/-- The deviation computed from the raw moments is the deviation computed from the centred entries. -/
theorem std_moments (x : ι → ℝ) (N : ℝ) (hN : (Fintype.card ι : ℝ) = N) (hN0 : N ≠ 0) :
    Real.sqrt (((∑ i, x i * x i) - N * ((∑ j, x j) / N) * ((∑ j, x j) / N)) / (N - 1))
      = Real.sqrt ((∑ i, (x i - (∑ j, x j) / N) * (x i - (∑ j, x j) / N)) / (N - 1)) := by
  rw [sum_sq_dev x N hN hN0]

/-- A standardised map has sum of squares N - 1. -/
theorem sum_standardised_sq (x : ι → ℝ) (N m : ℝ) (hN1 : 1 < N) (hne : ∃ i j, x i ≠ x j) :
    ∑ i, ((x i - m) / Real.sqrt ((∑ k, (x k - m) * (x k - m)) / (N - 1)))
        * ((x i - m) / Real.sqrt ((∑ k, (x k - m) * (x k - m)) / (N - 1))) = N - 1 := by
  have hD := sum_sq_dev_pos x m hne
  have hN' : 0 < N - 1 := by linarith
  have hq : 0 < (∑ k, (x k - m) * (x k - m)) / (N - 1) := div_pos hD hN'
  have hs := Real.sqrt_pos.mpr hq
  have hss : Real.sqrt ((∑ k, (x k - m) * (x k - m)) / (N - 1))
      * Real.sqrt ((∑ k, (x k - m) * (x k - m)) / (N - 1)) = (∑ k, (x k - m) * (x k - m)) / (N - 1) :=
    Real.mul_self_sqrt hq.le
  have h1 : ∀ i, ((x i - m) / Real.sqrt ((∑ k, (x k - m) * (x k - m)) / (N - 1)))
        * ((x i - m) / Real.sqrt ((∑ k, (x k - m) * (x k - m)) / (N - 1)))
      = ((x i - m) * (x i - m)) * ((∑ k, (x k - m) * (x k - m)) / (N - 1))⁻¹ := fun i => by
    rw [div_mul_div_comm, hss, div_eq_mul_inv]
  simp only [h1, ← sum_mul]
  generalize (∑ k, (x k - m) * (x k - m)) = D at hD ⊢
  have hD0 : D ≠ 0 := hD.ne'
  field_simp

/-- The correlation of two standardised maps, collapsed to the covariance formula over the raw moments. -/
theorem cc_collapse (x g : ι → ℝ) (N : ℝ) (hN : (Fintype.card ι : ℝ) = N) (hN1 : 1 < N)
    (hx : ∃ i j, x i ≠ x j) (hg : ∃ i j, g i ≠ g j) (m mg s sg : ℝ)
    (hm : m = (∑ j, x j) / N) (hmg : mg = (∑ j, g j) / N)
    (hs : s = Real.sqrt ((∑ i, (x i - m) * (x i - m)) / (N - 1)))
    (hsg : sg = Real.sqrt ((∑ i, (g i - mg) * (g i - mg)) / (N - 1))) :
    (∑ i, ((x i - m) / s) * ((g i - mg) / sg))
        / Real.sqrt ((∑ i, ((x i - m) / s) * ((x i - m) / s)) * (∑ i, ((g i - mg) / sg) * ((g i - mg) / sg)))
      = ((∑ i, x i * g i) - N * m * mg)
        / ((N - 1) * Real.sqrt (((∑ i, x i * x i) - N * m * m) / (N - 1))
            * Real.sqrt (((∑ i, g i * g i) - N * mg * mg) / (N - 1))) := by
  have hN0 : N ≠ 0 := by linarith
  have hN' : 0 < N - 1 := by linarith
  have hspos : 0 < s := hs ▸ std_pos x N m hN1 hx
  have hsgpos : 0 < sg := hsg ▸ std_pos g N mg hN1 hg
  have ha : ∑ i, ((x i - m) / s) * ((x i - m) / s) = N - 1 := by
    rw [hs]; exact sum_standardised_sq x N m hN1 hx
  have hb : ∑ i, ((g i - mg) / sg) * ((g i - mg) / sg) = N - 1 := by
    rw [hsg]; exact sum_standardised_sq g N mg hN1 hg
  have hks : Real.sqrt (((∑ i, x i * x i) - N * m * m) / (N - 1)) = s := by
    rw [hs, hm]; exact std_moments x N hN hN0
  have hkg : Real.sqrt (((∑ i, g i * g i) - N * mg * mg) / (N - 1)) = sg := by
    rw [hsg, hmg]; exact std_moments g N hN hN0
  have hc : ∑ i, ((x i - m) / s) * ((g i - mg) / sg)
      = ((∑ i, x i * g i) - N * m * mg) / (s * sg) := by
    have h1 : ∀ i, ((x i - m) / s) * ((g i - mg) / sg) = ((x i - m) * (g i - mg)) * (s * sg)⁻¹ := fun i => by
      rw [div_mul_div_comm, div_eq_mul_inv]
    simp only [h1, ← sum_mul]
    rw [hm, hmg, sum_cross_dev x g N hN hN0]
    exact (div_eq_mul_inv _ _).symm
  rw [ha, hb, Real.sqrt_mul_self hN'.le, hks, hkg, hc]
  field_simp

/-- The min-max normalised map sums to the closed form over the raw sum. -/
theorem sum_minmax (x : ι → ℝ) (N lo hi : ℝ) (hN : (Fintype.card ι : ℝ) = N) :
    ∑ j, (x j - lo) / (hi - lo) = ((∑ j, x j) - N * lo) / (hi - lo) := by
  rw [← sum_div, sum_sub_distrib, sum_const, card_univ, nsmul_eq_mul, hN]

/-- That sum is positive when lo is a lower bound, hi is attained and lo < hi. -/
theorem sum_minmax_pos (x : ι → ℝ) (lo hi : ℝ) (hlo : ∀ i, lo ≤ x i) (hhi : ∃ i, x i = hi) (hlt : lo < hi) :
    0 < ∑ j, (x j - lo) / (hi - lo) := by
  obtain ⟨k, hk⟩ := hhi
  have hd : 0 < hi - lo := by linarith
  refine sum_pos' (fun i _ => div_nonneg (by linarith [hlo i]) hd.le) ⟨k, mem_univ k, ?_⟩
  rw [hk]; exact div_pos hd hd

/-- The doubly normalised map, entry by entry, as one scale and one shift over the raw sum. -/
theorem minmax_scale_shift (x : ι → ℝ) (N lo hi : ℝ) (hN : (Fintype.card ι : ℝ) = N)
    (hlo : ∀ i, lo ≤ x i) (hhi : ∃ i, x i = hi) (hlt : lo < hi) (i : ι) :
    ((x i - lo) / (hi - lo)) / (∑ j, (x j - lo) / (hi - lo))
      = x i * (1 / ((hi - lo) * (((∑ j, x j) - N * lo) / (hi - lo))))
        - lo * (1 / ((hi - lo) * (((∑ j, x j) - N * lo) / (hi - lo)))) := by
  have hd : hi - lo ≠ 0 := by linarith
  have hpos := sum_minmax_pos x lo hi hlo hhi hlt
  rw [sum_minmax x N lo hi hN] at hpos ⊢
  have hq : ((∑ j, x j) - N * lo) / (hi - lo) ≠ 0 := hpos.ne'
  field_simp

end SaliencyAlgebra
-- ==== Proof.ScoreBridge.lean ====
/-
  The two spellings of the correlation score agree on real, non-constant families: the extended-real
  expressions of Proof/ScoreDefs.lean, at families of real numbers, are the real expressions of
  Proof/SaliencyAlgebra.lean (every division is by a non-zero real, every square root of a non-negative one), and
  those agree by the covariance collapse.
-/
import proofs.«174061_j72688026517959_2_alg».proof.Proof.ScoreDefs
import proofs.«174061_j72688026517959_2_alg».proof.Proof.SaliencyAlgebra

noncomputable section

namespace Saliency

open Idealize.ShloMosaic Finset

/-! ## The literals -/

theorem nLit_eq : nLit = ((401408 : ℝ) : EReal) := by
  unfold nLit; simp [Ideal.ofBits, Ideal.ieee, -EReal.coe_mul]; norm_num
theorem n1Lit_eq : n1Lit = (((401408 : ℝ) - 1 : ℝ) : EReal) := by
  rw [show ((401408 : ℝ) - 1) = 401407 by norm_num]
  unfold n1Lit; simp [Ideal.ofBits, Ideal.ieee, -EReal.coe_mul]; norm_num
theorem oneLit_eq : oneLit = ((1 : ℝ) : EReal) := by
  unfold oneLit; simp [Ideal.ofBits, Ideal.ieee, -EReal.coe_mul]; norm_num
theorem sixteenLit_eq : sixteenLit = ((16 : ℝ) : EReal) := by
  unfold sixteenLit; simp [Ideal.ofBits, Ideal.ieee, -EReal.coe_mul]; norm_num

theorem card_pix : (Fintype.card Pix : ℝ) = 401408 := by
  simp only [Pix, Fintype.card_prod, Fintype.card_fin]; norm_num

/-! ## Extended-real operations at real numbers -/

theorem div_coe_coe (a b : ℝ) (hb : b ≠ 0) : Ideal.div (a : EReal) (b : EReal) = ((a / b : ℝ) : EReal) := by
  rw [Ideal.div_coe hb, ← EReal.coe_mul, mul_one_div]

theorem sqrt_coe_nonneg (a : ℝ) (ha : 0 ≤ a) : Ideal.sqrt (a : EReal) = ((Real.sqrt a : ℝ) : EReal) := by
  rw [Ideal.sqrt_coe, if_neg (not_lt.mpr ha)]

theorem coe_sum {ι : Type*} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-! ## The correlation -/

/-- The kernel's variance from the raw moments, and its correlation, over the reals. -/
def kvar (x : Pix → ℝ) : ℝ :=
  ((∑ p, x p * x p) - 401408 * ((∑ p, x p) / 401408) * ((∑ p, x p) / 401408)) / (401408 - 1)
def kerR (x g : Pix → ℝ) : ℝ :=
  ((∑ p, x p * g p) - 401408 * ((∑ p, x p) / 401408) * ((∑ p, g p) / 401408))
    / ((401408 - 1) * Real.sqrt (kvar x) * Real.sqrt (kvar g))

theorem ccKer_coe (x g : Pix → ℝ) (hx : 0 ≤ kvar x) (hg : 0 ≤ kvar g)
    (hden : (401408 - 1) * Real.sqrt (kvar x) * Real.sqrt (kvar g) ≠ 0) :
    ccKer (fun p => (x p : EReal)) (fun p => (g p : EReal)) = ((kerR x g : ℝ) : EReal) := by
  have hN0 : (401408 : ℝ) ≠ 0 := by norm_num
  have hN1 : ((401408 : ℝ) - 1) ≠ 0 := by norm_num
  unfold kvar at hx hg hden
  unfold ccKer kerR kvar
  rw [nLit_eq, n1Lit_eq]
  simp only [← EReal.coe_mul, coe_sum, ← EReal.coe_sub, div_coe_coe _ _ hN0, div_coe_coe _ _ hN1]
  rw [sqrt_coe_nonneg _ hx, sqrt_coe_nonneg _ hg]
  simp only [← EReal.coe_mul]
  exact div_coe_coe _ _ hden

/-- The reference's standardised entry and its correlation, over the reals. -/
def stdR (x : Pix → ℝ) (p : Pix) : ℝ :=
  (x p - (∑ q, x q) / 401408)
    / Real.sqrt ((∑ q, (x q - (∑ r, x r) / 401408) * (x q - (∑ r, x r) / 401408)) / (401408 - 1))
def refR (x g : Pix → ℝ) : ℝ :=
  (∑ p, stdR x p * stdR g p) / Real.sqrt ((∑ p, stdR x p * stdR x p) * (∑ p, stdR g p * stdR g p))

theorem standardised_coe (x : Pix → ℝ)
    (hs : Real.sqrt ((∑ q, (x q - (∑ r, x r) / 401408) * (x q - (∑ r, x r) / 401408)) / (401408 - 1)) ≠ 0) (p : Pix) :
    standardised (fun p => (x p : EReal)) p = ((stdR x p : ℝ) : EReal) := by
  have hN0 : (401408 : ℝ) ≠ 0 := by norm_num
  have hN1 : ((401408 : ℝ) - 1) ≠ 0 := by norm_num
  have hv : 0 ≤ (∑ q, (x q - (∑ r, x r) / 401408) * (x q - (∑ r, x r) / 401408)) / (401408 - 1) :=
    div_nonneg (Finset.sum_nonneg fun q _ => mul_self_nonneg _) (by norm_num)
  unfold standardised stdR
  rw [nLit_eq, n1Lit_eq]
  simp only [← EReal.coe_mul, coe_sum, ← EReal.coe_sub, div_coe_coe _ _ hN0, div_coe_coe _ _ hN1]
  rw [sqrt_coe_nonneg _ hv]
  exact div_coe_coe _ _ hs

theorem ccRef_coe (x g : Pix → ℝ)
    (hsx : Real.sqrt ((∑ q, (x q - (∑ r, x r) / 401408) * (x q - (∑ r, x r) / 401408)) / (401408 - 1)) ≠ 0)
    (hsg : Real.sqrt ((∑ q, (g q - (∑ r, g r) / 401408) * (g q - (∑ r, g r) / 401408)) / (401408 - 1)) ≠ 0)
    (hden : Real.sqrt ((∑ p, stdR x p * stdR x p) * (∑ p, stdR g p * stdR g p)) ≠ 0) :
    ccRef (fun p => (x p : EReal)) (fun p => (g p : EReal)) = ((refR x g : ℝ) : EReal) := by
  have hv : 0 ≤ (∑ p, stdR x p * stdR x p) * (∑ p, stdR g p * stdR g p) :=
    mul_nonneg (Finset.sum_nonneg fun q _ => mul_self_nonneg _) (Finset.sum_nonneg fun q _ => mul_self_nonneg _)
  unfold ccRef refR
  simp only [standardised_coe x hsx, standardised_coe g hsg, ← EReal.coe_mul, coe_sum]
  rw [sqrt_coe_nonneg _ hv]
  exact div_coe_coe _ _ hden

/-- The two correlations agree on real families that are not constant. -/
theorem cc_bridge (x g : Pix → ℝ) (hx : ∃ p q, x p ≠ x q) (hg : ∃ p q, g p ≠ g q) :
    ccKer (fun p => (x p : EReal)) (fun p => (g p : EReal)) = ccRef (fun p => (x p : EReal)) (fun p => (g p : EReal)) := by
  have hN1 : (1 : ℝ) < 401408 := by norm_num
  have hN0 : (401408 : ℝ) ≠ 0 := by norm_num
  have hN' : (0 : ℝ) < 401408 - 1 := by norm_num
  have hsx := SaliencyAlgebra.std_pos x 401408 ((∑ q, x q) / 401408) hN1 hx
  have hsg := SaliencyAlgebra.std_pos g 401408 ((∑ q, g q) / 401408) hN1 hg
  have hkx : Real.sqrt (kvar x) = Real.sqrt ((∑ q, (x q - (∑ r, x r) / 401408) * (x q - (∑ r, x r) / 401408)) / (401408 - 1)) :=
    SaliencyAlgebra.std_moments x 401408 card_pix hN0
  have hkg : Real.sqrt (kvar g) = Real.sqrt ((∑ q, (g q - (∑ r, g r) / 401408) * (g q - (∑ r, g r) / 401408)) / (401408 - 1)) :=
    SaliencyAlgebra.std_moments g 401408 card_pix hN0
  have hvx : 0 ≤ kvar x := by
    unfold kvar; rw [← SaliencyAlgebra.sum_sq_dev x 401408 card_pix hN0]
    exact div_nonneg (Finset.sum_nonneg fun q _ => mul_self_nonneg _) hN'.le
  have hvg : 0 ≤ kvar g := by
    unfold kvar; rw [← SaliencyAlgebra.sum_sq_dev g 401408 card_pix hN0]
    exact div_nonneg (Finset.sum_nonneg fun q _ => mul_self_nonneg _) hN'.le
  have haa : ∑ p, stdR x p * stdR x p = 401408 - 1 := SaliencyAlgebra.sum_standardised_sq x 401408 _ hN1 hx
  have hbb : ∑ p, stdR g p * stdR g p = 401408 - 1 := SaliencyAlgebra.sum_standardised_sq g 401408 _ hN1 hg
  rw [ccKer_coe x g hvx hvg (by rw [hkx, hkg]; positivity),
    ccRef_coe x g hsx.ne' hsg.ne' (by rw [haa, hbb, Real.sqrt_mul_self hN'.le]; exact hN'.ne')]
  congr 1
  unfold kerR refR kvar stdR
  exact (SaliencyAlgebra.cc_collapse x g 401408 card_pix hN1 hx hg _ _ _ _ rfl rfl rfl rfl).symm

/-! ## The similarity -/

/-- On a finite non-empty family of reals the infimum and supremum in the extended reals are attained reals. -/
theorem iInf_coe_attained (x : Pix → ℝ) : ∃ p0, (∀ p, x p0 ≤ x p) ∧ (⨅ p, (x p : EReal)) = ((x p0 : ℝ) : EReal) := by
  obtain ⟨p0, h0⟩ := Finite.exists_min x
  exact ⟨p0, h0, le_antisymm (iInf_le _ p0) (le_iInf fun p => EReal.coe_le_coe_iff.mpr (h0 p))⟩
theorem iSup_coe_attained (x : Pix → ℝ) : ∃ p1, (∀ p, x p ≤ x p1) ∧ (⨆ p, (x p : EReal)) = ((x p1 : ℝ) : EReal) := by
  obtain ⟨p1, h1⟩ := Finite.exists_max x
  exact ⟨p1, h1, le_antisymm (iSup_le fun p => EReal.coe_le_coe_iff.mpr (h1 p)) (le_iSup (fun p => (x p : EReal)) p1)⟩

/-- The kernel's scaled-and-shifted entry is the reference's doubly normalised entry, for a real family that is not
    constant. -/
theorem norm_bridge (x : Pix → ℝ) (hx : ∃ p q, x p ≠ x q) (p : Pix) :
    (x p : EReal) * scaleKer (fun p => (x p : EReal)) - (⨅ q, (x q : EReal)) * scaleKer (fun p => (x p : EReal))
      = Ideal.div (minmax (fun p => (x p : EReal)) p) (∑ q, minmax (fun p => (x p : EReal)) q) := by
  obtain ⟨p0, h0, e0⟩ := iInf_coe_attained x
  obtain ⟨p1, h1, e1⟩ := iSup_coe_attained x
  have hlt : x p0 < x p1 := by
    obtain ⟨a, b, hab⟩ := hx
    rcases lt_or_gt_of_ne hab with h | h
    · exact lt_of_le_of_lt (h0 a) (lt_of_lt_of_le h (h1 b))
    · exact lt_of_le_of_lt (h0 b) (lt_of_lt_of_le h (h1 a))
  have hd : x p1 - x p0 ≠ 0 := by linarith
  have hN0 : (401408 : ℝ) ≠ 0 := by norm_num
  have hpos := SaliencyAlgebra.sum_minmax_pos x (x p0) (x p1) h0 ⟨p1, rfl⟩ hlt
  have hsum := SaliencyAlgebra.sum_minmax x 401408 (x p0) (x p1) card_pix
  have hq : ((∑ j, x j) - 401408 * x p0) / (x p1 - x p0) ≠ 0 := by rw [← hsum]; exact hpos.ne'
  have hprod : (x p1 - x p0) * (((∑ j, x j) - 401408 * x p0) / (x p1 - x p0)) ≠ 0 := mul_ne_zero hd hq
  have hsc : scaleKer (fun p => (x p : EReal))
      = ((1 / ((x p1 - x p0) * (((∑ j, x j) - 401408 * x p0) / (x p1 - x p0))) : ℝ) : EReal) := by
    unfold scaleKer
    rw [e0, e1, oneLit_eq, nLit_eq]
    simp only [← EReal.coe_mul, coe_sum, ← EReal.coe_sub, div_coe_coe _ _ hd]
    exact div_coe_coe _ _ hprod
  have hmm : ∀ q, minmax (fun p => (x p : EReal)) q = (((x q - x p0) / (x p1 - x p0) : ℝ) : EReal) := fun q => by
    unfold minmax
    rw [e0, e1]
    simp only [← EReal.coe_sub]
    exact div_coe_coe _ _ hd
  rw [hsc, e0]
  simp only [hmm, coe_sum, ← EReal.coe_mul, ← EReal.coe_sub]
  rw [div_coe_coe _ _ hpos.ne']
  exact congrArg _ (SaliencyAlgebra.minmax_scale_shift x 401408 (x p0) (x p1) card_pix h0 ⟨p1, rfl⟩ hlt p).symm

/-- The two similarities agree on real families that are not constant. -/
theorem sim_bridge (x g : Pix → ℝ) (hx : ∃ p q, x p ≠ x q) (hg : ∃ p q, g p ≠ g q) :
    simKer (fun p => (x p : EReal)) (fun p => (g p : EReal)) = simRef (fun p => (x p : EReal)) (fun p => (g p : EReal)) := by
  unfold simKer simRef
  exact Finset.sum_congr rfl fun p _ => by rw [norm_bridge x hx p, norm_bridge g hg p]

end Saliency

end
-- ==== Proof.PreFacts.lean ====
/-
  The precondition read back. Its predicate is the conjunction of three `all`s; that it is 1 says: every entry of x is
  finite (|x| < +∞), every frame map's minimum is below its maximum, and every T-mean map's minimum is below its maximum.
-/
import proofs.«174061_j72688026517959_2_alg».proof.Pre_finite_inputs
import proofs.«174061_j72688026517959_2_alg».proof.Proof.Gen.Pre_finite_inputs
import Idealize.ShloMosaic.Lib.ReduceAll
import Idealize.ShloMosaic.Lib.ValueIdx
import Idealize.ShloMosaic.PureOps.Ideal.Laws

noncomputable section

namespace Cert.PreFacts

open Cert.Pre_finite_inputs Cert.Pre_finite_inputs.Gen
open Idealize.ShloMosaic Idealize.ShloMosaic.ValueIdx

instance : Subsingleton S_.Idx := ⟨fun a b => funext fun d => d.elim0⟩

/-- The frame maps' minima and maxima, and the T-mean map with its minima and maxima, as the predicate spells them. -/
def frames (x : FVec Ideal S8x32x16x112x112 .f32) : FVec Ideal S8x16x32x112x112 .f32 :=
  transpose S8x16x32x112x112 [0, 2, 1, 3, 4] x transposes_S8x32x16x112x112_S8x16x32x112x112_0_2_1_3_4
def frameMin (x : FVec Ideal S8x32x16x112x112 .f32) : FVec Ideal S8x16 .f32 :=
  Host.reduce (FloatOps.minimumf (F := Ideal)) (frames x) (constant (F := Ideal) S_ .f32 0x7F800000#32)
    reducesTo_S8x16x32x112x112_S8x16_d2_3_4 h_S_
def frameMax (x : FVec Ideal S8x32x16x112x112 .f32) : FVec Ideal S8x16 .f32 :=
  Host.reduce (FloatOps.maximumf (F := Ideal)) (frames x) (constant (F := Ideal) S_ .f32 0xFF800000#32)
    reducesTo_S8x16x32x112x112_S8x16_d2_3_4 h_S_
def meanOf (x : FVec Ideal S8x32x16x112x112 .f32) : FVec Ideal S8x32x112x112 .f32 :=
  Host.divf (F := Ideal)
    (Host.reduceAdd (F := Ideal) x (constant (F := Ideal) S_ .f32 0x00000000#32) reducesTo_S8x32x16x112x112_S8x32x112x112_d2 h_S_)
    (broadcastInDim S8x32x112x112 ![] bcast_S_S8x32x112x112 (constant (F := Ideal) S_ .f32 0x41800000#32))
def meanMin (x : FVec Ideal S8x32x16x112x112 .f32) : FVec Ideal S8 .f32 :=
  Host.reduce (FloatOps.minimumf (F := Ideal)) (meanOf x) (constant (F := Ideal) S_ .f32 0x7F800000#32)
    reducesTo_S8x32x112x112_S8_d1_2_3 h_S_
def meanMax (x : FVec Ideal S8x32x16x112x112 .f32) : FVec Ideal S8 .f32 :=
  Host.reduce (FloatOps.maximumf (F := Ideal)) (meanOf x) (constant (F := Ideal) S_ .f32 0xFF800000#32)
    reducesTo_S8x32x112x112_S8_d1_2_3 h_S_

theorem cmp_olt_eq_one (a b : EReal) : Ideal.cmp .olt a b = 1#1 ↔ a < b := by
  unfold Ideal.cmp
  by_cases h : a < b <;> simp [h]

/-- An `all(a < b)` that is 1 says a < b at every index. -/
theorem all_lt {s : Shape} (a b : FVec Ideal s .f32) (hr : s.ReducesTo (List.finRange s.rank) S_) (hu : 0 < S_.numel)
    (e : Host.reduce IntOp.andi (cmpf .olt a b) (constantI S_ 1 1#1) hr hu ix0 = 1#1) (j : s.Idx) : a j < b j :=
  (cmp_olt_eq_one _ _).mp (Host.reduce_andi_all _ _ _ _ ix0 e j)

/-- The predicate is 1 exactly on the stated domain (the direction a proof uses). -/
theorem decode (x : FVec Ideal S8x32x16x112x112 .f32) (h : fn (F := Ideal) x = fun _ => 1#1) :
    (∀ i, max (x i) (-(x i)) < (⊤ : EReal)) ∧ (∀ j, frameMin x j < frameMax x j) ∧ (∀ b, meanMin x b < meanMax x b) := by
  have h0 := congrFun h ix0
  dsimp only [fn, fn_part1] at h0
  obtain ⟨hab, hc⟩ := IntOp.andi_eq_one.mp h0
  obtain ⟨ha, hb⟩ := IntOp.andi_eq_one.mp hab
  refine ⟨fun i => ?_, fun j => ?_, fun b => ?_⟩
  · have e : Ideal.cmp .olt (max (x i) (-(x i))) (Ideal.ofBits .f32 0x7F800000#32) = 1#1 :=
      Host.reduce_andi_all _ _ _ _ ix0 ha i
    rw [cmp_olt_eq_one] at e
    rwa [show Ideal.ofBits .f32 0x7F800000#32 = (⊤ : EReal) from by simp [Ideal.ofBits, Ideal.ieee]] at e
  · exact all_lt (frameMin x) (frameMax x) _ _ hb j
  · exact all_lt (meanMin x) (meanMax x) _ _ hc b

end Cert.PreFacts

end
-- ==== Proof.LibTrailingReduce.lean ====
/-
  Host reductions over the three TRAILING axes, read at an index, for arbitrary extents.

  A `stablehlo.reduce` across dimensions [2, 3, 4] of an [a, b, c, d, e] array into [a, b], and across
  dimensions [1, 2, 3] of an [a, c, d, e] array into [a]:
  * an index of the operand reduces to (p, q) exactly when its two leading coordinates are p and q
    (`drop5_eq_iff`; `drop4_eq_iff` for the rank-4 form);
  * on the extended reals the float sum at (p, q) is the initial value plus the triple sum over the
    trailing coordinates of the operand at (p, q, k, l, n) (`hostReduceAdd_of5`, `hostReduceAdd_of4`);
  * a reduce whose body is commutative and associative is the fold over that set of indices, so for a
    minimum body `z ≤ result ↔ z ≤ init ∧ ∀ k l n, z ≤ operand (p, q, k, l, n)`, and dually for a maximum
    (`le_hostReduceMin_of5`, `hostReduceMax_le_of5`, and the rank-4 forms).
  No program is imported.
-/
import Idealize.ShloMosaic.PureOps.Ideal.Laws
import Idealize.ShloMosaic.PureOps.Reduce
import Idealize.ShloMosaic.Lib.ValueIdx

noncomputable section

namespace LibTrailingReduce

open Idealize.ShloMosaic Idealize.ShloMosaic.ValueIdx

variable {a b c d e : Nat}

/-! ## Rank 5, axes 2, 3, 4 -/

/-- An index of [a,b,c,d,e] drops (axes 2, 3, 4 removed) to (p, q) iff its leading coordinates are p, q. -/
theorem drop5_eq_iff (h : (⟨5, ![a, b, c, d, e]⟩ : Shape).ReducesTo [2, 3, 4] ⟨2, ![a, b]⟩)
    (i : (⟨5, ![a, b, c, d, e]⟩ : Shape).Idx) (p : Fin a) (q : Fin b) :
    h.drop i = ix2 p q ↔ (i 0).val = p.val ∧ (i 1).val = q.val := by
  have e0 : (h.drop i 0 : Nat) = (i 0).val := rfl
  have e1 : (h.drop i 1 : Nat) = (i 1).val := rfl
  constructor
  · intro hd
    exact ⟨e0.symm.trans (congrArg (fun j => (j 0).val) hd), e1.symm.trans (congrArg (fun j => (j 1).val) hd)⟩
  · rintro ⟨h0, h1⟩
    funext r
    apply Fin.ext
    match r with
    | ⟨0, _⟩ => exact e0.trans h0
    | ⟨1, _⟩ => exact e1.trans h1

/-- The set of indices that reduce to (p, q), as the image of the trailing coordinates. -/
theorem sum_fiber5 {M : Type*} [AddCommMonoid M]
    (h : (⟨5, ![a, b, c, d, e]⟩ : Shape).ReducesTo [2, 3, 4] ⟨2, ![a, b]⟩)
    (x : (⟨5, ![a, b, c, d, e]⟩ : Shape).Idx → M) (p : Fin a) (q : Fin b) :
    ∑ i ∈ Finset.univ.filter (fun i => h.drop i = ix2 p q), x i
      = ∑ k : Fin c, ∑ l : Fin d, ∑ n : Fin e, x (ix5 p q k l n) := by
  rw [← Finset.sum_product', ← Finset.sum_product']
  refine Finset.sum_nbij' (fun i => ((⟨(i 2).val, (i 2).isLt⟩, ⟨(i 3).val, (i 3).isLt⟩), ⟨(i 4).val, (i 4).isLt⟩))
    (fun kln => ix5 p q kln.1.1 kln.1.2 kln.2) ?_ ?_ ?_ ?_ ?_
  · intro i _; simp
  · intro kln _
    simp only [Finset.mem_filter, Finset.mem_univ, true_and]
    exact (drop5_eq_iff h _ p q).mpr ⟨rfl, rfl⟩
  · intro i hi
    simp only [Finset.mem_filter, Finset.mem_univ, true_and] at hi
    obtain ⟨h0, h1⟩ := (drop5_eq_iff h i p q).mp hi
    funext r
    apply Fin.ext
    match r with
    | ⟨0, _⟩ => exact h0.symm
    | ⟨1, _⟩ => exact h1.symm
    | ⟨2, _⟩ => rfl
    | ⟨3, _⟩ => rfl
    | ⟨4, _⟩ => rfl
  · intro kln _; rfl
  · intro i hi
    simp only [Finset.mem_filter, Finset.mem_univ, true_and] at hi
    obtain ⟨h0, h1⟩ := (drop5_eq_iff h i p q).mp hi
    refine congrArg x (funext fun r => Fin.ext ?_)
    match r with
    | ⟨0, _⟩ => exact h0
    | ⟨1, _⟩ => exact h1
    | ⟨2, _⟩ => rfl
    | ⟨3, _⟩ => rfl
    | ⟨4, _⟩ => rfl

/-- The host's float sum over the three trailing axes, on the extended reals, at (p, q). -/
theorem hostReduceAdd_of5 (h : (⟨5, ![a, b, c, d, e]⟩ : Shape).ReducesTo [2, 3, 4] ⟨2, ![a, b]⟩)
    (x : (⟨5, ![a, b, c, d, e]⟩ : Shape).Idx → EReal) (init : EReal) (p : Fin a) (q : Fin b) :
    Ideal.hostReduceAdd h x init (ix2 p q) = init + ∑ k : Fin c, ∑ l : Fin d, ∑ n : Fin e, x (ix5 p q k l n) := by
  unfold Ideal.hostReduceAdd
  rw [sum_fiber5]

/-- A host reduce with a minimum body over the three trailing axes, by its universal property. -/
theorem le_hostReduceMin_of5 {u : Shape} (h : (⟨5, ![a, b, c, d, e]⟩ : Shape).ReducesTo [2, 3, 4] ⟨2, ![a, b]⟩)
    (hu : 0 < u.numel) (x : (⟨5, ![a, b, c, d, e]⟩ : Shape).Idx → EReal) (init : u.Idx → EReal)
    (p : Fin a) (q : Fin b) (z : EReal) :
    z ≤ Host.reduce (min : EReal → EReal → EReal) x init h hu (ix2 p q)
      ↔ z ≤ init (Shape.Idx.first hu) ∧ ∀ (k : Fin c) (l : Fin d) (n : Fin e), z ≤ x (ix5 p q k l n) := by
  rw [Host.reduce_eq_fold, Finset.le_fold_min]
  refine and_congr_right fun _ => ⟨fun hall k l n => hall _ ?_, fun hall i hi => ?_⟩
  · simp only [Finset.mem_filter, Finset.mem_univ, true_and]
    exact (drop5_eq_iff h _ p q).mpr ⟨rfl, rfl⟩
  · simp only [Finset.mem_filter, Finset.mem_univ, true_and] at hi
    obtain ⟨h0, h1⟩ := (drop5_eq_iff h i p q).mp hi
    have hi5 : i = ix5 p q ⟨(i 2).val, (i 2).isLt⟩ ⟨(i 3).val, (i 3).isLt⟩ ⟨(i 4).val, (i 4).isLt⟩ := by
      funext r
      apply Fin.ext
      match r with
      | ⟨0, _⟩ => exact h0
      | ⟨1, _⟩ => exact h1
      | ⟨2, _⟩ => rfl
      | ⟨3, _⟩ => rfl
      | ⟨4, _⟩ => rfl
    rw [hi5]; exact hall _ _ _

/-- A host reduce with a maximum body over the three trailing axes, by its universal property. -/
theorem hostReduceMax_le_of5 {u : Shape} (h : (⟨5, ![a, b, c, d, e]⟩ : Shape).ReducesTo [2, 3, 4] ⟨2, ![a, b]⟩)
    (hu : 0 < u.numel) (x : (⟨5, ![a, b, c, d, e]⟩ : Shape).Idx → EReal) (init : u.Idx → EReal)
    (p : Fin a) (q : Fin b) (z : EReal) :
    Host.reduce (max : EReal → EReal → EReal) x init h hu (ix2 p q) ≤ z
      ↔ init (Shape.Idx.first hu) ≤ z ∧ ∀ (k : Fin c) (l : Fin d) (n : Fin e), x (ix5 p q k l n) ≤ z := by
  rw [Host.reduce_eq_fold, Finset.fold_max_le]
  refine and_congr_right fun _ => ⟨fun hall k l n => hall _ ?_, fun hall i hi => ?_⟩
  · simp only [Finset.mem_filter, Finset.mem_univ, true_and]
    exact (drop5_eq_iff h _ p q).mpr ⟨rfl, rfl⟩
  · simp only [Finset.mem_filter, Finset.mem_univ, true_and] at hi
    obtain ⟨h0, h1⟩ := (drop5_eq_iff h i p q).mp hi
    have hi5 : i = ix5 p q ⟨(i 2).val, (i 2).isLt⟩ ⟨(i 3).val, (i 3).isLt⟩ ⟨(i 4).val, (i 4).isLt⟩ := by
      funext r
      apply Fin.ext
      match r with
      | ⟨0, _⟩ => exact h0
      | ⟨1, _⟩ => exact h1
      | ⟨2, _⟩ => rfl
      | ⟨3, _⟩ => rfl
      | ⟨4, _⟩ => rfl
    rw [hi5]; exact hall _ _ _

/-! ## Rank 4, axes 1, 2, 3 -/

/-- An index of [a,c,d,e] drops (axes 1, 2, 3 removed) to p iff its leading coordinate is p. -/
theorem drop4_eq_iff (h : (⟨4, ![a, c, d, e]⟩ : Shape).ReducesTo [1, 2, 3] ⟨1, ![a]⟩)
    (i : (⟨4, ![a, c, d, e]⟩ : Shape).Idx) (p : Fin a) :
    h.drop i = ix1 p ↔ (i 0).val = p.val := by
  have e0 : (h.drop i 0 : Nat) = (i 0).val := rfl
  constructor
  · intro hd
    exact e0.symm.trans (congrArg (fun j => (j 0).val) hd)
  · intro h0
    funext r
    apply Fin.ext
    match r with
    | ⟨0, _⟩ => exact e0.trans h0

/-- An index whose leading coordinate is p, rebuilt from its trailing coordinates. -/
theorem eq_ix4_of_lead (i : (⟨4, ![a, c, d, e]⟩ : Shape).Idx) (p : Fin a) (h0 : (i 0).val = p.val) :
    i = ix4 p ⟨(i 1).val, (i 1).isLt⟩ ⟨(i 2).val, (i 2).isLt⟩ ⟨(i 3).val, (i 3).isLt⟩ := by
  funext r
  apply Fin.ext
  match r with
  | ⟨0, _⟩ => exact h0
  | ⟨1, _⟩ => rfl
  | ⟨2, _⟩ => rfl
  | ⟨3, _⟩ => rfl

theorem sum_fiber4 {M : Type*} [AddCommMonoid M]
    (h : (⟨4, ![a, c, d, e]⟩ : Shape).ReducesTo [1, 2, 3] ⟨1, ![a]⟩)
    (x : (⟨4, ![a, c, d, e]⟩ : Shape).Idx → M) (p : Fin a) :
    ∑ i ∈ Finset.univ.filter (fun i => h.drop i = ix1 p), x i
      = ∑ k : Fin c, ∑ l : Fin d, ∑ n : Fin e, x (ix4 p k l n) := by
  rw [← Finset.sum_product', ← Finset.sum_product']
  refine Finset.sum_nbij' (fun i => ((⟨(i 1).val, (i 1).isLt⟩, ⟨(i 2).val, (i 2).isLt⟩), ⟨(i 3).val, (i 3).isLt⟩))
    (fun kln => ix4 p kln.1.1 kln.1.2 kln.2) ?_ ?_ ?_ ?_ ?_
  · intro i _; simp
  · intro kln _
    simp only [Finset.mem_filter, Finset.mem_univ, true_and]
    exact (drop4_eq_iff h _ p).mpr rfl
  · intro i hi
    simp only [Finset.mem_filter, Finset.mem_univ, true_and] at hi
    exact (eq_ix4_of_lead i p ((drop4_eq_iff h i p).mp hi)).symm
  · intro kln _; rfl
  · intro i hi
    simp only [Finset.mem_filter, Finset.mem_univ, true_and] at hi
    exact congrArg x (eq_ix4_of_lead i p ((drop4_eq_iff h i p).mp hi))

/-- The host's float sum over the three trailing axes of a rank-4 array, on the extended reals, at p. -/
theorem hostReduceAdd_of4 (h : (⟨4, ![a, c, d, e]⟩ : Shape).ReducesTo [1, 2, 3] ⟨1, ![a]⟩)
    (x : (⟨4, ![a, c, d, e]⟩ : Shape).Idx → EReal) (init : EReal) (p : Fin a) :
    Ideal.hostReduceAdd h x init (ix1 p) = init + ∑ k : Fin c, ∑ l : Fin d, ∑ n : Fin e, x (ix4 p k l n) := by
  unfold Ideal.hostReduceAdd
  rw [sum_fiber4]

theorem le_hostReduceMin_of4 {u : Shape} (h : (⟨4, ![a, c, d, e]⟩ : Shape).ReducesTo [1, 2, 3] ⟨1, ![a]⟩)
    (hu : 0 < u.numel) (x : (⟨4, ![a, c, d, e]⟩ : Shape).Idx → EReal) (init : u.Idx → EReal)
    (p : Fin a) (z : EReal) :
    z ≤ Host.reduce (min : EReal → EReal → EReal) x init h hu (ix1 p)
      ↔ z ≤ init (Shape.Idx.first hu) ∧ ∀ (k : Fin c) (l : Fin d) (n : Fin e), z ≤ x (ix4 p k l n) := by
  rw [Host.reduce_eq_fold, Finset.le_fold_min]
  refine and_congr_right fun _ => ⟨fun hall k l n => hall _ ?_, fun hall i hi => ?_⟩
  · simp only [Finset.mem_filter, Finset.mem_univ, true_and]
    exact (drop4_eq_iff h _ p).mpr rfl
  · simp only [Finset.mem_filter, Finset.mem_univ, true_and] at hi
    rw [eq_ix4_of_lead i p ((drop4_eq_iff h i p).mp hi)]; exact hall _ _ _

theorem hostReduceMax_le_of4 {u : Shape} (h : (⟨4, ![a, c, d, e]⟩ : Shape).ReducesTo [1, 2, 3] ⟨1, ![a]⟩)
    (hu : 0 < u.numel) (x : (⟨4, ![a, c, d, e]⟩ : Shape).Idx → EReal) (init : u.Idx → EReal)
    (p : Fin a) (z : EReal) :
    Host.reduce (max : EReal → EReal → EReal) x init h hu (ix1 p) ≤ z
      ↔ init (Shape.Idx.first hu) ≤ z ∧ ∀ (k : Fin c) (l : Fin d) (n : Fin e), x (ix4 p k l n) ≤ z := by
  rw [Host.reduce_eq_fold, Finset.fold_max_le]
  refine and_congr_right fun _ => ⟨fun hall k l n => hall _ ?_, fun hall i hi => ?_⟩
  · simp only [Finset.mem_filter, Finset.mem_univ, true_and]
    exact (drop4_eq_iff h _ p).mpr rfl
  · simp only [Finset.mem_filter, Finset.mem_univ, true_and] at hi
    rw [eq_ix4_of_lead i p ((drop4_eq_iff h i p).mp hi)]; exact hall _ _ _

end LibTrailingReduce

end
-- ==== Proof.KernelScores.lean ====
/-
  The kernel program's two scores read at (b, t): the correlation and the similarity in their moment forms
  (Proof/ScoreDefs.lean) of the frame map (b, t) and the T-mean map b. Every sum the first region accumulates over
  its four channel tiles is the sum over the map's pixels, every running minimum / maximum the infimum / supremum over
  them, and the host stretch's broadcasts read back the batch's or the frame's entry.
-/
import proofs.«174061_j72688026517959_2_alg».proof.Proof.KernelValue
import proofs.«174061_j72688026517959_2_alg».proof.Proof.TailBridge
import proofs.«174061_j72688026517959_2_alg».proof.Proof.ScoreDefs
import proofs.«174061_j72688026517959_2_alg».proof.Proof.LibTrailingReduce
import Idealize.ShloMosaic.Lib.Pipeline.Value

set_option maxRecDepth 16384

noncomputable section

namespace Cert.KernelIdeal.KernelScores

open Cert.KernelIdeal Cert.KernelIdeal.Gen Idealize.ShloMosaic Idealize.ShloMosaic.ValueIdx Saliency

/-! ## The host stretch's layout steps at an index -/

theorem lit16_apply (w : BitVec 32) (j : S8x16.Idx) : HostStats.lit16 w j = Ideal.ofBits .f32 w := by
  unfold HostStats.lit16
  exact (broadcastInDim_apply _ _ _ j ix0 fun a => a.elim0).trans rfl

theorem lit8_apply (w : BitVec 32) (j : S8.Idx) : HostStats.lit8 w j = Ideal.ofBits .f32 w := by
  unfold HostStats.lit8
  exact (broadcastInDim_apply _ _ _ j ix0 fun a => a.elim0).trans rfl

theorem overFrames_apply (v : FVec Ideal S8 .f32) (b : Fin 8) (t : Fin 16) :
    HostStats.overFrames v (ix2 b t) = v (ix1 b) := by
  unfold HostStats.overFrames
  refine (broadcastInDim_apply _ _ _ (ix2 b t) (ix2 b (0 : Fin 1)) fun a => ?_).trans ?_
  · match a with
    | ⟨0, _⟩ => show b.val = if (8 : Nat) = 1 then 0 else b.val; rw [if_neg (by decide)]
    | ⟨1, _⟩ => show 0 = if (1 : Nat) = 1 then 0 else t.val; rw [if_pos rfl]
  refine broadcastInDim_apply _ _ _ (ix2 b (0 : Fin 1)) (ix1 b) fun a => ?_
  match a with
  | ⟨0, _⟩ => show b.val = if (8 : Nat) = 1 then 0 else b.val; rw [if_neg (by decide)]

theorem overMap_apply (v : FVec Ideal S8 .f32) (b : Fin 8) (c : Fin 32) (h w : Fin 112) :
    HostStats.overMap v (ix4 b c h w) = v (ix1 b) := by
  unfold HostStats.overMap
  refine (broadcastInDim_apply _ _ _ (ix4 b c h w) (ix4 b (0 : Fin 1) (0 : Fin 1) (0 : Fin 1)) fun a => ?_).trans ?_
  · match a with
    | ⟨0, _⟩ => show b.val = if (8 : Nat) = 1 then 0 else b.val; rw [if_neg (by decide)]
    | ⟨1, _⟩ => show 0 = if (1 : Nat) = 1 then 0 else c.val; rw [if_pos rfl]
    | ⟨2, _⟩ => show 0 = if (1 : Nat) = 1 then 0 else h.val; rw [if_pos rfl]
    | ⟨3, _⟩ => show 0 = if (1 : Nat) = 1 then 0 else w.val; rw [if_pos rfl]
  refine broadcastInDim_apply _ _ _ (ix4 b (0 : Fin 1) (0 : Fin 1) (0 : Fin 1)) (ix1 b) fun a => ?_
  match a with
  | ⟨0, _⟩ => show b.val = if (8 : Nat) = 1 then 0 else b.val; rw [if_neg (by decide)]

theorem flat_apply (a : FVec Ideal S8x16x1 .f32) (b : Fin 8) (t : Fin 16) :
    HostStats.flat a (ix2 b t) = a (ix3 b t (0 : Fin 1)) := Cert.TailBridge.flat_apply a _ b t

theorem asRow_apply (v : FVec Ideal S8x16 .f32) (b : Fin 8) (z : Fin 1) (t : Fin 16) :
    HostStats.asRow v (ix3 b z t) = v (ix2 b t) := Cert.TailBridge.row_apply v _ b z t

/-! ## Four channel tiles are the 32 channels -/

theorem sum_chan {M : Type*} [AddCommMonoid M] (f : Fin 32 → M) :
    ∑ j : Fin 4, ∑ k : Fin 8, f (Region0.chan j k) = ∑ c : Fin 32, f c := by
  rw [← Fintype.sum_prod_type (f := fun jk : Fin 4 × Fin 8 => f (Region0.chan jk.1 jk.2))]
  refine Fintype.sum_equiv (finProdFinEquiv (m := 4) (n := 8)) _ _ fun jk => congrArg f (Fin.ext ?_)
  show 8 * jk.1.val + jk.2.val = jk.2.val + 8 * jk.1.val
  omega

theorem forall_chan (P : Fin 32 → Prop) : (∀ (j : Fin 4) (k : Fin 8), P (Region0.chan j k)) ↔ ∀ c : Fin 32, P c := by
  constructor
  · intro h c
    have := h ⟨c.val / 8, by omega⟩ ⟨c.val % 8, by omega⟩
    rwa [show Region0.chan ⟨c.val / 8, by omega⟩ ⟨c.val % 8, by omega⟩ = c from Fin.ext (by show 8 * (c.val / 8) + c.val % 8 = c.val; omega)] at this
  · intro h j k; exact h _

theorem four_add (T : Fin 4 → EReal) : Region0.four (· + ·) 0 T = ∑ j, T j := by
  unfold Region0.four
  dsimp only
  rw [Fin.sum_univ_four, zero_add]

theorem le_four_min (T : Fin 4 → EReal) (z : EReal) : z ≤ Region0.four min ⊤ T ↔ ∀ j, z ≤ T j := by
  unfold Region0.four
  simp only [le_min_iff, le_top, true_and]
  constructor
  · rintro ⟨⟨⟨h0, h1⟩, h2⟩, h3⟩ j
    fin_cases j <;> assumption
  · intro h; exact ⟨⟨⟨h 0, h 1⟩, h 2⟩, h 3⟩

theorem four_max_le (T : Fin 4 → EReal) (z : EReal) : Region0.four max ⊥ T ≤ z ↔ ∀ j, T j ≤ z := by
  unfold Region0.four
  simp only [max_le_iff, bot_le, true_and]
  constructor
  · rintro ⟨⟨⟨h0, h1⟩, h2⟩, h3⟩ j
    fin_cases j <;> assumption
  · intro h; exact ⟨⟨⟨h 0, h 1⟩, h 2⟩, h 3⟩

/-! ## Sums and extrema over the pixels -/

theorem sum_pix {M : Type*} [AddCommMonoid M] (f : Pix → M) : ∑ p, f p = ∑ c, ∑ h, ∑ w, f (c, h, w) := by
  rw [Fintype.sum_prod_type]
  exact Finset.sum_congr rfl fun c _ => Fintype.sum_prod_type _

theorem le_iInf_pix (f : Pix → EReal) (z : EReal) : z ≤ ⨅ p, f p ↔ ∀ c h w, z ≤ f (c, h, w) := by
  rw [le_iInf_iff]
  exact ⟨fun h c hh w => h (c, hh, w), fun h p => h p.1 p.2.1 p.2.2⟩

theorem iSup_pix_le (f : Pix → EReal) (z : EReal) : (⨆ p, f p) ≤ z ↔ ∀ c h w, f (c, h, w) ≤ z := by
  rw [iSup_le_iff]
  exact ⟨fun h c hh w => h (c, hh, w), fun h p => h p.1 p.2.1 p.2.2⟩

theorem ofBits_inf : Ideal.ofBits .f32 0x7F800000#32 = (⊤ : EReal) := by simp [Ideal.ofBits, Ideal.ieee]
theorem ofBits_neg_inf : Ideal.ofBits .f32 0xFF800000#32 = (⊥ : EReal) := by simp [Ideal.ofBits, Ideal.ieee]

variable (X : S8x32x16x112x112.Idx → EReal) (b : Fin 8) (t : Fin 16)

theorem meanMap_apply (c : Fin 32) (h w : Fin 112) : Region0.meanMap X (ix4 b c h w) = meanOf X b (c, h, w) := rfl

theorem sums_apply (u : Fin 1) : Region0.sumsOf X (ix3 b t u) = ∑ p, frameOf X b t p := by
  show Region0.four (· + ·) 0 (Region0.tileSum X b t) = _
  rw [four_add, sum_pix]
  unfold Region0.tileSum
  exact sum_chan (fun c => ∑ l, ∑ n, X (ix5 b c t l n))

theorem squares_apply (u : Fin 1) : Region0.squaresOf X (ix3 b t u) = ∑ p, frameOf X b t p * frameOf X b t p := by
  show Region0.four (· + ·) 0 (Region0.tileSq X b t) = _
  rw [four_add, sum_pix]
  unfold Region0.tileSq
  exact sum_chan (fun c => ∑ l, ∑ n, X (ix5 b c t l n) * X (ix5 b c t l n))

theorem crosses_apply (u : Fin 1) : Region0.crossesOf X (ix3 b t u) = ∑ p, frameOf X b t p * meanOf X b p := by
  show Region0.four (· + ·) 0 (Region0.tileCr X b t) = _
  rw [four_add, sum_pix]
  unfold Region0.tileCr
  exact sum_chan (fun c => ∑ l, ∑ n, X (ix5 b c t l n) * Region0.meanMap X (ix4 b c l n))

theorem minima_apply (u : Fin 1) : Region0.minimaOf X (ix3 b t u) = ⨅ p, frameOf X b t p :=
  eq_of_forall_le_iff fun z => by
    show z ≤ Region0.four min ⊤ (Region0.tileMin X b t) ↔ _
    rw [le_four_min, le_iInf_pix]
    unfold Region0.tileMin
    simp only [le_iInf_iff]
    exact forall_chan (fun c => ∀ l n, z ≤ X (ix5 b c t l n))

theorem maxima_apply (u : Fin 1) : Region0.maximaOf X (ix3 b t u) = ⨆ p, frameOf X b t p :=
  eq_of_forall_ge_iff fun z => by
    show Region0.four max ⊥ (Region0.tileMax X b t) ≤ z ↔ _
    rw [four_max_le, iSup_pix_le]
    unfold Region0.tileMax
    simp only [iSup_le_iff]
    exact forall_chan (fun c => ∀ l n, X (ix5 b c t l n) ≤ z)

/-! ## The T-mean map's own statistics -/

theorem mapSum_apply (xm : FVec Ideal S8x32x112x112 .f32) :
    HostStats.mapSum xm (ix1 b) = ∑ p : Pix, xm (ix4 b p.1 p.2.1 p.2.2) := by
  unfold HostStats.mapSum
  refine (LibTrailingReduce.hostReduceAdd_of4 _ xm _ b).trans ?_
  rw [sum_pix]
  exact (congrArg (· + _) Ideal.ofBits_zero_f32).trans (zero_add _)

theorem mapMin_apply (xm : FVec Ideal S8x32x112x112 .f32) :
    HostStats.mapMin xm (ix1 b) = ⨅ p : Pix, xm (ix4 b p.1 p.2.1 p.2.2) :=
  eq_of_forall_le_iff fun z => by
    unfold HostStats.mapMin
    refine (LibTrailingReduce.le_hostReduceMin_of4 _ _ xm _ b z).trans ?_
    rw [le_iInf_pix]
    refine ⟨fun h => h.2, fun h => ⟨?_, h⟩⟩
    exact le_of_le_of_eq le_top ofBits_inf.symm

theorem mapMax_apply (xm : FVec Ideal S8x32x112x112 .f32) :
    HostStats.mapMax xm (ix1 b) = ⨆ p : Pix, xm (ix4 b p.1 p.2.1 p.2.2) :=
  eq_of_forall_ge_iff fun z => by
    unfold HostStats.mapMax
    refine (LibTrailingReduce.hostReduceMax_le_of4 _ _ xm _ b z).trans ?_
    rw [iSup_pix_le]
    refine ⟨fun h => h.2, fun h => ⟨?_, h⟩⟩
    exact le_of_eq_of_le ofBits_neg_inf bot_le

/-! ## The correlation at (b, t) -/

theorem hdivf_apply {s : Shape} (a c : FVec Ideal s .f32) (i : s.Idx) : Host.divf (F := Ideal) a c i = Ideal.div (a i) (c i) := rfl
theorem hsqrt_apply {s : Shape} (a : FVec Ideal s .f32) (i : s.Idx) : Host.sqrt (F := Ideal) a i = Ideal.sqrt (a i) := rfl

theorem sMean_apply (sx : FVec Ideal S8x16x1 .f32) :
    HostStats.sMean sx (ix2 b t) = Ideal.div (sx (ix3 b t (0 : Fin 1))) nLit := by
  unfold HostStats.sMean
  rw [hdivf_apply, flat_apply, lit16_apply]; rfl

theorem gMean_apply (xm : FVec Ideal S8x32x112x112 .f32) :
    HostStats.gMean xm (ix1 b) = Ideal.div (∑ p : Pix, xm (ix4 b p.1 p.2.1 p.2.2)) nLit := by
  unfold HostStats.gMean
  rw [hdivf_apply, mapSum_apply, lit8_apply]; rfl

theorem sStd_apply (sx sxx : FVec Ideal S8x16x1 .f32) :
    HostStats.sStd sx sxx (ix2 b t)
      = Ideal.sqrt (Ideal.div (sxx (ix3 b t (0 : Fin 1))
          - (nLit * Ideal.div (sx (ix3 b t (0 : Fin 1))) nLit) * Ideal.div (sx (ix3 b t (0 : Fin 1))) nLit) n1Lit) := by
  unfold HostStats.sStd
  rw [hsqrt_apply, hdivf_apply, subf_apply, mulf_apply, mulf_apply, flat_apply, sMean_apply, lit16_apply, lit16_apply]; rfl

theorem gStd_apply (xm : FVec Ideal S8x32x112x112 .f32) :
    HostStats.gStd xm (ix1 b)
      = Ideal.sqrt (Ideal.div ((∑ p : Pix, xm (ix4 b p.1 p.2.1 p.2.2) * xm (ix4 b p.1 p.2.1 p.2.2))
          - (nLit * Ideal.div (∑ p : Pix, xm (ix4 b p.1 p.2.1 p.2.2)) nLit)
            * Ideal.div (∑ p : Pix, xm (ix4 b p.1 p.2.1 p.2.2)) nLit) n1Lit) := by
  unfold HostStats.gStd
  rw [hsqrt_apply, hdivf_apply, subf_apply, mulf_apply, mulf_apply, mapSum_apply, gMean_apply, lit8_apply, lit8_apply]; rfl

theorem kernelCc_apply : KValue.kernelCc X (ix2 b t) = ccKer (frameOf X b t) (meanOf X b) := by
  unfold KValue.kernelCc HostStats.ccHost
  rw [hdivf_apply, subf_apply, mulf_apply, mulf_apply, mulf_apply, mulf_apply, flat_apply, sMean_apply, sStd_apply,
    overFrames_apply, overFrames_apply, gMean_apply, gStd_apply, lit16_apply, lit16_apply,
    sums_apply, squares_apply, crosses_apply]
  rfl

/-! ## The similarity at (b, t) -/

theorem scaleHost_apply (sx mn mx : FVec Ideal S8x16x1 .f32) :
    HostStats.scaleHost sx mn mx (ix2 b t)
      = Ideal.div oneLit ((mx (ix3 b t (0 : Fin 1)) - mn (ix3 b t (0 : Fin 1)))
          * Ideal.div (sx (ix3 b t (0 : Fin 1)) - nLit * mn (ix3 b t (0 : Fin 1)))
              (mx (ix3 b t (0 : Fin 1)) - mn (ix3 b t (0 : Fin 1)))) := by
  unfold HostStats.scaleHost
  rw [hdivf_apply, mulf_apply, subf_apply, hdivf_apply, subf_apply, mulf_apply, subf_apply,
    flat_apply, flat_apply, flat_apply, lit16_apply, lit16_apply]; rfl

theorem frame_scale : HostStats.scaleHost (Region0.sumsOf X) (Region0.minimaOf X) (Region0.maximaOf X) (ix2 b t)
    = scaleKer (frameOf X b t) := by
  rw [scaleHost_apply, sums_apply, minima_apply, maxima_apply]; rfl

theorem gScale_apply (xm : FVec Ideal S8x32x112x112 .f32) :
    HostStats.gScale xm (ix1 b) = scaleKer (fun p : Pix => xm (ix4 b p.1 p.2.1 p.2.2)) := by
  unfold HostStats.gScale
  rw [hdivf_apply, mulf_apply, subf_apply, hdivf_apply, subf_apply, mulf_apply, subf_apply,
    mapSum_apply, mapMin_apply, mapMax_apply, lit8_apply, lit8_apply]; rfl

theorem gn_apply (c : Fin 32) (h w : Fin 112) :
    HostStats.gnHost (Region0.meanMap X) (ix4 b c h w)
      = meanOf X b (c, h, w) * scaleKer (meanOf X b) - (⨅ q, meanOf X b q) * scaleKer (meanOf X b) := by
  unfold HostStats.gnHost
  rw [subf_apply, mulf_apply, overMap_apply, overMap_apply, mulf_apply, gScale_apply, mapMin_apply]
  rfl

theorem kernelSim_apply (u : Fin 1) : KValue.kernelSim X (ix3 b t u) = simKer (frameOf X b t) (meanOf X b) := by
  unfold KValue.kernelSim
  show (((0 + Region1.tileTerm X _ _ _ b t 0) + Region1.tileTerm X _ _ _ b t 1) + Region1.tileTerm X _ _ _ b t 2)
    + Region1.tileTerm X _ _ _ b t 3 = _
  rw [zero_add, ← Fin.sum_univ_four (fun j => Region1.tileTerm X _ _ _ b t j)]
  unfold Region1.tileTerm simKer
  rw [sum_pix]
  refine (sum_chan (fun c => ∑ l, ∑ n, min (X (ix5 b c t l n) * _ - _) (HostStats.gnHost (Region0.meanMap X) (ix4 b c l n)))).trans ?_
  refine Finset.sum_congr rfl fun c _ => Finset.sum_congr rfl fun l _ => Finset.sum_congr rfl fun n _ => ?_
  rw [asRow_apply, asRow_apply, mulf_apply, flat_apply, frame_scale, minima_apply, gn_apply]
  rfl

end Cert.KernelIdeal.KernelScores

end
-- ==== Proof.RefScores.lean ====
/-
  The reference program's two scores read at a (batch, frame) pair. The reference computes, over the frame
  maps (x with the frame axis moved next to the batch axis) and over the T-mean map, the centred and standardised
  entries and their correlation, and the min-max normalised entries scaled to unit sum and their similarity.
  Read at the index (b, t), each of these arrays is the corresponding function of two families over the pixels
  (channel, row, column): the frame map's entries  p ↦ x (b, c, t, h, w)  and the T-mean map's entries
  p ↦ (Σ_t x (b, c, t, h, w)) / 16. Every step is an equality of extended-real expressions: a layout operation
  read at an index is its operand at one index, a sum over the three trailing axes is a sum over the pixels,
  a minimum (maximum) over them is an infimum (supremum) over the pixels.
-/
import proofs.«174061_j72688026517959_2_alg».proof.Proof.RefValue
import proofs.«174061_j72688026517959_2_alg».proof.Proof.ScoreDefs
import proofs.«174061_j72688026517959_2_alg».proof.Proof.LibTrailingReduce
import Idealize.ShloMosaic.Lib.Pipeline.Value
import Idealize.ShloMosaic.PureOps.Ideal.Laws

set_option maxRecDepth 16384

noncomputable section

namespace Cert.ReferenceIdeal.RefScores

open Cert.ReferenceIdeal Cert.ReferenceIdeal.Gen Cert.ReferenceIdeal.RefValue Idealize.ShloMosaic Idealize.ShloMosaic.ValueIdx Saliency

/-! ### Coordinate equations of a broadcast -/

/-- On an axis of extent other than one a broadcast reads the result's coordinate. -/
theorem bc_ne {n : Nat} (hn : n ≠ 1) {x y : Nat} (hxy : x = y) : x = if n = 1 then 0 else y := by
  rw [if_neg hn]; exact hxy
/-- On a unit axis a broadcast reads coordinate zero. -/
theorem bc_one {n : Nat} (hn : n = 1) {x y : Nat} (hx : x = 0) : x = if n = 1 then 0 else y := by
  rw [if_pos hn]; exact hx

/-! ### The frame maps and the T-mean map at an index -/

/-- The frame maps are x with the channel and frame axes exchanged. -/
theorem frames_apply (X : S8x32x16x112x112.Idx → EReal) (b : Fin 8) (t : Fin 16) (c : Fin 32) (h w : Fin 112) :
    frames X (ix5 b t c h w) = X (ix5 b c t h w) := by
  unfold frames
  exact transpose_apply _ X _ (ix5 b t c h w) (ix5 b c t h w)
    (fun a => match a with | ⟨0, _⟩ => rfl | ⟨1, _⟩ => rfl | ⟨2, _⟩ => rfl | ⟨3, _⟩ => rfl | ⟨4, _⟩ => rfl)

theorem frames_pix (X : S8x32x16x112x112.Idx → EReal) (b : Fin 8) (t : Fin 16) (p : Pix) :
    frames X (ix5 b t p.1 p.2.1 p.2.2) = frameOf X b t p := frames_apply X b t p.1 p.2.1 p.2.2

/-- The T-mean map at (b, c, h, w) is the sum over the frames divided by 16. -/
theorem meanMap_apply (X : S8x32x16x112x112.Idx → EReal) (b : Fin 8) (c : Fin 32) (h w : Fin 112) :
    meanMap X (ix4 b c h w) = meanOf X b (c, h, w) := by
  have hd : broadcastInDim S8x32x112x112 ![] bcast_S_S8x32x112x112 (constant (F := Ideal) S_ .f32 0x41800000#32) (ix4 b c h w)
      = sixteenLit :=
    (broadcastInDim_apply _ _ _ (ix4 b c h w) ix0 (fun a => a.elim0)).trans rfl
  have hn : Host.reduceAdd (F := Ideal) X c0 reducesTo_S8x32x16x112x112_S8x32x112x112_d2 h_S_ (ix4 b c h w)
      = ∑ t : Fin 16, X (ix5 b c t h w) := by
    show Ideal.hostReduceAdd reducesTo_S8x32x16x112x112_S8x32x112x112_d2 X (c0 (Shape.Idx.first h_S_)) (ix4 b c h w) = _
    refine (Ideal.hostReduceAdd_single _ (by decide) X _ _).trans ?_
    rw [show c0 (Shape.Idx.first h_S_) = (0 : EReal) from Ideal.ofBits_zero_f32, zero_add]
    exact Finset.sum_congr rfl fun k _ => congrArg X (funext fun a => Fin.ext (match a with
      | ⟨0, _⟩ => rfl | ⟨1, _⟩ => rfl | ⟨2, _⟩ => rfl | ⟨3, _⟩ => rfl | ⟨4, _⟩ => rfl))
  unfold meanMap meanOf
  show Ideal.div _ _ = Ideal.div _ _
  rw [hn, hd]

theorem meanMap_pix (X : S8x32x16x112x112.Idx → EReal) (b : Fin 8) (p : Pix) :
    meanMap X (ix4 b p.1 p.2.1 p.2.2) = meanOf X b p := meanMap_apply X b p.1 p.2.1 p.2.2

/-! ### The layout helpers at an index -/

theorem k5_apply (v : FVec Ideal S8x16 .f32) (b : Fin 8) (t : Fin 16) :
    k5 v (ix5 b t (0 : Fin 1) (0 : Fin 1) (0 : Fin 1)) = v (ix2 b t) := by
  unfold k5
  exact broadcastInDim_apply _ _ v _ (ix2 b t) (fun a => match a with
    | ⟨0, _⟩ => bc_ne (n := 8) (by decide) rfl
    | ⟨1, _⟩ => bc_ne (n := 16) (by decide) rfl)

theorem up5_apply (v : FVec Ideal S8x16x1x1x1 .f32) (b : Fin 8) (t : Fin 16) (c : Fin 32) (h w : Fin 112) :
    up5 v (ix5 b t c h w) = v (ix5 b t (0 : Fin 1) (0 : Fin 1) (0 : Fin 1)) := by
  unfold up5
  exact broadcastInDim_apply _ _ v _ (ix5 b t (0 : Fin 1) (0 : Fin 1) (0 : Fin 1)) (fun a => match a with
    | ⟨0, _⟩ => bc_ne (n := 8) (by decide) rfl
    | ⟨1, _⟩ => bc_ne (n := 16) (by decide) rfl
    | ⟨2, _⟩ => bc_one (n := 1) rfl rfl
    | ⟨3, _⟩ => bc_one (n := 1) rfl rfl
    | ⟨4, _⟩ => bc_one (n := 1) rfl rfl)

theorem lit5_apply (w : BitVec 32) (i : S8x16x1x1x1.Idx) : lit5 w i = Ideal.ofBits .f32 w := by
  unfold lit5
  exact (broadcastInDim_apply _ _ _ i ix0 (fun a => a.elim0)).trans rfl

theorem k4_apply (v : FVec Ideal S8 .f32) (b : Fin 8) :
    k4 v (ix4 b (0 : Fin 1) (0 : Fin 1) (0 : Fin 1)) = v (ix1 b) := by
  unfold k4
  exact broadcastInDim_apply _ _ v _ (ix1 b) (fun a => match a with
    | ⟨0, _⟩ => bc_ne (n := 8) (by decide) rfl)

theorem up4_apply (v : FVec Ideal S8x1x1x1 .f32) (b : Fin 8) (c : Fin 32) (h w : Fin 112) :
    up4 v (ix4 b c h w) = v (ix4 b (0 : Fin 1) (0 : Fin 1) (0 : Fin 1)) := by
  unfold up4
  exact broadcastInDim_apply _ _ v _ (ix4 b (0 : Fin 1) (0 : Fin 1) (0 : Fin 1)) (fun a => match a with
    | ⟨0, _⟩ => bc_ne (n := 8) (by decide) rfl
    | ⟨1, _⟩ => bc_one (n := 1) rfl rfl
    | ⟨2, _⟩ => bc_one (n := 1) rfl rfl
    | ⟨3, _⟩ => bc_one (n := 1) rfl rfl)

theorem lit4_apply (w : BitVec 32) (i : S8x1x1x1.Idx) : lit4 w i = Ideal.ofBits .f32 w := by
  unfold lit4
  exact (broadcastInDim_apply _ _ _ i ix0 (fun a => a.elim0)).trans rfl

/-- A per-batch map repeated over the frames, at (b, t, c, h, w), is the map at (b, c, h, w). -/
theorem overT_apply (v : FVec Ideal S8x32x112x112 .f32) (b : Fin 8) (t : Fin 16) (c : Fin 32) (h w : Fin 112) :
    overT v (ix5 b t c h w) = v (ix4 b c h w) := by
  unfold overT
  refine (broadcastInDim_apply _ _ _ _ (ix5 b (0 : Fin 1) c h w) (fun a => match a with
    | ⟨0, _⟩ => bc_ne (n := 8) (by decide) rfl
    | ⟨1, _⟩ => bc_one (n := 1) rfl rfl
    | ⟨2, _⟩ => bc_ne (n := 32) (by decide) rfl
    | ⟨3, _⟩ => bc_ne (n := 112) (by decide) rfl
    | ⟨4, _⟩ => bc_ne (n := 112) (by decide) rfl)).trans ?_
  exact broadcastInDim_apply _ _ v _ (ix4 b c h w) (fun a => match a with
    | ⟨0, _⟩ => bc_ne (n := 8) (by decide) rfl
    | ⟨1, _⟩ => bc_ne (n := 32) (by decide) rfl
    | ⟨2, _⟩ => bc_ne (n := 112) (by decide) rfl
    | ⟨3, _⟩ => bc_ne (n := 112) (by decide) rfl)

/-- A per-batch value repeated over the frames, at (b, t), is the value at b. -/
theorem overF_apply (v : FVec Ideal S8 .f32) (b : Fin 8) (t : Fin 16) : overF v (ix2 b t) = v (ix1 b) := by
  unfold overF
  refine (broadcastInDim_apply _ _ _ _ (ix2 b (0 : Fin 1)) (fun a => match a with
    | ⟨0, _⟩ => bc_ne (n := 8) (by decide) rfl
    | ⟨1, _⟩ => bc_one (n := 1) rfl rfl)).trans ?_
  exact broadcastInDim_apply _ _ v _ (ix1 b) (fun a => match a with
    | ⟨0, _⟩ => bc_ne (n := 8) (by decide) rfl)

/-! ### The reduces over the three trailing axes at an index -/

theorem c0_first : c0 (Shape.Idx.first h_S_) = (0 : EReal) := Ideal.ofBits_zero_f32

theorem posInf_first : constant (F := Ideal) S_ .f32 0x7F800000#32 (Shape.Idx.first h_S_) = (⊤ : EReal) := by
  show Ideal.ofBits .f32 0x7F800000#32 = ⊤
  simp [Ideal.ofBits, Ideal.ieee]

theorem negInf_first : constant (F := Ideal) S_ .f32 0xFF800000#32 (Shape.Idx.first h_S_) = (⊥ : EReal) := by
  show Ideal.ofBits .f32 0xFF800000#32 = ⊥
  simp [Ideal.ofBits, Ideal.ieee]

/-- The sum over a frame map's three trailing axes is the sum over the pixels. -/
theorem sum5_apply (v : FVec Ideal S8x16x32x112x112 .f32) (b : Fin 8) (t : Fin 16) :
    sum5 v (ix2 b t) = ∑ p : Pix, v (ix5 b t p.1 p.2.1 p.2.2) := by
  unfold sum5
  show Ideal.hostReduceAdd reducesTo_S8x16x32x112x112_S8x16_d2_3_4 v (c0 (Shape.Idx.first h_S_)) (ix2 b t) = _
  refine (LibTrailingReduce.hostReduceAdd_of5 _ v _ b t).trans ?_
  rw [c0_first, zero_add, Fintype.sum_prod_type]
  refine Finset.sum_congr rfl fun k _ => ?_
  rw [Fintype.sum_prod_type]

theorem sum4_apply (v : FVec Ideal S8x32x112x112 .f32) (b : Fin 8) :
    sum4 v (ix1 b) = ∑ p : Pix, v (ix4 b p.1 p.2.1 p.2.2) := by
  unfold sum4
  show Ideal.hostReduceAdd reducesTo_S8x32x112x112_S8_d1_2_3 v (c0 (Shape.Idx.first h_S_)) (ix1 b) = _
  refine (LibTrailingReduce.hostReduceAdd_of4 _ v _ b).trans ?_
  rw [c0_first, zero_add, Fintype.sum_prod_type]
  refine Finset.sum_congr rfl fun k _ => ?_
  rw [Fintype.sum_prod_type]

/-- The minimum over a frame map's three trailing axes is the infimum over the pixels. -/
theorem min5_apply (v : FVec Ideal S8x16x32x112x112 .f32) (b : Fin 8) (t : Fin 16) :
    min5 v (ix2 b t) = ⨅ p : Pix, v (ix5 b t p.1 p.2.1 p.2.2) := by
  unfold min5
  refine eq_of_forall_le_iff fun z => ?_
  refine (LibTrailingReduce.le_hostReduceMin_of5 _ h_S_ v _ b t z).trans ?_
  rw [posInf_first, le_iInf_iff]
  exact ⟨fun hz p => hz.2 p.1 p.2.1 p.2.2, fun hz => ⟨le_top, fun k l n => hz (k, l, n)⟩⟩

theorem max5_apply (v : FVec Ideal S8x16x32x112x112 .f32) (b : Fin 8) (t : Fin 16) :
    max5 v (ix2 b t) = ⨆ p : Pix, v (ix5 b t p.1 p.2.1 p.2.2) := by
  unfold max5
  refine eq_of_forall_ge_iff fun z => ?_
  refine (LibTrailingReduce.hostReduceMax_le_of5 _ h_S_ v _ b t z).trans ?_
  rw [negInf_first, iSup_le_iff]
  exact ⟨fun hz p => hz.2 p.1 p.2.1 p.2.2, fun hz => ⟨bot_le, fun k l n => hz (k, l, n)⟩⟩

theorem min4_apply (v : FVec Ideal S8x32x112x112 .f32) (b : Fin 8) :
    min4 v (ix1 b) = ⨅ p : Pix, v (ix4 b p.1 p.2.1 p.2.2) := by
  unfold min4
  refine eq_of_forall_le_iff fun z => ?_
  refine (LibTrailingReduce.le_hostReduceMin_of4 _ h_S_ v _ b z).trans ?_
  rw [posInf_first, le_iInf_iff]
  exact ⟨fun hz p => hz.2 p.1 p.2.1 p.2.2, fun hz => ⟨le_top, fun k l n => hz (k, l, n)⟩⟩

theorem max4_apply (v : FVec Ideal S8x32x112x112 .f32) (b : Fin 8) :
    max4 v (ix1 b) = ⨆ p : Pix, v (ix4 b p.1 p.2.1 p.2.2) := by
  unfold max4
  refine eq_of_forall_ge_iff fun z => ?_
  refine (LibTrailingReduce.hostReduceMax_le_of4 _ h_S_ v _ b z).trans ?_
  rw [negInf_first, iSup_le_iff]
  exact ⟨fun hz p => hz.2 p.1 p.2.1 p.2.2, fun hz => ⟨bot_le, fun k l n => hz (k, l, n)⟩⟩

/-! ### The extrema of the frame maps and of the T-mean map -/

theorem min5_frames (X : S8x32x16x112x112.Idx → EReal) (b : Fin 8) (t : Fin 16) :
    min5 (frames X) (ix2 b t) = ⨅ p, frameOf X b t p :=
  (min5_apply (frames X) b t).trans (iInf_congr fun p => frames_pix X b t p)

theorem max5_frames (X : S8x32x16x112x112.Idx → EReal) (b : Fin 8) (t : Fin 16) :
    max5 (frames X) (ix2 b t) = ⨆ p, frameOf X b t p :=
  (max5_apply (frames X) b t).trans (iSup_congr fun p => frames_pix X b t p)

theorem min4_mean (X : S8x32x16x112x112.Idx → EReal) (b : Fin 8) : min4 (meanMap X) (ix1 b) = ⨅ p, meanOf X b p :=
  (min4_apply (meanMap X) b).trans (iInf_congr fun p => meanMap_pix X b p)

theorem max4_mean (X : S8x32x16x112x112.Idx → EReal) (b : Fin 8) : max4 (meanMap X) (ix1 b) = ⨆ p, meanOf X b p :=
  (max4_apply (meanMap X) b).trans (iSup_congr fun p => meanMap_pix X b p)

/-! ### Congruences of the pointwise operations -/

theorem sub_congr {a a' c c' : EReal} (ha : a = a') (hc : c = c') : a - c = a' - c' := by rw [ha, hc]
theorem mul_congr {a a' c c' : EReal} (ha : a = a') (hc : c = c') : a * c = a' * c' := by rw [ha, hc]
theorem div_congr {a a' c c' : EReal} (ha : a = a') (hc : c = c') : Ideal.div a c = Ideal.div a' c' := by rw [ha, hc]
theorem min_congr {a a' c c' : EReal} (ha : a = a') (hc : c = c') : min a c = min a' c' := by rw [ha, hc]

/-- The host's division and square root at an index, on the extended reals. -/
theorem hostDivf_apply {s : Shape} {φ : FTy} (a v : FVec Ideal s φ) (i : s.Idx) :
    Host.divf (F := Ideal) a v i = Ideal.div (a i) (v i) := rfl
theorem hostSqrt_apply {s : Shape} {φ : FTy} (a : FVec Ideal s φ) (i : s.Idx) :
    Host.sqrt (F := Ideal) a i = Ideal.sqrt (a i) := rfl

/-! ### The correlation: the frame maps' side -/

theorem sMean_apply (X : S8x32x16x112x112.Idx → EReal) (b : Fin 8) (t : Fin 16) :
    sMean X (ix5 b t (0 : Fin 1) (0 : Fin 1) (0 : Fin 1)) = Ideal.div (∑ q, frameOf X b t q) nLit := by
  unfold sMean
  show Ideal.div (k5 (sum5 (frames X)) (ix5 b t (0 : Fin 1) (0 : Fin 1) (0 : Fin 1)))
    (lit5 0x48C40000#32 (ix5 b t (0 : Fin 1) (0 : Fin 1) (0 : Fin 1))) = _
  exact div_congr ((k5_apply _ b t).trans ((sum5_apply _ b t).trans
    (Finset.sum_congr rfl fun p _ => frames_pix X b t p))) (lit5_apply _ _)

theorem cen_pix (X : S8x32x16x112x112.Idx → EReal) (b : Fin 8) (t : Fin 16) (p : Pix) :
    cen X (ix5 b t p.1 p.2.1 p.2.2) = frameOf X b t p - Ideal.div (∑ q, frameOf X b t q) nLit := by
  unfold cen
  exact (subf_apply _ _ _).trans (sub_congr (frames_pix X b t p) ((up5_apply _ b t _ _ _).trans (sMean_apply X b t)))

theorem sStd_apply (X : S8x32x16x112x112.Idx → EReal) (b : Fin 8) (t : Fin 16) :
    sStd X (ix5 b t (0 : Fin 1) (0 : Fin 1) (0 : Fin 1))
      = Ideal.sqrt (Ideal.div (∑ q, (frameOf X b t q - Ideal.div (∑ r, frameOf X b t r) nLit)
          * (frameOf X b t q - Ideal.div (∑ r, frameOf X b t r) nLit)) n1Lit) := by
  unfold sStd
  show Ideal.sqrt (Ideal.div (k5 (sum5 (mulf (cen X) (cen X))) (ix5 b t (0 : Fin 1) (0 : Fin 1) (0 : Fin 1)))
    (lit5 0x48C3FFE0#32 (ix5 b t (0 : Fin 1) (0 : Fin 1) (0 : Fin 1)))) = _
  exact congrArg Ideal.sqrt (div_congr ((k5_apply _ b t).trans ((sum5_apply _ b t).trans
    (Finset.sum_congr rfl fun p _ => (mulf_apply _ _ _).trans (mul_congr (cen_pix X b t p) (cen_pix X b t p)))))
    (lit5_apply _ _))

theorem aMap_pix (X : S8x32x16x112x112.Idx → EReal) (b : Fin 8) (t : Fin 16) (p : Pix) :
    aMap X (ix5 b t p.1 p.2.1 p.2.2) = standardised (frameOf X b t) p := by
  unfold aMap standardised
  show Ideal.div (cen X (ix5 b t p.1 p.2.1 p.2.2)) (up5 (sStd X) (ix5 b t p.1 p.2.1 p.2.2)) = _
  exact div_congr (cen_pix X b t p) ((up5_apply _ b t _ _ _).trans (sStd_apply X b t))

/-! ### The correlation: the T-mean map's side -/

theorem gMean_apply (X : S8x32x16x112x112.Idx → EReal) (b : Fin 8) :
    gMean X (ix4 b (0 : Fin 1) (0 : Fin 1) (0 : Fin 1)) = Ideal.div (∑ q, meanOf X b q) nLit := by
  unfold gMean
  show Ideal.div (k4 (sum4 (meanMap X)) (ix4 b (0 : Fin 1) (0 : Fin 1) (0 : Fin 1)))
    (lit4 0x48C40000#32 (ix4 b (0 : Fin 1) (0 : Fin 1) (0 : Fin 1))) = _
  exact div_congr ((k4_apply _ b).trans ((sum4_apply _ b).trans
    (Finset.sum_congr rfl fun p _ => meanMap_pix X b p))) (lit4_apply _ _)

theorem gcen_pix (X : S8x32x16x112x112.Idx → EReal) (b : Fin 8) (p : Pix) :
    gcen X (ix4 b p.1 p.2.1 p.2.2) = meanOf X b p - Ideal.div (∑ q, meanOf X b q) nLit := by
  unfold gcen
  exact (subf_apply _ _ _).trans (sub_congr (meanMap_pix X b p) ((up4_apply _ b _ _ _).trans (gMean_apply X b)))

theorem gStd_apply (X : S8x32x16x112x112.Idx → EReal) (b : Fin 8) :
    gStd X (ix4 b (0 : Fin 1) (0 : Fin 1) (0 : Fin 1))
      = Ideal.sqrt (Ideal.div (∑ q, (meanOf X b q - Ideal.div (∑ r, meanOf X b r) nLit)
          * (meanOf X b q - Ideal.div (∑ r, meanOf X b r) nLit)) n1Lit) := by
  unfold gStd
  show Ideal.sqrt (Ideal.div (k4 (sum4 (mulf (gcen X) (gcen X))) (ix4 b (0 : Fin 1) (0 : Fin 1) (0 : Fin 1)))
    (lit4 0x48C3FFE0#32 (ix4 b (0 : Fin 1) (0 : Fin 1) (0 : Fin 1)))) = _
  exact congrArg Ideal.sqrt (div_congr ((k4_apply _ b).trans ((sum4_apply _ b).trans
    (Finset.sum_congr rfl fun p _ => (mulf_apply _ _ _).trans (mul_congr (gcen_pix X b p) (gcen_pix X b p)))))
    (lit4_apply _ _))

theorem bMap_pix (X : S8x32x16x112x112.Idx → EReal) (b : Fin 8) (p : Pix) :
    bMap X (ix4 b p.1 p.2.1 p.2.2) = standardised (meanOf X b) p := by
  unfold bMap standardised
  show Ideal.div (gcen X (ix4 b p.1 p.2.1 p.2.2)) (up4 (gStd X) (ix4 b p.1 p.2.1 p.2.2)) = _
  exact div_congr (gcen_pix X b p) ((up4_apply _ b _ _ _).trans (gStd_apply X b))

/-! ### The correlation -/

theorem bb_apply (X : S8x32x16x112x112.Idx → EReal) (b : Fin 8) :
    bb X (ix1 b) = ∑ p, standardised (meanOf X b) p * standardised (meanOf X b) p := by
  unfold bb
  exact (sum4_apply _ b).trans (Finset.sum_congr rfl fun p _ =>
    (mulf_apply _ _ _).trans (mul_congr (bMap_pix X b p) (bMap_pix X b p)))

theorem ab_apply (X : S8x32x16x112x112.Idx → EReal) (b : Fin 8) (t : Fin 16) :
    ab X (ix2 b t) = ∑ p, standardised (frameOf X b t) p * standardised (meanOf X b) p := by
  unfold ab
  exact (sum5_apply _ b t).trans (Finset.sum_congr rfl fun p _ =>
    (mulf_apply _ _ _).trans (mul_congr (aMap_pix X b t p) ((overT_apply _ b t _ _ _).trans (bMap_pix X b p))))

theorem aa_apply (X : S8x32x16x112x112.Idx → EReal) (b : Fin 8) (t : Fin 16) :
    aa X (ix2 b t) = ∑ p, standardised (frameOf X b t) p * standardised (frameOf X b t) p := by
  unfold aa
  exact (sum5_apply _ b t).trans (Finset.sum_congr rfl fun p _ =>
    (mulf_apply _ _ _).trans (mul_congr (aMap_pix X b t p) (aMap_pix X b t p)))

theorem aabb_apply (X : S8x32x16x112x112.Idx → EReal) (b : Fin 8) (t : Fin 16) :
    aabb X (ix2 b t) = (∑ p, standardised (frameOf X b t) p * standardised (frameOf X b t) p)
      * (∑ p, standardised (meanOf X b) p * standardised (meanOf X b) p) := by
  unfold aabb
  exact (mulf_apply _ _ _).trans (mul_congr (aa_apply X b t) ((overF_apply _ b t).trans (bb_apply X b)))

/-- The reference's correlation at (b, t) is the correlation of the standardised frame map and T-mean map. -/
theorem ccR_apply (X : S8x32x16x112x112.Idx → EReal) (b : Fin 8) (t : Fin 16) :
    ccR X (ix2 b t) = ccRef (frameOf X b t) (meanOf X b) := by
  unfold ccR ccRef
  show Ideal.div (ab X (ix2 b t)) (Ideal.sqrt (aabb X (ix2 b t))) = _
  exact div_congr (ab_apply X b t) (congrArg Ideal.sqrt (aabb_apply X b t))

/-! ### The similarity -/

theorem sMin_apply (X : S8x32x16x112x112.Idx → EReal) (b : Fin 8) (t : Fin 16) :
    sMin X (ix5 b t (0 : Fin 1) (0 : Fin 1) (0 : Fin 1)) = ⨅ q, frameOf X b t q := by
  unfold sMin
  exact (k5_apply _ b t).trans (min5_frames X b t)

theorem sMax_apply (X : S8x32x16x112x112.Idx → EReal) (b : Fin 8) (t : Fin 16) :
    sMax X (ix5 b t (0 : Fin 1) (0 : Fin 1) (0 : Fin 1)) = ⨆ q, frameOf X b t q := by
  unfold sMax
  exact (k5_apply _ b t).trans (max5_frames X b t)

theorem uMap_pix (X : S8x32x16x112x112.Idx → EReal) (b : Fin 8) (t : Fin 16) (p : Pix) :
    uMap X (ix5 b t p.1 p.2.1 p.2.2) = minmax (frameOf X b t) p := by
  unfold uMap minmax
  refine (hostDivf_apply _ _ _).trans ?_
  exact div_congr
    ((subf_apply _ _ _).trans (sub_congr (frames_pix X b t p) ((up5_apply _ b t _ _ _).trans (sMin_apply X b t))))
    ((up5_apply _ b t _ _ _).trans ((subf_apply _ _ _).trans (sub_congr (sMax_apply X b t) (sMin_apply X b t))))

theorem snMap_pix (X : S8x32x16x112x112.Idx → EReal) (b : Fin 8) (t : Fin 16) (p : Pix) :
    snMap X (ix5 b t p.1 p.2.1 p.2.2) = Ideal.div (minmax (frameOf X b t) p) (∑ q, minmax (frameOf X b t) q) := by
  unfold snMap
  show Ideal.div (uMap X (ix5 b t p.1 p.2.1 p.2.2)) (up5 (k5 (sum5 (uMap X))) (ix5 b t p.1 p.2.1 p.2.2)) = _
  exact div_congr (uMap_pix X b t p) ((up5_apply _ b t _ _ _).trans ((k5_apply _ b t).trans
    ((sum5_apply _ b t).trans (Finset.sum_congr rfl fun q _ => uMap_pix X b t q))))

theorem gMin_apply (X : S8x32x16x112x112.Idx → EReal) (b : Fin 8) :
    gMin X (ix4 b (0 : Fin 1) (0 : Fin 1) (0 : Fin 1)) = ⨅ q, meanOf X b q := by
  unfold gMin
  exact (k4_apply _ b).trans (min4_mean X b)

theorem gMax_apply (X : S8x32x16x112x112.Idx → EReal) (b : Fin 8) :
    gMax X (ix4 b (0 : Fin 1) (0 : Fin 1) (0 : Fin 1)) = ⨆ q, meanOf X b q := by
  unfold gMax
  exact (k4_apply _ b).trans (max4_mean X b)

theorem guMap_pix (X : S8x32x16x112x112.Idx → EReal) (b : Fin 8) (p : Pix) :
    guMap X (ix4 b p.1 p.2.1 p.2.2) = minmax (meanOf X b) p := by
  unfold guMap minmax
  refine (hostDivf_apply _ _ _).trans ?_
  exact div_congr
    ((subf_apply _ _ _).trans (sub_congr (meanMap_pix X b p) ((up4_apply _ b _ _ _).trans (gMin_apply X b))))
    ((up4_apply _ b _ _ _).trans ((subf_apply _ _ _).trans (sub_congr (gMax_apply X b) (gMin_apply X b))))

theorem gnMap_pix (X : S8x32x16x112x112.Idx → EReal) (b : Fin 8) (p : Pix) :
    gnMap X (ix4 b p.1 p.2.1 p.2.2) = Ideal.div (minmax (meanOf X b) p) (∑ q, minmax (meanOf X b) q) := by
  unfold gnMap
  show Ideal.div (guMap X (ix4 b p.1 p.2.1 p.2.2)) (up4 (k4 (sum4 (guMap X))) (ix4 b p.1 p.2.1 p.2.2)) = _
  exact div_congr (guMap_pix X b p) ((up4_apply _ b _ _ _).trans ((k4_apply _ b).trans
    ((sum4_apply _ b).trans (Finset.sum_congr rfl fun q _ => guMap_pix X b q))))

/-- The reference's similarity at (b, t) is the similarity of the normalised frame map and T-mean map. -/
theorem simR_apply (X : S8x32x16x112x112.Idx → EReal) (b : Fin 8) (t : Fin 16) :
    simR X (ix2 b t) = simRef (frameOf X b t) (meanOf X b) := by
  unfold simR simRef
  exact (sum5_apply _ b t).trans (Finset.sum_congr rfl fun p _ =>
    (minimumf_apply _ _ _).trans (min_congr (snMap_pix X b t p) ((overT_apply _ b t _ _ _).trans (gnMap_pix X b p))))

end Cert.ReferenceIdeal.RefScores

end
-- ==== Proof.ValueEq.lean ====
/-
  The two programs' results agree on the precondition's domain. The precondition makes every entry of x a real
  number and makes every frame map and every T-mean map non-constant (its minimum lies below its maximum); on such
  families the two spellings of each score agree (Proof/ScoreBridge.lean), the programs' scores at (b, t) are those
  spellings of the frame map (b, t) and the T-mean map b, and equal scores give equal results (Proof/TailBridge.lean).
-/
import proofs.«174061_j72688026517959_2_alg».proof.Proof.TailBridge
import proofs.«174061_j72688026517959_2_alg».proof.Proof.ScoreBridge
import proofs.«174061_j72688026517959_2_alg».proof.Proof.PreFacts
import proofs.«174061_j72688026517959_2_alg».proof.Proof.KernelScores
import proofs.«174061_j72688026517959_2_alg».proof.Proof.RefScores

set_option maxRecDepth 16384

noncomputable section

namespace Cert.ValueEq

open Idealize.ShloMosaic Idealize.ShloMosaic.ValueIdx Saliency
open Cert.KernelIdeal (S8x32x16x112x112)

/-- An extended real whose absolute value is below +∞ is a real number. -/
theorem real_of_abs_lt_top (a : EReal) (h : max a (-a) < ⊤) : ∃ r : ℝ, a = (r : EReal) := by
  have h1 : a ≠ ⊤ := fun e => by rw [e] at h; simp at h
  have h2 : a ≠ ⊥ := fun e => by rw [e] at h; simp at h
  exact ⟨a.toReal, (EReal.coe_toReal h1 h2).symm⟩

/-- A real family whose infimum lies below its supremum is not constant. -/
theorem nonconst_of_lt (f : Pix → ℝ) (h : (⨅ p, (f p : EReal)) < ⨆ p, (f p : EReal)) : ∃ p q, f p ≠ f q := by
  by_contra hc
  have hall : ∀ p q, f p = f q := fun p q => by_contra fun hne => hc ⟨p, q, hne⟩
  have hle : (⨆ p, (f p : EReal)) ≤ ⨅ p, (f p : EReal) :=
    iSup_le fun p => le_iInf fun q => by rw [hall p q]
  exact absurd h (not_lt.mpr hle)

/-- The equality of the results, from the scores' index readings. -/
theorem value_eq_of (X : S8x32x16x112x112.Idx → EReal)
    (hpre : Cert.Pre_finite_inputs.fn (F := Ideal) X = fun _ => 1#1)
    (kcc : ∀ (b : Fin 8) (t : Fin 16), Cert.KernelIdeal.KValue.kernelCc X (ix2 b t) = ccKer (frameOf X b t) (meanOf X b))
    (ksim : ∀ (b : Fin 8) (t : Fin 16), Cert.KernelIdeal.KValue.kernelSim X (ix3 b t (0 : Fin 1)) = simKer (frameOf X b t) (meanOf X b))
    (rcc : ∀ (b : Fin 8) (t : Fin 16), Cert.ReferenceIdeal.RefValue.ccR X (ix2 b t) = ccRef (frameOf X b t) (meanOf X b))
    (rsim : ∀ (b : Fin 8) (t : Fin 16), Cert.ReferenceIdeal.RefValue.simR X (ix2 b t) = simRef (frameOf X b t) (meanOf X b))
    (fmin : ∀ (b : Fin 8) (t : Fin 16), Cert.ReferenceIdeal.RefValue.min5 (Cert.ReferenceIdeal.RefValue.frames X) (ix2 b t) = ⨅ p, frameOf X b t p)
    (fmax : ∀ (b : Fin 8) (t : Fin 16), Cert.ReferenceIdeal.RefValue.max5 (Cert.ReferenceIdeal.RefValue.frames X) (ix2 b t) = ⨆ p, frameOf X b t p)
    (gmin : ∀ (b : Fin 8), Cert.ReferenceIdeal.RefValue.min4 (Cert.ReferenceIdeal.RefValue.meanMap X) (ix1 b) = ⨅ p, meanOf X b p)
    (gmax : ∀ (b : Fin 8), Cert.ReferenceIdeal.RefValue.max4 (Cert.ReferenceIdeal.RefValue.meanMap X) (ix1 b) = ⨆ p, meanOf X b p) :
    Cert.KernelIdeal.KValue.kernelOut X = Cert.ReferenceIdeal.RefValue.refOut X := by
  obtain ⟨hfin, hfr, hmn⟩ := Cert.PreFacts.decode X hpre
  choose xr hxr using fun i => real_of_abs_lt_top (X i) (hfin i)
  have hframe : ∀ (b : Fin 8) (t : Fin 16),
      frameOf X b t = fun p => ((xr (ix5 b p.1 t p.2.1 p.2.2) : ℝ) : EReal) := fun b t => funext fun p => hxr _
  have hmean : ∀ (b : Fin 8),
      meanOf X b = fun p => (((∑ t : Fin 16, xr (ix5 b p.1 t p.2.1 p.2.2)) / 16 : ℝ) : EReal) := fun b => funext fun p => by
    unfold meanOf
    simp only [hxr, coe_sum]
    rw [sixteenLit_eq]
    exact div_coe_coe _ _ (by norm_num)
  have hxnc : ∀ (b : Fin 8) (t : Fin 16), ∃ p q : Pix,
      xr (ix5 b p.1 t p.2.1 p.2.2) ≠ xr (ix5 b q.1 t q.2.1 q.2.2) := fun b t => by
    refine nonconst_of_lt (fun p => xr (ix5 b p.1 t p.2.1 p.2.2)) ?_
    have h := hfr (ix2 b t)
    have h' : Cert.ReferenceIdeal.RefValue.min5 (Cert.ReferenceIdeal.RefValue.frames X) (ix2 b t)
        < Cert.ReferenceIdeal.RefValue.max5 (Cert.ReferenceIdeal.RefValue.frames X) (ix2 b t) := h
    rw [fmin, fmax, hframe] at h'
    exact h'
  have hgnc : ∀ (b : Fin 8), ∃ p q : Pix,
      (∑ t : Fin 16, xr (ix5 b p.1 t p.2.1 p.2.2)) / 16 ≠ (∑ t : Fin 16, xr (ix5 b q.1 t q.2.1 q.2.2)) / 16 := fun b => by
    refine nonconst_of_lt (fun p => (∑ t : Fin 16, xr (ix5 b p.1 t p.2.1 p.2.2)) / 16) ?_
    have h := hmn (ix1 b)
    have h' : Cert.ReferenceIdeal.RefValue.min4 (Cert.ReferenceIdeal.RefValue.meanMap X) (ix1 b)
        < Cert.ReferenceIdeal.RefValue.max4 (Cert.ReferenceIdeal.RefValue.meanMap X) (ix1 b) := h
    rw [gmin, gmax, hmean] at h'
    exact h'
  refine Cert.TailBridge.out_eq X (fun b t => ?_) (fun b t => ?_)
  · rw [kcc, rcc, hframe, hmean]
    exact cc_bridge _ _ (hxnc b t) (hgnc b)
  · rw [ksim, rsim, hframe, hmean]
    exact sim_bridge _ _ (hxnc b t) (hgnc b)

/-- The two programs' results agree on the precondition's domain. -/
theorem value_eq (X : S8x32x16x112x112.Idx → EReal)
    (hpre : Cert.Pre_finite_inputs.fn (F := Ideal) X = fun _ => 1#1) :
    Cert.KernelIdeal.KValue.kernelOut X = Cert.ReferenceIdeal.RefValue.refOut X :=
  value_eq_of X hpre (fun b t => Cert.KernelIdeal.KernelScores.kernelCc_apply X b t)
    (fun b t => Cert.KernelIdeal.KernelScores.kernelSim_apply X b t (0 : Fin 1))
    (Cert.ReferenceIdeal.RefScores.ccR_apply X) (Cert.ReferenceIdeal.RefScores.simR_apply X)
    (Cert.ReferenceIdeal.RefScores.min5_frames X) (Cert.ReferenceIdeal.RefScores.max5_frames X)
    (Cert.ReferenceIdeal.RefScores.min4_mean X) (Cert.ReferenceIdeal.RefScores.max4_mean X)

end Cert.ValueEq

end
-- ==== Proof.lean ====
/-
  The certificate of the saliency-reweighting kernel (three TensorCore regions: a statistics pass, a similarity pass
  and a reweighting pass, among two stretches of host operations) against its jnp reference, on the extended reals.

  What both programs compute, for x : [8, 32, 16, 112, 112] and n = 32·112·112 entries per (batch, frame) map:
  the correlation cc(b, t) of the frame map x[b, :, t] with the T-mean map xm[b], both standardised with the unbiased
  deviation; the similarity sim(b, t) = Σ min(sn, gn) of the two maps min-max normalised and scaled to unit sum;
  s = 1 − (0.3·cc + 0.7·sim); w = exp(s / max over the frames of s); and the result x·w. The kernel takes every
  sum of the two scores from raw moments (Σx, Σx², Σx·xm, min, max per map), the reference from the centred and
  normalised maps; under the precondition — every entry finite, no frame map and no T-mean map constant, the exact
  domain on which the reference's divisions by s_std, g_std, s_max − s_min, g_max − g_min are defined — both are the
  same real numbers (Proof/SaliencyAlgebra.lean).

  The proof: the two kernel programs' frames (generated), the reference's frame and run (Proof/RefRun.lean), the
  idealization's ledger (empty), the idealized kernel program's value (Proof/KernelValue.lean: its result array is
  `kernelOut` of the argument), the reference's value (Proof/RefValue.lean: `refOut` of the argument), and that the two
  functions agree on the precondition's domain (Proof/ValueEq.lean: the scores at (b, t) are the two spellings of
  Proof/ScoreDefs.lean of the frame map and the T-mean map, which agree on real non-constant families by
  Proof/ScoreBridge.lean, and equal scores give equal results by Proof/TailBridge.lean).
-/
import proofs.«174061_j72688026517959_2_alg».proof.Defs
import proofs.«174061_j72688026517959_2_alg».proof.Proof.Gen.Kernel
import proofs.«174061_j72688026517959_2_alg».proof.Proof.Gen.Kernel.Skeleton
import proofs.«174061_j72688026517959_2_alg».proof.Proof.Gen.Kernel.Launch
import proofs.«174061_j72688026517959_2_alg».proof.Proof.Gen.Kernel.Points
import proofs.«174061_j72688026517959_2_alg».proof.Proof.Gen.Kernel.Frame
import proofs.«174061_j72688026517959_2_alg».proof.Proof.Gen.KernelIdeal
import proofs.«174061_j72688026517959_2_alg».proof.Proof.Gen.KernelIdeal.Skeleton
import proofs.«174061_j72688026517959_2_alg».proof.Proof.Gen.KernelIdeal.Launch
import proofs.«174061_j72688026517959_2_alg».proof.Proof.Gen.KernelIdeal.Points
import proofs.«174061_j72688026517959_2_alg».proof.Proof.Gen.KernelIdeal.Frame
import proofs.«174061_j72688026517959_2_alg».proof.Proof.Gen.ReferenceIdeal
import proofs.«174061_j72688026517959_2_alg».proof.Proof.Gen.Pre_finite_inputs
import proofs.«174061_j72688026517959_2_alg».proof.Proof.KernelValue
import proofs.«174061_j72688026517959_2_alg».proof.Proof.RefRun
import proofs.«174061_j72688026517959_2_alg».proof.Proof.RefValue
import proofs.«174061_j72688026517959_2_alg».proof.Proof.ValueEq
import proofs.«174061_j72688026517959_2_alg».proof.Proof.PreFacts
import proofs.«174061_j72688026517959_2_alg».proof.Proof.SaliencyAlgebra
import proofs.«174061_j72688026517959_2_alg».proof.Proof.LibTrailingReduce
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefRun.frame (F := Ideal) m ρ

/-- The ideal pass rewrote nothing. -/
theorem preserves : Cert.preserves_Kernel_KernelIdeal := trivial

/-- The two programs' results, as functions of the argument, agree on the precondition's domain (Proof/ValueEq.lean). -/
theorem value_eq (x : FVec Ideal Cert.KernelIdeal.S8x32x16x112x112 .f32)
    (hpre : Cert.Pre_finite_inputs.fn (F := Ideal) x = fun _ => 1#1) :
    Cert.KernelIdeal.KValue.kernelOut x = Cert.ReferenceIdeal.RefValue.refOut x :=
  Cert.ValueEq.value_eq x hpre

/-- Both programs run, the kernel's to `kernelOut` of the argument and the reference's to `refOut` of it. -/
theorem algebraic : Cert.algebraic_KernelIdeal_ReferenceIdeal := by
  intro m ρ m' ρ' hpre hagree
  refine ⟨fun c => Cert.KernelIdeal.KValue.kernelOut (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun r h c => ⟨?_, ?_⟩)
    (Cert.ReferenceIdeal.RefRun.run_raw (F := Ideal) m' ρ')
  · refine (h c Cert.ReferenceIdeal.main_v93).trans ((Cert.ReferenceIdeal.RefValue.out_eq _).trans ?_)
    show Cert.ReferenceIdeal.RefValue.refOut (m' ((c.tc : Thread Cert.ReferenceIdeal.nD Cert.ReferenceIdeal.τ).loc Cert.ReferenceIdeal.main_arg0)) = _
    rw [hagree c]
    exact (value_eq _ (hpre c)).symm
  · exact (h c Cert.ReferenceIdeal.main_arg0).trans (Cert.ReferenceIdeal.RefRun.arg0_kept _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
